-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg13 : FVec F S128x40 .f32) (main_arg14 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x40 .f32 := Host.absf main_arg13
  let main_cst_20 : FVec F S_ .f32 := constant S_ .f32 0x7F800000#32
  let main_v55 : FVec F S128x40 .f32 := broadcastInDim S128x40 ![] bcast_S_S128x40 main_cst_20
  let main_v56 : IVec S128x40 1 := cmpf .olt main_v54 main_v55
  let main_c_21 : IVec S_ 1 := constantI S_ 1 1#1
  let main_v57 : IVec S_ 1 := (fun x v => Host.reduce IntOp.andi x v reducesTo_S128x40_S_d0_1 h_S_) main_v56 main_c_21
  let main_v58 : IVec S_ 1 := andi main_v53 main_v57
  let main_v59 : FVec F S40 .f32 := Host.absf main_arg14
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128 .f32) (main_arg12 : FVec F S128 .f32) (main_arg13 : FVec F S128x40 .f32) (main_arg14 : FVec F S40 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128x40 .f32) (main_arg14 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S600000 32) (main_arg2 : IVec S600000 32) (main_arg3 : FVec F S128 .f32) (main_arg4 : FVec F S128 .f32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128x40 .f32) (main_arg14 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S600000 : Shape := ⟨1, ![600000]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩
abbrev S50000 : Shape := ⟨1, ![50000]⟩
abbrev S600000x1 : Shape := ⟨2, ![600000, 1]⟩
abbrev S1x128 : Shape := ⟨2, ![1, 128]⟩
abbrev S5000x128 : Shape := ⟨2, ![5000, 128]⟩
abbrev S600000x128 : Shape := ⟨2, ![600000, 128]⟩
abbrev S50000x1 : Shape := ⟨2, ![50000, 1]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 171
  | .vmem => 23
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128x40, .f32⟩
  | 14 => ⟨S40, .f32⟩
  | 15 => ⟨S_, .f32⟩
  | 16 => ⟨S50000, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S_, .f32⟩
  | 26 => ⟨S600000, .f32⟩
  | 27 => ⟨S50000, .f32⟩
  | 28 => ⟨S50000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S600000, .f32⟩
  | 48 => ⟨S50000, .f32⟩
  | 49 => ⟨S_, .f32⟩
  | 50 => ⟨S128, .f32⟩
  | 51 => ⟨S_, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S50000x128, .f32⟩
  | 58 => ⟨S_, .f32⟩
  | 59 => ⟨S128, .f32⟩
  | 60 => ⟨S_, .f32⟩
  | 61 => ⟨S128, .f32⟩
  | 62 => ⟨S128, .f32⟩
  | 63 => ⟨S_, .f32⟩
  | 64 => ⟨S128, .f32⟩
  | 65 => ⟨S128, .f32⟩
  | 66 => ⟨S128, .f32⟩
  | 67 => ⟨S128, .f32⟩
  | 68 => ⟨S128, .f32⟩
  | 69 => ⟨S128, .f32⟩
  | 70 => ⟨S1x128, .f32⟩
  | 71 => ⟨S1x128, .f32⟩
  | 72 => ⟨S50000x128, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000x128, .f32⟩
  | 82 => ⟨S600000x1, .f32⟩
  | 83 => ⟨S600000x128, .f32⟩
  | 84 => ⟨S600000x128, .f32⟩
  | 85 => ⟨S_, .f32⟩
  | 86 => ⟨S50000x128, .f32⟩
  | 87 => ⟨S600000x1, .i32⟩
  | 88 => ⟨S50000x128, .f32⟩
  | 89 => ⟨S50000x1, .f32⟩
  | 90 => ⟨S50000x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S128, .f32⟩
  | 98 => ⟨S_, .f32⟩
  | 99 => ⟨S128, .f32⟩
  | 100 => ⟨S128, .f32⟩
  | 101 => ⟨S1x128, .f32⟩
  | 102 => ⟨S50000x128, .f32⟩
  | 103 => ⟨S50000x128, .f32⟩
  | 104 => ⟨S50000x128, .f32⟩
  | 105 => ⟨S_, .f32⟩
  | 106 => ⟨S128, .f32⟩
  | 107 => ⟨S_, .f32⟩
  | 108 => ⟨S128, .f32⟩
  | 109 => ⟨S128, .f32⟩
  | 110 => ⟨S_, .f32⟩
  | 111 => ⟨S128, .f32⟩
  | 112 => ⟨S128, .f32⟩
  | 113 => ⟨S128, .f32⟩
  | 114 => ⟨S128, .f32⟩
  | 115 => ⟨S128, .f32⟩
  | 116 => ⟨S128, .f32⟩
  | 117 => ⟨S_, .f32⟩
  | 118 => ⟨S128, .f32⟩
  | 119 => ⟨S1x128, .f32⟩
  | 120 => ⟨S1x128, .f32⟩
  | 121 => ⟨S1x128, .f32⟩
  | 122 => ⟨S50000x128, .f32⟩
  | 123 => ⟨S_, .i32⟩
  | 124 => ⟨S600000, .i32⟩
  | 125 => ⟨S600000, .i1⟩
  | 126 => ⟨S_, .i32⟩
  | 127 => ⟨S600000, .i32⟩
  | _ => ⟨S50000x128, .f32⟩

abbrev hbmTy0_1 (i : Nat) : BufTy := match i % 128 with
  | 0 => ⟨S600000, .i32⟩
  | 1 => ⟨S600000, .i32⟩
  | 2 => ⟨S600000x1, .i32⟩
  | 3 => ⟨S600000x128, .f32⟩
  | 4 => ⟨S600000x1, .f32⟩
  | 5 => ⟨S600000x128, .f32⟩
  | 6 => ⟨S600000x128, .f32⟩
  | 7 => ⟨S_, .f32⟩
  | 8 => ⟨S50000x128, .f32⟩
  | 9 => ⟨S600000x1, .i32⟩
  | 10 => ⟨S50000x128, .f32⟩
  | 11 => ⟨S50000x1, .f32⟩
  | 12 => ⟨S50000x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S128, .f32⟩
  | 20 => ⟨S_, .f32⟩
  | 21 => ⟨S128, .f32⟩
  | 22 => ⟨S128, .f32⟩
  | 23 => ⟨S1x128, .f32⟩
  | 24 => ⟨S50000x128, .f32⟩
  | 25 => ⟨S50000x128, .f32⟩
  | 26 => ⟨S50000x128, .f32⟩
  | 27 => ⟨S_, .f32⟩
  | 28 => ⟨S128, .f32⟩
  | 29 => ⟨S_, .f32⟩
  | 30 => ⟨S128, .f32⟩
  | 31 => ⟨S128, .f32⟩
  | 32 => ⟨S_, .f32⟩
  | 33 => ⟨S128, .f32⟩
  | 34 => ⟨S128, .f32⟩
  | 35 => ⟨S128, .f32⟩
  | 36 => ⟨S128, .f32⟩
  | 37 => ⟨S128, .f32⟩
  | 38 => ⟨S128, .f32⟩
  | 39 => ⟨S1x128, .f32⟩
  | 40 => ⟨S1x128, .f32⟩
  | 41 => ⟨S1x40, .f32⟩
  | 42 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S128x40, .f32⟩
  | .local _ .vmem, ⟨20, _⟩ => ⟨S1x40, .f32⟩
  | .local _ .vmem, ⟨21, _⟩ => ⟨S5000x40, .f32⟩
  | .local _ .vmem, ⟨22, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_c_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_c_5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_c_12 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_13 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_cst_15 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_16 : Ref sig .tc := ⟨.hbm, 105, rfl⟩
abbrev main_v72 : Ref sig .tc := ⟨.hbm, 106, rfl⟩
abbrev main_cst_17 : Ref sig .tc := ⟨.hbm, 107, rfl⟩
abbrev main_v73 : Ref sig .tc := ⟨.hbm, 108, rfl⟩
abbrev main_v74 : Ref sig .tc := ⟨.hbm, 109, rfl⟩
abbrev main_cst_18 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_19 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_20 : Ref sig .tc := ⟨.hbm, 123, rfl⟩
abbrev main_v86 : Ref sig .tc := ⟨.hbm, 124, rfl⟩
abbrev main_v87 : Ref sig .tc := ⟨.hbm, 125, rfl⟩
abbrev main_c_21 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_22 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_23 : Ref sig .tc := ⟨.hbm, 146, rfl⟩
abbrev main_v106 : Ref sig .tc := ⟨.hbm, 147, rfl⟩
abbrev main_cst_24 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_25 : Ref sig .tc := ⟨.hbm, 155, rfl⟩
abbrev main_v113 : Ref sig .tc := ⟨.hbm, 156, rfl⟩
abbrev main_cst_26 : Ref sig .tc := ⟨.hbm, 157, rfl⟩
abbrev main_v114 : Ref sig .tc := ⟨.hbm, 158, rfl⟩
abbrev main_v115 : Ref sig .tc := ⟨.hbm, 159, rfl⟩
abbrev main_cst_27 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S5000x128_S5000x128 : S5000x128.ShapeCasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S50000x40.size a
  hwx2_5 : ∀ i : grid2.Coords, EltTy.bits .f32 = 32 ∨ (Rect.block (s := S50000x40) S5000x40.size (cc2_transform_5 i) (hinb2_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v64) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v82) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v83) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v84) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v85) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v105) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v122) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v123) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v124) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v125) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000 : Shape := ⟨1, ![600000]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩
abbrev S50000 : Shape := ⟨1, ![50000]⟩
abbrev S600000x1 : Shape := ⟨2, ![600000, 1]⟩
abbrev S1x128 : Shape := ⟨2, ![1, 128]⟩
abbrev S600000x128 : Shape := ⟨2, ![600000, 128]⟩
abbrev S50000x1 : Shape := ⟨2, ![50000, 1]⟩
abbrev S50000x40 : Shape := ⟨2, ![50000, 40]⟩
abbrev S1x40 : Shape := ⟨2, ![1, 40]⟩

abbrev nBuf : Space → Nat
  | .hbm => 197
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128x40, .f32⟩
  | 14 => ⟨S40, .f32⟩
  | 15 => ⟨S_, .f32⟩
  | 16 => ⟨S50000, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S_, .f32⟩
  | 26 => ⟨S600000, .f32⟩
  | 27 => ⟨S50000, .f32⟩
  | 28 => ⟨S50000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S600000, .f32⟩
  | 48 => ⟨S50000, .f32⟩
  | 49 => ⟨S_, .f32⟩
  | 50 => ⟨S128, .f32⟩
  | 51 => ⟨S_, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S50000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S128, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S50000x128, .f32⟩
  | 80 => ⟨S_, .i32⟩
  | 81 => ⟨S600000, .i32⟩
  | 82 => ⟨S600000, .i1⟩
  | 83 => ⟨S_, .i32⟩
  | 84 => ⟨S600000, .i32⟩
  | 85 => ⟨S600000, .i32⟩
  | 86 => ⟨S600000, .i32⟩
  | 87 => ⟨S600000x1, .i32⟩
  | 88 => ⟨S600000x128, .f32⟩
  | 89 => ⟨S600000x1, .f32⟩
  | 90 => ⟨S600000x128, .f32⟩
  | 91 => ⟨S600000x128, .f32⟩
  | 92 => ⟨S_, .f32⟩
  | 93 => ⟨S50000x128, .f32⟩
  | 94 => ⟨S600000x1, .i32⟩
  | 95 => ⟨S50000x128, .f32⟩
  | 96 => ⟨S50000x1, .f32⟩
  | 97 => ⟨S50000x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S128, .f32⟩
  | 105 => ⟨S_, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S128, .f32⟩
  | 125 => ⟨S128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S50000x128, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S600000x1, .f32⟩
  | 19 => ⟨S600000x128, .f32⟩
  | 20 => ⟨S600000x128, .f32⟩
  | 21 => ⟨S_, .f32⟩
  | 22 => ⟨S50000x128, .f32⟩
  | 23 => ⟨S600000x1, .i32⟩
  | 24 => ⟨S50000x128, .f32⟩
  | 25 => ⟨S50000x1, .f32⟩
  | 26 => ⟨S50000x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S128, .f32⟩
  | 34 => ⟨S_, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S50000x128, .f32⟩
  | 41 => ⟨S_, .f32⟩
  | 42 => ⟨S128, .f32⟩
  | 43 => ⟨S_, .f32⟩
  | 44 => ⟨S128, .f32⟩
  | 45 => ⟨S128, .f32⟩
  | 46 => ⟨S1x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S128, .f32⟩
  | 54 => ⟨S128, .f32⟩
  | 55 => ⟨S128, .f32⟩
  | 56 => ⟨S1x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S50000x40, .f32⟩
  | 66 => ⟨S1x40, .f32⟩
  | 67 => ⟨S50000x40, .f32⟩
  | 68 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_c_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_c_5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_c_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_14 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_16 : Ref sig .tc := ⟨.hbm, 112, rfl⟩
abbrev main_v79 : Ref sig .tc := ⟨.hbm, 113, rfl⟩
abbrev main_cst_17 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_18 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_call0_cst : Ref sig .tc := ⟨.hbm, 133, rfl⟩
abbrev main_call0_v0 : Ref sig .tc := ⟨.hbm, 134, rfl⟩
abbrev main_v97 : Ref sig .tc := ⟨.hbm, 135, rfl⟩
abbrev main_v98 : Ref sig .tc := ⟨.hbm, 136, rfl⟩
abbrev main_c_19 : Ref sig .tc := ⟨.hbm, 137, rfl⟩
abbrev main_v99 : Ref sig .tc := ⟨.hbm, 138, rfl⟩
abbrev main_v100 : Ref sig .tc := ⟨.hbm, 139, rfl⟩
abbrev main_c_20 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_21 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_22 : Ref sig .tc := ⟨.hbm, 160, rfl⟩
abbrev main_v119 : Ref sig .tc := ⟨.hbm, 161, rfl⟩
abbrev main_cst_23 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_24 : Ref sig .tc := ⟨.hbm, 169, rfl⟩
abbrev main_v126 : Ref sig .tc := ⟨.hbm, 170, rfl⟩
abbrev main_cst_25 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_26 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_call1_cst : Ref sig .tc := ⟨.hbm, 190, rfl⟩
abbrev main_call1_v0 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x40_S50000x40_1_0_0_1_n_n_wf : DotDims.WF S50000x128 S128x40 S50000x40 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/- The run of the idealized kernel program with its result named: from any launch memory with zero counters, every
   weakly fair execution of @main on the TensorCores terminates without fault, and in every final state the result
   array holds the last boundary's contents (the fold `Gen.W6` of the generated frame module) while every argument
   array is as launched. The generated frame theorem establishes, inside its proof, that EVERY unscoped buffer ends at
   `Gen.W6`; it then keeps only the arguments. Here the same fact is read at the result array as well. -/
import proofs.«145119_j4501125726314_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- The run with the result named: termination without fault, the result array `main_v125` at the last boundary's
    contents `Gen.W6 m ρ c`, and each of the fifteen argument arrays as launched. The final thread state holds every
    unscoped buffer at `Gen.W6 m ρ c`; read against the final memory, that gives the first conjunct directly and the
    others through the walk of each argument back to the launch memory. -/
theorem run_result : θ_run defs (onTc (τ := τ) (main (F := F))) ⟨m, fun _ => 0, ρ⟩ (fun r => ∀ c : Dev nD,
      r.2.mem ((c.tc : Thread nD τ).loc main_v125) = Gen.W6 m ρ c (Proc.devRef .tc main_v125)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v125 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

/-- info: 'Cert.KernelIdeal.RunValue.run_result' depends on axioms: [propext, Classical.choice, Quot.sound] -/
#guard_msgs in #print axioms run_result

end Cert.KernelIdeal.RunValue

end
-- ==== Proof.HostSpec.lean ====
/-
  The stages of the graph-convolution network, as terms of host operations over the argument arrays.

  With `deg n = 1 + #{e : dst e = n}` and `dinv = deg^(-1/2)`: the edge weights `edgeNorm e = dinv (src e) · dinv (dst e)`
  and the self-loop weights `selfNorm n = dinv n · dinv n`; for a feature matrix `x` the column means `colMean x`, the
  column variances `colVar x` and `invStd x = (colVar x + ε)^(-1/2)`; the normalisation
  `batchNorm x g b = g · (x − mean) · invStd + b` and its folded form, the per-column scale `bnScale x g = g · invStd` and
  shift `bnShift x g b = b − mean · scale`; and the aggregation
  `aggregate h = scatter-add over edges of (h[src e] · edgeNorm e) into row dst e, plus h · selfNorm, plus the bias`.
  The reference network and the fused network are both compositions of these.
-/
import proofs.«145119_j4501125726314_1_alg».proof.Proof.Gen.ReferenceIdeal

noncomputable section

namespace Cert.GcnSpec

open Cert.ReferenceIdeal Cert.ReferenceIdeal.Gen Idealize.ShloMosaic Idealize.ShloMosaic.TcCoe

variable {F : FTy → Type} [FloatOps F]

/-- A node or edge number below zero counts from the end: `a < 0 ? a + 50000 : a`. -/
def wrapIndex (a : IVec S600000 32) : IVec S600000 32 :=
  select (cmpi .slt a (broadcastInDim S600000 ![] bcast_S_S600000 (constantI S_ 32 0#32)))
    (addi a (broadcastInDim S600000 ![] bcast_S_S600000 (constantI S_ 32 50000#32))) a

/-- `deg^(-1/2)`, the degree counting a self-loop: one plus the number of edges into the node. -/
def invSqrtDeg (dst : IVec S600000 32) : FVec F S50000 .f32 :=
  Host.rsqrt (Host.scatterAdd scatter_S50000_S600000x1_S600000_n_0_0_1
    (broadcastInDim S50000 ![] bcast_S_S50000 (constant S_ .f32 0x3F800000#32))
    (broadcastInDim S600000x1 ![0] bcast_S600000_S600000x1_0 (wrapIndex dst))
    (broadcastInDim S600000 ![] bcast_S_S600000 (constant S_ .f32 0x3F800000#32)))

/-- A node vector read at each edge's node number. -/
def atNodes (v : FVec F S50000 .f32) (idx : IVec S600000 32) : FVec F S600000 .f32 :=
  Host.gather gather_S50000_S600000x1_S600000_n_0_n_n_0_1_1 v
    (broadcastInDim S600000x1 ![0] bcast_S600000_S600000x1_0 (wrapIndex idx))

/-- The weight of an edge: `dinv (src e) · dinv (dst e)`. -/
def edgeNorm (src dst : IVec S600000 32) : FVec F S600000 .f32 :=
  mulf (atNodes (invSqrtDeg (F := F) dst) src) (atNodes (invSqrtDeg (F := F) dst) dst)

/-- The weight of a node's self-loop: `dinv n · dinv n`. -/
def selfNorm (dst : IVec S600000 32) : FVec F S50000 .f32 :=
  mulf (invSqrtDeg (F := F) dst) (invSqrtDeg (F := F) dst)

/-- The fifty thousand, as a row of 128 copies. -/
def nodeCount : FVec F S128 .f32 := broadcastInDim S128 ![] bcast_S_S128 (constant S_ .f32 0x47435000#32)

/-- The sum of each column. -/
def colSum (x : FVec F S50000x128 .f32) : FVec F S128 .f32 :=
  Host.reduceAdd x (constant S_ .f32 0x00000000#32) reducesTo_S50000x128_S128_d0 h_S_

/-- The mean of each column. -/
def colMean (x : FVec F S50000x128 .f32) : FVec F S128 .f32 := Host.divf (colSum x) (nodeCount (F := F))

/-- A row of 128 numbers repeated down the fifty thousand rows. -/
def asRows (v : FVec F S128 .f32) : FVec F S50000x128 .f32 :=
  broadcastInDim S50000x128 ![0, 1] bcast_S1x128_S50000x128_0_1 (broadcastInDim S1x128 ![1] bcast_S128_S1x128_1 v)

/-- The features with each column's mean taken off. -/
def centred (x : FVec F S50000x128 .f32) : FVec F S50000x128 .f32 := subf x (asRows (colMean x))

/-- The (biased) variance of each column. -/
def colVar (x : FVec F S50000x128 .f32) : FVec F S128 .f32 :=
  Host.divf (colSum (mulf (centred x) (centred x))) (nodeCount (F := F))

/-- `(var + ε)^(-1/2)` of each column. -/
def invStd (x : FVec F S50000x128 .f32) : FVec F S128 .f32 :=
  Host.rsqrt (addf (colVar x) (broadcastInDim S128 ![] bcast_S_S128 (constant S_ .f32 0x3727C5AC#32)))

/-- Batch normalisation as the reference spells it: `g · (x − mean) · invStd + b`. -/
def batchNorm (x : FVec F S50000x128 .f32) (g b : FVec F S128 .f32) : FVec F S50000x128 .f32 :=
  addf (mulf (mulf (asRows g) (centred x)) (asRows (invStd x))) (asRows b)

/-- The folded scale `g · invStd`. -/
def bnScale (x : FVec F S50000x128 .f32) (g : FVec F S128 .f32) : FVec F S128 .f32 := mulf g (invStd x)

/-- The folded shift `b − mean · scale`. -/
def bnShift (x : FVec F S50000x128 .f32) (g b : FVec F S128 .f32) : FVec F S128 .f32 :=
  subf b (mulf (colMean x) (bnScale x g))

/-- Clamping below at zero. -/
def relu (a : FVec F S50000x128 .f32) : FVec F S50000x128 .f32 :=
  maximumf a (broadcastInDim S50000x128 ![] bcast_S_S50000x128 (constant S_ .f32 0x00000000#32))

/-- The messages along the edges summed into their target nodes, plus the self-loop term, plus the bias. -/
def aggregate (h : FVec F S50000x128 .f32) (nrm : FVec F S600000 .f32) (sn : FVec F S50000 .f32) (src dst : IVec S600000 32)
    (bias : FVec F S128 .f32) : FVec F S50000x128 .f32 :=
  addf (addf
      (Host.scatterAdd scatter_S50000x128_S600000x1_S600000x128_1_0_0_1
        (broadcastInDim S50000x128 ![] bcast_S_S50000x128 (constant S_ .f32 0x00000000#32))
        (broadcastInDim S600000x1 ![0] bcast_S600000_S600000x1_0 dst)
        (mulf (Host.gather gather_S50000x128_S600000x1_S600000x128_1_0_n_n_0_1_1128 h
            (broadcastInDim S600000x1 ![0] bcast_S600000_S600000x1_0 (wrapIndex src)))
          (broadcastInDim S600000x128 ![0, 1] bcast_S600000x1_S600000x128_0_1
            (broadcastInDim S600000x1 ![0] bcast_S600000_S600000x1_0 nrm))))
      (mulf h (broadcastInDim S50000x128 ![0, 1] bcast_S50000x1_S50000x128_0_1
        (broadcastInDim S50000x1 ![0] bcast_S50000_S50000x1_0 sn))))
    (asRows bias)

/-- The matrix product with a 128 × 128 weight. -/
def matmul128 (a : FVec F S50000x128 .f32) (W : FVec F S128x128 .f32) : FVec F S50000x128 .f32 :=
  Host.dotGeneral dot_S50000x128_S128x128_S50000x128_1_0_0_1_n_n none a W

/-- The matrix product with the 128 × 40 output weight, plus the output bias. -/
def project40 (a : FVec F S50000x128 .f32) (W : FVec F S128x40 .f32) (bf : FVec F S40 .f32) : FVec F S50000x40 .f32 :=
  addf (Host.dotGeneral dot_S50000x128_S128x40_S50000x40_1_0_0_1_n_n none a W)
    (broadcastInDim S50000x40 ![0, 1] bcast_S1x40_S50000x40_0_1 (broadcastInDim S1x40 ![1] bcast_S40_S1x40_1 bf))

/-! ## The fused network's operands -/

/-- A vector of 128 numbers laid out as a one-row matrix. -/
def asRow (v : FVec F S128 .f32) : FVec F S1x128 .f32 := shapeCast S1x128 v (by decide)

/-- A vector of 40 numbers laid out as a one-row matrix. -/
def asRow40 (v : FVec F S40 .f32) : FVec F S1x40 .f32 := shapeCast S1x40 v (by decide)

/-- A row of 128 zeros. -/
def zeroRow : FVec F S128 .f32 := broadcastInDim S128 ![] bcast_S_S128 (constant S_ .f32 0x00000000#32)

/-! ## The reference network -/

/-- The first layer's aggregated features. -/
def refLayer1 (x : FVec F S50000x128 .f32) (src dst : IVec S600000 32) (g0 b0 : FVec F S128 .f32) (W1 : FVec F S128x128 .f32)
    (c1 : FVec F S128 .f32) : FVec F S50000x128 .f32 :=
  aggregate (matmul128 (batchNorm x g0 b0) W1) (edgeNorm src dst) (selfNorm dst) src dst c1

/-- The second layer's aggregated features, from the first layer's. -/
def refLayer2 (a1 : FVec F S50000x128 .f32) (src dst : IVec S600000 32) (g1 b1 : FVec F S128 .f32) (W2 : FVec F S128x128 .f32)
    (c2 : FVec F S128 .f32) : FVec F S50000x128 .f32 :=
  aggregate (matmul128 (relu (batchNorm a1 g1 b1)) W2) (edgeNorm src dst) (selfNorm dst) src dst c2

/-- The output, from the second layer's aggregated features. -/
def refOutput (a2 : FVec F S50000x128 .f32) (g2 b2 : FVec F S128 .f32) (Wf : FVec F S128x40 .f32) (bf : FVec F S40 .f32) :
    FVec F S50000x40 .f32 :=
  project40 (relu (batchNorm a2 g2 b2)) Wf bf

end Cert.GcnSpec

end
-- ==== Proof.KernelHost0.lean ====
/- What the first stretch of host operations of the idealized kernel program leaves in the buffers the later
   segments read, as terms of the specification over the launch memory: the argument arrays untouched, the edge and
   self-loop weights, and the first normalisation's folded scale and shift as rows. -/
import proofs.«145119_j4501125726314_1_alg».proof.Proof.Gen.KernelIdeal.Frame
import proofs.«145119_j4501125726314_1_alg».proof.Proof.HostSpec

set_option maxRecDepth 16384

noncomputable section

namespace Cert.KernelIdeal.RunValue

open Idealize.ShloMosaic Idealize.ShloMosaic.TcCoe Idealize.ShloMosaic.Tactic
open Cert.KernelIdeal Cert.KernelIdeal.Gen
open Cert.GcnSpec

variable {F : FTy → Type} [FloatOps F]
variable (m : (ℓ : Loc nD τ sig) → Buf (Elt F) ℓ) (ρ : Dev nD → PrngReg)

/-- A buffer that no operation of a literal list of host operations writes keeps its contents: the operations' written
    references are read off the list, and each is a different reference by computation. -/
local macro "untouched " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The first stretch of host operations (before the first region) -/

/-! ### What it leaves alone: every argument array -/
theorem W1_arg0 (c : Dev nD) : Gen.W1 m ρ c (Proc.devRef .tc main_arg0) = (m ((c.tc : Thread nD τ).loc main_arg0)) := by
  show StableHlo.after hostOps0 (Gen.W0 m ρ c) (Proc.devRef .tc main_arg0) = Gen.W0 m ρ c (Proc.devRef .tc main_arg0)
  untouched hostOps0
theorem W1_arg1 (c : Dev nD) : Gen.W1 m ρ c (Proc.devRef .tc main_arg1) = (m ((c.tc : Thread nD τ).loc main_arg1)) := by
  show StableHlo.after hostOps0 (Gen.W0 m ρ c) (Proc.devRef .tc main_arg1) = Gen.W0 m ρ c (Proc.devRef .tc main_arg1)
  untouched hostOps0
theorem W1_arg2 (c : Dev nD) : Gen.W1 m ρ c (Proc.devRef .tc main_arg2) = (m ((c.tc : Thread nD τ).loc main_arg2)) := by
  show StableHlo.after hostOps0 (Gen.W0 m ρ c) (Proc.devRef .tc main_arg2) = Gen.W0 m ρ c (Proc.devRef .tc main_arg2)
  untouched hostOps0
theorem W1_arg3 (c : Dev nD) : Gen.W1 m ρ c (Proc.devRef .tc main_arg3) = (m ((c.tc : Thread nD τ).loc main_arg3)) := by
  show StableHlo.after hostOps0 (Gen.W0 m ρ c) (Proc.devRef .tc main_arg3) = Gen.W0 m ρ c (Proc.devRef .tc main_arg3)
  untouched hostOps0
theorem W1_arg4 (c : Dev nD) : Gen.W1 m ρ c (Proc.devRef .tc main_arg4) = (m ((c.tc : Thread nD τ).loc main_arg4)) := by
  show StableHlo.after hostOps0 (Gen.W0 m ρ c) (Proc.devRef .tc main_arg4) = Gen.W0 m ρ c (Proc.devRef .tc main_arg4)
  untouched hostOps0
theorem W1_arg5 (c : Dev nD) : Gen.W1 m ρ c (Proc.devRef .tc main_arg5) = (m ((c.tc : Thread nD τ).loc main_arg5)) := by
  show StableHlo.after hostOps0 (Gen.W0 m ρ c) (Proc.devRef .tc main_arg5) = Gen.W0 m ρ c (Proc.devRef .tc main_arg5)
  untouched hostOps0
theorem W1_arg6 (c : Dev nD) : Gen.W1 m ρ c (Proc.devRef .tc main_arg6) = (m ((c.tc : Thread nD τ).loc main_arg6)) := by
  show StableHlo.after hostOps0 (Gen.W0 m ρ c) (Proc.devRef .tc main_arg6) = Gen.W0 m ρ c (Proc.devRef .tc main_arg6)
  untouched hostOps0
theorem W1_arg7 (c : Dev nD) : Gen.W1 m ρ c (Proc.devRef .tc main_arg7) = (m ((c.tc : Thread nD τ).loc main_arg7)) := by
  show StableHlo.after hostOps0 (Gen.W0 m ρ c) (Proc.devRef .tc main_arg7) = Gen.W0 m ρ c (Proc.devRef .tc main_arg7)
  untouched hostOps0
theorem W1_arg8 (c : Dev nD) : Gen.W1 m ρ c (Proc.devRef .tc main_arg8) = (m ((c.tc : Thread nD τ).loc main_arg8)) := by
  show StableHlo.after hostOps0 (Gen.W0 m ρ c) (Proc.devRef .tc main_arg8) = Gen.W0 m ρ c (Proc.devRef .tc main_arg8)
  untouched hostOps0
theorem W1_arg9 (c : Dev nD) : Gen.W1 m ρ c (Proc.devRef .tc main_arg9) = (m ((c.tc : Thread nD τ).loc main_arg9)) := by
  show StableHlo.after hostOps0 (Gen.W0 m ρ c) (Proc.devRef .tc main_arg9) = Gen.W0 m ρ c (Proc.devRef .tc main_arg9)
  untouched hostOps0
theorem W1_arg10 (c : Dev nD) : Gen.W1 m ρ c (Proc.devRef .tc main_arg10) = (m ((c.tc : Thread nD τ).loc main_arg10)) := by
  show StableHlo.after hostOps0 (Gen.W0 m ρ c) (Proc.devRef .tc main_arg10) = Gen.W0 m ρ c (Proc.devRef .tc main_arg10)
  untouched hostOps0
theorem W1_arg11 (c : Dev nD) : Gen.W1 m ρ c (Proc.devRef .tc main_arg11) = (m ((c.tc : Thread nD τ).loc main_arg11)) := by
  show StableHlo.after hostOps0 (Gen.W0 m ρ c) (Proc.devRef .tc main_arg11) = Gen.W0 m ρ c (Proc.devRef .tc main_arg11)
  untouched hostOps0
theorem W1_arg12 (c : Dev nD) : Gen.W1 m ρ c (Proc.devRef .tc main_arg12) = (m ((c.tc : Thread nD τ).loc main_arg12)) := by
  show StableHlo.after hostOps0 (Gen.W0 m ρ c) (Proc.devRef .tc main_arg12) = Gen.W0 m ρ c (Proc.devRef .tc main_arg12)
  untouched hostOps0
theorem W1_arg13 (c : Dev nD) : Gen.W1 m ρ c (Proc.devRef .tc main_arg13) = (m ((c.tc : Thread nD τ).loc main_arg13)) := by
  show StableHlo.after hostOps0 (Gen.W0 m ρ c) (Proc.devRef .tc main_arg13) = Gen.W0 m ρ c (Proc.devRef .tc main_arg13)
  untouched hostOps0
theorem W1_arg14 (c : Dev nD) : Gen.W1 m ρ c (Proc.devRef .tc main_arg14) = (m ((c.tc : Thread nD τ).loc main_arg14)) := by
  show StableHlo.after hostOps0 (Gen.W0 m ρ c) (Proc.devRef .tc main_arg14) = Gen.W0 m ρ c (Proc.devRef .tc main_arg14)
  untouched hostOps0

/-! ### What it computes -/

/-- The edge weights. -/
theorem W1_v24 (c : Dev nD) : Gen.W1 m ρ c (Proc.devRef .tc main_v24) = edgeNorm (m ((c.tc : Thread nD τ).loc main_arg1)) (m ((c.tc : Thread nD τ).loc main_arg2)) := by
  dsimp only [Gen.W1, Gen.hostOps0]; after_results_simp; rfl
/-- The self-loop weights. -/
theorem W1_v25 (c : Dev nD) : Gen.W1 m ρ c (Proc.devRef .tc main_v25) = selfNorm (m ((c.tc : Thread nD τ).loc main_arg2)) := by
  dsimp only [Gen.W1, Gen.hostOps0]; after_results_simp; rfl
/-- The folded scale of the first normalisation, as a row. -/
theorem W1_v42 (c : Dev nD) : Gen.W1 m ρ c (Proc.devRef .tc main_v42) = asRow (bnScale (m ((c.tc : Thread nD τ).loc main_arg0)) (m ((c.tc : Thread nD τ).loc main_arg3))) := by
  dsimp only [Gen.W1, Gen.hostOps0]; after_results_simp; rfl
/-- The folded shift of the first normalisation, as a row. -/
theorem W1_v43 (c : Dev nD) : Gen.W1 m ρ c (Proc.devRef .tc main_v43) = asRow (bnShift (m ((c.tc : Thread nD τ).loc main_arg0)) (m ((c.tc : Thread nD τ).loc main_arg3)) (m ((c.tc : Thread nD τ).loc main_arg4))) := by
  dsimp only [Gen.W1, Gen.hostOps0]; after_results_simp; rfl

end Cert.KernelIdeal.RunValue

end
-- ==== Proof.KernelHost1.lean ====
/- What the second stretch of host operations of the idealized kernel program computes, as terms of the specification
   over the buffer contents it starts from (the first region's exit contents): the aggregated features of the first
   layer, the folded scale and shift of their normalisation as rows, a row of zeros; and the buffers it leaves alone. -/
import proofs.«145119_j4501125726314_1_alg».proof.Proof.Gen.KernelIdeal.Frame
import proofs.«145119_j4501125726314_1_alg».proof.Proof.HostSpec

set_option maxRecDepth 16384

noncomputable section

namespace Cert.KernelIdeal.RunValue

open Idealize.ShloMosaic Idealize.ShloMosaic.TcCoe Idealize.ShloMosaic.Tactic
open Cert.KernelIdeal Cert.KernelIdeal.Gen
open Cert.GcnSpec

variable {F : FTy → Type} [FloatOps F]
variable (m : (ℓ : Loc nD τ sig) → Buf (Elt F) ℓ) (ρ : Dev nD → PrngReg)

/-- A buffer that no operation of a literal list of host operations writes keeps its contents: the operations' written
    references are read off the list, and each is a different reference by computation. -/
local macro "untouched " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The second stretch of host operations (between the first and second regions), relative to the contents `Gen.W2 m ρ c` it starts from -/

/-! ### What it leaves alone -/
theorem W3_keeps_arg9 (c : Dev nD) : Gen.W3 m ρ c (Proc.devRef .tc main_arg9) = Gen.W2 m ρ c (Proc.devRef .tc main_arg9) := by
  show StableHlo.after hostOps1 (Gen.W2 m ρ c) (Proc.devRef .tc main_arg9) = _
  untouched hostOps1
theorem W3_keeps_v24 (c : Dev nD) : Gen.W3 m ρ c (Proc.devRef .tc main_v24) = Gen.W2 m ρ c (Proc.devRef .tc main_v24) := by
  show StableHlo.after hostOps1 (Gen.W2 m ρ c) (Proc.devRef .tc main_v24) = _
  untouched hostOps1
theorem W3_keeps_v25 (c : Dev nD) : Gen.W3 m ρ c (Proc.devRef .tc main_v25) = Gen.W2 m ρ c (Proc.devRef .tc main_v25) := by
  show StableHlo.after hostOps1 (Gen.W2 m ρ c) (Proc.devRef .tc main_v25) = _
  untouched hostOps1
theorem W3_keeps_arg1 (c : Dev nD) : Gen.W3 m ρ c (Proc.devRef .tc main_arg1) = Gen.W2 m ρ c (Proc.devRef .tc main_arg1) := by
  show StableHlo.after hostOps1 (Gen.W2 m ρ c) (Proc.devRef .tc main_arg1) = _
  untouched hostOps1
theorem W3_keeps_arg2 (c : Dev nD) : Gen.W3 m ρ c (Proc.devRef .tc main_arg2) = Gen.W2 m ρ c (Proc.devRef .tc main_arg2) := by
  show StableHlo.after hostOps1 (Gen.W2 m ρ c) (Proc.devRef .tc main_arg2) = _
  untouched hostOps1
theorem W3_keeps_arg10 (c : Dev nD) : Gen.W3 m ρ c (Proc.devRef .tc main_arg10) = Gen.W2 m ρ c (Proc.devRef .tc main_arg10) := by
  show StableHlo.after hostOps1 (Gen.W2 m ρ c) (Proc.devRef .tc main_arg10) = _
  untouched hostOps1
theorem W3_keeps_arg11 (c : Dev nD) : Gen.W3 m ρ c (Proc.devRef .tc main_arg11) = Gen.W2 m ρ c (Proc.devRef .tc main_arg11) := by
  show StableHlo.after hostOps1 (Gen.W2 m ρ c) (Proc.devRef .tc main_arg11) = _
  untouched hostOps1
theorem W3_keeps_arg12 (c : Dev nD) : Gen.W3 m ρ c (Proc.devRef .tc main_arg12) = Gen.W2 m ρ c (Proc.devRef .tc main_arg12) := by
  show StableHlo.after hostOps1 (Gen.W2 m ρ c) (Proc.devRef .tc main_arg12) = _
  untouched hostOps1
theorem W3_keeps_arg13 (c : Dev nD) : Gen.W3 m ρ c (Proc.devRef .tc main_arg13) = Gen.W2 m ρ c (Proc.devRef .tc main_arg13) := by
  show StableHlo.after hostOps1 (Gen.W2 m ρ c) (Proc.devRef .tc main_arg13) = _
  untouched hostOps1
theorem W3_keeps_arg14 (c : Dev nD) : Gen.W3 m ρ c (Proc.devRef .tc main_arg14) = Gen.W2 m ρ c (Proc.devRef .tc main_arg14) := by
  show StableHlo.after hostOps1 (Gen.W2 m ρ c) (Proc.devRef .tc main_arg14) = _
  untouched hostOps1

/-! ### What it computes -/

/-- The aggregated features. -/
theorem W3_v64 (c : Dev nD) : Gen.W3 m ρ c (Proc.devRef .tc main_v64) = aggregate (Gen.W2 m ρ c (Proc.devRef .tc main_v44)) (Gen.W2 m ρ c (Proc.devRef .tc main_v24)) (Gen.W2 m ρ c (Proc.devRef .tc main_v25)) (Gen.W2 m ρ c (Proc.devRef .tc main_arg1)) (Gen.W2 m ρ c (Proc.devRef .tc main_arg2)) (Gen.W2 m ρ c (Proc.devRef .tc main_arg6)) := by
  dsimp only [Gen.W3, Gen.hostOps1]; after_results_simp; rfl
/-- The folded scale of the normalisation of the aggregated features, as a row. -/
theorem W3_v82 (c : Dev nD) : Gen.W3 m ρ c (Proc.devRef .tc main_v82) =
    asRow (bnScale (aggregate (Gen.W2 m ρ c (Proc.devRef .tc main_v44)) (Gen.W2 m ρ c (Proc.devRef .tc main_v24)) (Gen.W2 m ρ c (Proc.devRef .tc main_v25)) (Gen.W2 m ρ c (Proc.devRef .tc main_arg1)) (Gen.W2 m ρ c (Proc.devRef .tc main_arg2)) (Gen.W2 m ρ c (Proc.devRef .tc main_arg6))) (Gen.W2 m ρ c (Proc.devRef .tc main_arg7))) := by
  dsimp only [Gen.W3, Gen.hostOps1]; after_results_simp; rfl
/-- The folded shift of the normalisation of the aggregated features, as a row. -/
theorem W3_v83 (c : Dev nD) : Gen.W3 m ρ c (Proc.devRef .tc main_v83) =
    asRow (bnShift (aggregate (Gen.W2 m ρ c (Proc.devRef .tc main_v44)) (Gen.W2 m ρ c (Proc.devRef .tc main_v24)) (Gen.W2 m ρ c (Proc.devRef .tc main_v25)) (Gen.W2 m ρ c (Proc.devRef .tc main_arg1)) (Gen.W2 m ρ c (Proc.devRef .tc main_arg2)) (Gen.W2 m ρ c (Proc.devRef .tc main_arg6))) (Gen.W2 m ρ c (Proc.devRef .tc main_arg7)) (Gen.W2 m ρ c (Proc.devRef .tc main_arg8))) := by
  dsimp only [Gen.W3, Gen.hostOps1]; after_results_simp; rfl
/-- A row of zeros. -/
theorem W3_v84 (c : Dev nD) : Gen.W3 m ρ c (Proc.devRef .tc main_v84) = asRow (zeroRow (F := F)) := by
  dsimp only [Gen.W3, Gen.hostOps1]; after_results_simp; rfl

end Cert.KernelIdeal.RunValue

end
-- ==== Proof.KernelHost2.lean ====
/- What the third stretch of host operations of the idealized kernel program computes, as terms of the specification
   over the buffer contents it starts from (the second region's exit contents): the aggregated features of the second
   layer, the folded scale and shift of their normalisation as rows, the output bias as a row; and what it leaves alone. -/
import proofs.«145119_j4501125726314_1_alg».proof.Proof.Gen.KernelIdeal.Frame
import proofs.«145119_j4501125726314_1_alg».proof.Proof.HostSpec

set_option maxRecDepth 16384

noncomputable section

namespace Cert.KernelIdeal.RunValue

open Idealize.ShloMosaic Idealize.ShloMosaic.TcCoe Idealize.ShloMosaic.Tactic
open Cert.KernelIdeal Cert.KernelIdeal.Gen
open Cert.GcnSpec

variable {F : FTy → Type} [FloatOps F]
variable (m : (ℓ : Loc nD τ sig) → Buf (Elt F) ℓ) (ρ : Dev nD → PrngReg)

/-- A buffer that no operation of a literal list of host operations writes keeps its contents: the operations' written
    references are read off the list, and each is a different reference by computation. -/
local macro "untouched " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The third stretch of host operations (between the second and third regions), relative to the contents `Gen.W4 m ρ c` it starts from -/

/-! ### What it leaves alone -/
theorem W5_keeps_arg13 (c : Dev nD) : Gen.W5 m ρ c (Proc.devRef .tc main_arg13) = Gen.W4 m ρ c (Proc.devRef .tc main_arg13) := by
  show StableHlo.after hostOps2 (Gen.W4 m ρ c) (Proc.devRef .tc main_arg13) = _
  untouched hostOps2

/-! ### What it computes -/

/-- The aggregated features. -/
theorem W5_v105 (c : Dev nD) : Gen.W5 m ρ c (Proc.devRef .tc main_v105) = aggregate (Gen.W4 m ρ c (Proc.devRef .tc main_v85)) (Gen.W4 m ρ c (Proc.devRef .tc main_v24)) (Gen.W4 m ρ c (Proc.devRef .tc main_v25)) (Gen.W4 m ρ c (Proc.devRef .tc main_arg1)) (Gen.W4 m ρ c (Proc.devRef .tc main_arg2)) (Gen.W4 m ρ c (Proc.devRef .tc main_arg10)) := by
  dsimp only [Gen.W5, Gen.hostOps2]; after_results_simp; rfl
/-- The folded scale of the normalisation of the aggregated features, as a row. -/
theorem W5_v122 (c : Dev nD) : Gen.W5 m ρ c (Proc.devRef .tc main_v122) =
    asRow (bnScale (aggregate (Gen.W4 m ρ c (Proc.devRef .tc main_v85)) (Gen.W4 m ρ c (Proc.devRef .tc main_v24)) (Gen.W4 m ρ c (Proc.devRef .tc main_v25)) (Gen.W4 m ρ c (Proc.devRef .tc main_arg1)) (Gen.W4 m ρ c (Proc.devRef .tc main_arg2)) (Gen.W4 m ρ c (Proc.devRef .tc main_arg10))) (Gen.W4 m ρ c (Proc.devRef .tc main_arg11))) := by
  dsimp only [Gen.W5, Gen.hostOps2]; after_results_simp; rfl
/-- The folded shift of the normalisation of the aggregated features, as a row. -/
theorem W5_v123 (c : Dev nD) : Gen.W5 m ρ c (Proc.devRef .tc main_v123) =
    asRow (bnShift (aggregate (Gen.W4 m ρ c (Proc.devRef .tc main_v85)) (Gen.W4 m ρ c (Proc.devRef .tc main_v24)) (Gen.W4 m ρ c (Proc.devRef .tc main_v25)) (Gen.W4 m ρ c (Proc.devRef .tc main_arg1)) (Gen.W4 m ρ c (Proc.devRef .tc main_arg2)) (Gen.W4 m ρ c (Proc.devRef .tc main_arg10))) (Gen.W4 m ρ c (Proc.devRef .tc main_arg11)) (Gen.W4 m ρ c (Proc.devRef .tc main_arg12))) := by
  dsimp only [Gen.W5, Gen.hostOps2]; after_results_simp; rfl
/-- The output bias, as a row. -/
theorem W5_v124 (c : Dev nD) : Gen.W5 m ρ c (Proc.devRef .tc main_v124) = asRow40 (Gen.W4 m ρ c (Proc.devRef .tc main_arg14)) := by
  dsimp only [Gen.W5, Gen.hostOps2]; after_results_simp; rfl

end Cert.KernelIdeal.RunValue

end
-- ==== Proof.KernelHost.lean ====
/- What each region of the idealized kernel program finds in its input arrays, as terms of the specification over the
   launch memory and the earlier regions' output arrays: the three stretches of host operations (each read in its own
   module, relative to the contents it starts from) composed through the regions, a region changing its output array
   only. -/
import proofs.«145119_j4501125726314_1_alg».proof.Proof.Gen.KernelIdeal.Frame
import proofs.«145119_j4501125726314_1_alg».proof.Proof.HostSpec
import proofs.«145119_j4501125726314_1_alg».proof.Proof.KernelHost0
import proofs.«145119_j4501125726314_1_alg».proof.Proof.KernelHost1
import proofs.«145119_j4501125726314_1_alg».proof.Proof.KernelHost2

set_option maxRecDepth 16384

noncomputable section

namespace Cert.KernelIdeal.RunValue

open Idealize.ShloMosaic Idealize.ShloMosaic.TcCoe Idealize.ShloMosaic.Tactic
open Cert.KernelIdeal Cert.KernelIdeal.Gen
open Cert.GcnSpec

variable {F : FTy → Type} [FloatOps F]
variable (m : (ℓ : Loc nD τ sig) → Buf (Elt F) ℓ) (ρ : Dev nD → PrngReg)

/-! ## Through the regions: a region changes its output array only -/

/-- The first region's output array at its exit: what its write-backs leave. -/
theorem W2_v44 (c : Dev nD) : Gen.W2 m ρ c (Proc.devRef .tc main_v44) = (Gen.dat0 (Gen.V1 m ρ) c).arrAt 4 cfg0.N :=
  Gen.W2_arr m ρ c 4
/-- The second region's output array at its exit: what its write-backs leave. -/
theorem W4_v85 (c : Dev nD) : Gen.W4 m ρ c (Proc.devRef .tc main_v85) = (Gen.dat1 (Gen.V3 m ρ) c).arrAt 5 cfg1.N :=
  Gen.W4_arr m ρ c 5

/-! ### After the first region: each buffer the later stretches read, as a term of the launch memory -/
theorem W2_v24 (c : Dev nD) : Gen.W2 m ρ c (Proc.devRef .tc main_v24) = edgeNorm (m ((c.tc : Thread nD τ).loc main_arg1)) (m ((c.tc : Thread nD τ).loc main_arg2)) :=
  (Gen.W2_of_ne m ρ c main_v24 (by decide)).trans (W1_v24 m ρ c)
theorem W2_v25 (c : Dev nD) : Gen.W2 m ρ c (Proc.devRef .tc main_v25) = selfNorm (m ((c.tc : Thread nD τ).loc main_arg2)) :=
  (Gen.W2_of_ne m ρ c main_v25 (by decide)).trans (W1_v25 m ρ c)
theorem W2_arg1 (c : Dev nD) : Gen.W2 m ρ c (Proc.devRef .tc main_arg1) = m ((c.tc : Thread nD τ).loc main_arg1) :=
  (Gen.W2_of_ne m ρ c main_arg1 (by decide)).trans (W1_arg1 m ρ c)
theorem W2_arg2 (c : Dev nD) : Gen.W2 m ρ c (Proc.devRef .tc main_arg2) = m ((c.tc : Thread nD τ).loc main_arg2) :=
  (Gen.W2_of_ne m ρ c main_arg2 (by decide)).trans (W1_arg2 m ρ c)
theorem W2_arg6 (c : Dev nD) : Gen.W2 m ρ c (Proc.devRef .tc main_arg6) = m ((c.tc : Thread nD τ).loc main_arg6) :=
  (Gen.W2_of_ne m ρ c main_arg6 (by decide)).trans (W1_arg6 m ρ c)
theorem W2_arg7 (c : Dev nD) : Gen.W2 m ρ c (Proc.devRef .tc main_arg7) = m ((c.tc : Thread nD τ).loc main_arg7) :=
  (Gen.W2_of_ne m ρ c main_arg7 (by decide)).trans (W1_arg7 m ρ c)
theorem W2_arg8 (c : Dev nD) : Gen.W2 m ρ c (Proc.devRef .tc main_arg8) = m ((c.tc : Thread nD τ).loc main_arg8) :=
  (Gen.W2_of_ne m ρ c main_arg8 (by decide)).trans (W1_arg8 m ρ c)
theorem W2_arg9 (c : Dev nD) : Gen.W2 m ρ c (Proc.devRef .tc main_arg9) = m ((c.tc : Thread nD τ).loc main_arg9) :=
  (Gen.W2_of_ne m ρ c main_arg9 (by decide)).trans (W1_arg9 m ρ c)
theorem W2_arg10 (c : Dev nD) : Gen.W2 m ρ c (Proc.devRef .tc main_arg10) = m ((c.tc : Thread nD τ).loc main_arg10) :=
  (Gen.W2_of_ne m ρ c main_arg10 (by decide)).trans (W1_arg10 m ρ c)
theorem W2_arg11 (c : Dev nD) : Gen.W2 m ρ c (Proc.devRef .tc main_arg11) = m ((c.tc : Thread nD τ).loc main_arg11) :=
  (Gen.W2_of_ne m ρ c main_arg11 (by decide)).trans (W1_arg11 m ρ c)
theorem W2_arg12 (c : Dev nD) : Gen.W2 m ρ c (Proc.devRef .tc main_arg12) = m ((c.tc : Thread nD τ).loc main_arg12) :=
  (Gen.W2_of_ne m ρ c main_arg12 (by decide)).trans (W1_arg12 m ρ c)
theorem W2_arg13 (c : Dev nD) : Gen.W2 m ρ c (Proc.devRef .tc main_arg13) = m ((c.tc : Thread nD τ).loc main_arg13) :=
  (Gen.W2_of_ne m ρ c main_arg13 (by decide)).trans (W1_arg13 m ρ c)
theorem W2_arg14 (c : Dev nD) : Gen.W2 m ρ c (Proc.devRef .tc main_arg14) = m ((c.tc : Thread nD τ).loc main_arg14) :=
  (Gen.W2_of_ne m ρ c main_arg14 (by decide)).trans (W1_arg14 m ρ c)

/-! ### After the second stretch -/
theorem W3_v24 (c : Dev nD) : Gen.W3 m ρ c (Proc.devRef .tc main_v24) = edgeNorm (m ((c.tc : Thread nD τ).loc main_arg1)) (m ((c.tc : Thread nD τ).loc main_arg2)) :=
  (W3_keeps_v24 m ρ c).trans (W2_v24 m ρ c)
theorem W3_v25 (c : Dev nD) : Gen.W3 m ρ c (Proc.devRef .tc main_v25) = selfNorm (m ((c.tc : Thread nD τ).loc main_arg2)) :=
  (W3_keeps_v25 m ρ c).trans (W2_v25 m ρ c)
theorem W3_arg1 (c : Dev nD) : Gen.W3 m ρ c (Proc.devRef .tc main_arg1) = m ((c.tc : Thread nD τ).loc main_arg1) :=
  (W3_keeps_arg1 m ρ c).trans (W2_arg1 m ρ c)
theorem W3_arg2 (c : Dev nD) : Gen.W3 m ρ c (Proc.devRef .tc main_arg2) = m ((c.tc : Thread nD τ).loc main_arg2) :=
  (W3_keeps_arg2 m ρ c).trans (W2_arg2 m ρ c)
theorem W3_arg10 (c : Dev nD) : Gen.W3 m ρ c (Proc.devRef .tc main_arg10) = m ((c.tc : Thread nD τ).loc main_arg10) :=
  (W3_keeps_arg10 m ρ c).trans (W2_arg10 m ρ c)
theorem W3_arg11 (c : Dev nD) : Gen.W3 m ρ c (Proc.devRef .tc main_arg11) = m ((c.tc : Thread nD τ).loc main_arg11) :=
  (W3_keeps_arg11 m ρ c).trans (W2_arg11 m ρ c)
theorem W3_arg12 (c : Dev nD) : Gen.W3 m ρ c (Proc.devRef .tc main_arg12) = m ((c.tc : Thread nD τ).loc main_arg12) :=
  (W3_keeps_arg12 m ρ c).trans (W2_arg12 m ρ c)
theorem W3_arg13 (c : Dev nD) : Gen.W3 m ρ c (Proc.devRef .tc main_arg13) = m ((c.tc : Thread nD τ).loc main_arg13) :=
  (W3_keeps_arg13 m ρ c).trans (W2_arg13 m ρ c)
theorem W3_arg14 (c : Dev nD) : Gen.W3 m ρ c (Proc.devRef .tc main_arg14) = m ((c.tc : Thread nD τ).loc main_arg14) :=
  (W3_keeps_arg14 m ρ c).trans (W2_arg14 m ρ c)

/-! ### After the second region -/
theorem W4_v24 (c : Dev nD) : Gen.W4 m ρ c (Proc.devRef .tc main_v24) = edgeNorm (m ((c.tc : Thread nD τ).loc main_arg1)) (m ((c.tc : Thread nD τ).loc main_arg2)) :=
  (Gen.W4_of_ne m ρ c main_v24 (by decide)).trans (W3_v24 m ρ c)
theorem W4_v25 (c : Dev nD) : Gen.W4 m ρ c (Proc.devRef .tc main_v25) = selfNorm (m ((c.tc : Thread nD τ).loc main_arg2)) :=
  (Gen.W4_of_ne m ρ c main_v25 (by decide)).trans (W3_v25 m ρ c)
theorem W4_arg1 (c : Dev nD) : Gen.W4 m ρ c (Proc.devRef .tc main_arg1) = m ((c.tc : Thread nD τ).loc main_arg1) :=
  (Gen.W4_of_ne m ρ c main_arg1 (by decide)).trans (W3_arg1 m ρ c)
theorem W4_arg2 (c : Dev nD) : Gen.W4 m ρ c (Proc.devRef .tc main_arg2) = m ((c.tc : Thread nD τ).loc main_arg2) :=
  (Gen.W4_of_ne m ρ c main_arg2 (by decide)).trans (W3_arg2 m ρ c)
theorem W4_arg10 (c : Dev nD) : Gen.W4 m ρ c (Proc.devRef .tc main_arg10) = m ((c.tc : Thread nD τ).loc main_arg10) :=
  (Gen.W4_of_ne m ρ c main_arg10 (by decide)).trans (W3_arg10 m ρ c)
theorem W4_arg11 (c : Dev nD) : Gen.W4 m ρ c (Proc.devRef .tc main_arg11) = m ((c.tc : Thread nD τ).loc main_arg11) :=
  (Gen.W4_of_ne m ρ c main_arg11 (by decide)).trans (W3_arg11 m ρ c)
theorem W4_arg12 (c : Dev nD) : Gen.W4 m ρ c (Proc.devRef .tc main_arg12) = m ((c.tc : Thread nD τ).loc main_arg12) :=
  (Gen.W4_of_ne m ρ c main_arg12 (by decide)).trans (W3_arg12 m ρ c)
theorem W4_arg13 (c : Dev nD) : Gen.W4 m ρ c (Proc.devRef .tc main_arg13) = m ((c.tc : Thread nD τ).loc main_arg13) :=
  (Gen.W4_of_ne m ρ c main_arg13 (by decide)).trans (W3_arg13 m ρ c)
theorem W4_arg14 (c : Dev nD) : Gen.W4 m ρ c (Proc.devRef .tc main_arg14) = m ((c.tc : Thread nD τ).loc main_arg14) :=
  (Gen.W4_of_ne m ρ c main_arg14 (by decide)).trans (W3_arg14 m ρ c)

/-! ## What each region finds in its input arrays -/

/-! ### The first region -/

/-- The features. -/
theorem read1_x (c : Dev nD) : Gen.V1 m ρ c main_arg0 = m ((c.tc : Thread nD τ).loc main_arg0) := W1_arg0 m ρ c
/-- The folded scale of the first normalisation, as a row. -/
theorem read1_s (c : Dev nD) : Gen.V1 m ρ c main_v42 = asRow (bnScale (m ((c.tc : Thread nD τ).loc main_arg0)) (m ((c.tc : Thread nD τ).loc main_arg3))) := W1_v42 m ρ c
/-- The folded shift of the first normalisation, as a row. -/
theorem read1_t (c : Dev nD) : Gen.V1 m ρ c main_v43 = asRow (bnShift (m ((c.tc : Thread nD τ).loc main_arg0)) (m ((c.tc : Thread nD τ).loc main_arg3)) (m ((c.tc : Thread nD τ).loc main_arg4))) := W1_v43 m ρ c
/-- The first weight matrix. -/
theorem read1_W (c : Dev nD) : Gen.V1 m ρ c main_arg5 = m ((c.tc : Thread nD τ).loc main_arg5) := W1_arg5 m ρ c

/-! ### The second region: from the first region's output `(Gen.dat0 (Gen.V1 m ρ) c).arrAt 4 cfg0.N` -/

/-- The first layer's aggregated features. -/
theorem read3_x (c : Dev nD) : Gen.V3 m ρ c main_v64 = aggregate ((Gen.dat0 (Gen.V1 m ρ) c).arrAt 4 cfg0.N) (edgeNorm (m ((c.tc : Thread nD τ).loc main_arg1)) (m ((c.tc : Thread nD τ).loc main_arg2))) (selfNorm (m ((c.tc : Thread nD τ).loc main_arg2))) (m ((c.tc : Thread nD τ).loc main_arg1)) (m ((c.tc : Thread nD τ).loc main_arg2)) (m ((c.tc : Thread nD τ).loc main_arg6)) :=
  (W3_v64 m ρ c).trans (by
    rw [W2_v44 m ρ c, W2_v24 m ρ c, W2_v25 m ρ c, W2_arg1 m ρ c, W2_arg2 m ρ c, W2_arg6 m ρ c])
/-- The folded scale of their normalisation, as a row. -/
theorem read3_s (c : Dev nD) : Gen.V3 m ρ c main_v82 = asRow (bnScale (aggregate ((Gen.dat0 (Gen.V1 m ρ) c).arrAt 4 cfg0.N) (edgeNorm (m ((c.tc : Thread nD τ).loc main_arg1)) (m ((c.tc : Thread nD τ).loc main_arg2))) (selfNorm (m ((c.tc : Thread nD τ).loc main_arg2))) (m ((c.tc : Thread nD τ).loc main_arg1)) (m ((c.tc : Thread nD τ).loc main_arg2)) (m ((c.tc : Thread nD τ).loc main_arg6))) (m ((c.tc : Thread nD τ).loc main_arg7))) :=
  (W3_v82 m ρ c).trans (by
    rw [W2_v44 m ρ c, W2_v24 m ρ c, W2_v25 m ρ c, W2_arg1 m ρ c, W2_arg2 m ρ c, W2_arg6 m ρ c, W2_arg7 m ρ c])
/-- The folded shift of their normalisation, as a row. -/
theorem read3_t (c : Dev nD) : Gen.V3 m ρ c main_v83 = asRow (bnShift (aggregate ((Gen.dat0 (Gen.V1 m ρ) c).arrAt 4 cfg0.N) (edgeNorm (m ((c.tc : Thread nD τ).loc main_arg1)) (m ((c.tc : Thread nD τ).loc main_arg2))) (selfNorm (m ((c.tc : Thread nD τ).loc main_arg2))) (m ((c.tc : Thread nD τ).loc main_arg1)) (m ((c.tc : Thread nD τ).loc main_arg2)) (m ((c.tc : Thread nD τ).loc main_arg6))) (m ((c.tc : Thread nD τ).loc main_arg7)) (m ((c.tc : Thread nD τ).loc main_arg8))) :=
  (W3_v83 m ρ c).trans (by
    rw [W2_v44 m ρ c, W2_v24 m ρ c, W2_v25 m ρ c, W2_arg1 m ρ c, W2_arg2 m ρ c, W2_arg6 m ρ c, W2_arg7 m ρ c, W2_arg8 m ρ c])
/-- The second weight matrix. -/
theorem read3_W (c : Dev nD) : Gen.V3 m ρ c main_arg9 = m ((c.tc : Thread nD τ).loc main_arg9) :=
  (W3_keeps_arg9 m ρ c).trans (W2_arg9 m ρ c)
/-- A row of zeros. -/
theorem read3_z (c : Dev nD) : Gen.V3 m ρ c main_v84 = asRow (zeroRow (F := F)) := W3_v84 m ρ c

/-! ### The third region: from the second region's output `(Gen.dat1 (Gen.V3 m ρ) c).arrAt 5 cfg1.N` -/

/-- The second layer's aggregated features. -/
theorem read5_x (c : Dev nD) : Gen.V5 m ρ c main_v105 = aggregate ((Gen.dat1 (Gen.V3 m ρ) c).arrAt 5 cfg1.N) (edgeNorm (m ((c.tc : Thread nD τ).loc main_arg1)) (m ((c.tc : Thread nD τ).loc main_arg2))) (selfNorm (m ((c.tc : Thread nD τ).loc main_arg2))) (m ((c.tc : Thread nD τ).loc main_arg1)) (m ((c.tc : Thread nD τ).loc main_arg2)) (m ((c.tc : Thread nD τ).loc main_arg10)) :=
  (W5_v105 m ρ c).trans (by
    rw [W4_v85 m ρ c, W4_v24 m ρ c, W4_v25 m ρ c, W4_arg1 m ρ c, W4_arg2 m ρ c, W4_arg10 m ρ c])
/-- The folded scale of their normalisation, as a row. -/
theorem read5_s (c : Dev nD) : Gen.V5 m ρ c main_v122 = asRow (bnScale (aggregate ((Gen.dat1 (Gen.V3 m ρ) c).arrAt 5 cfg1.N) (edgeNorm (m ((c.tc : Thread nD τ).loc main_arg1)) (m ((c.tc : Thread nD τ).loc main_arg2))) (selfNorm (m ((c.tc : Thread nD τ).loc main_arg2))) (m ((c.tc : Thread nD τ).loc main_arg1)) (m ((c.tc : Thread nD τ).loc main_arg2)) (m ((c.tc : Thread nD τ).loc main_arg10))) (m ((c.tc : Thread nD τ).loc main_arg11))) :=
  (W5_v122 m ρ c).trans (by
    rw [W4_v85 m ρ c, W4_v24 m ρ c, W4_v25 m ρ c, W4_arg1 m ρ c, W4_arg2 m ρ c, W4_arg10 m ρ c, W4_arg11 m ρ c])
/-- The folded shift of their normalisation, as a row. -/
theorem read5_t (c : Dev nD) : Gen.V5 m ρ c main_v123 = asRow (bnShift (aggregate ((Gen.dat1 (Gen.V3 m ρ) c).arrAt 5 cfg1.N) (edgeNorm (m ((c.tc : Thread nD τ).loc main_arg1)) (m ((c.tc : Thread nD τ).loc main_arg2))) (selfNorm (m ((c.tc : Thread nD τ).loc main_arg2))) (m ((c.tc : Thread nD τ).loc main_arg1)) (m ((c.tc : Thread nD τ).loc main_arg2)) (m ((c.tc : Thread nD τ).loc main_arg10))) (m ((c.tc : Thread nD τ).loc main_arg11)) (m ((c.tc : Thread nD τ).loc main_arg12))) :=
  (W5_v123 m ρ c).trans (by
    rw [W4_v85 m ρ c, W4_v24 m ρ c, W4_v25 m ρ c, W4_arg1 m ρ c, W4_arg2 m ρ c, W4_arg10 m ρ c, W4_arg11 m ρ c, W4_arg12 m ρ c])
/-- The output weight matrix. -/
theorem read5_W (c : Dev nD) : Gen.V5 m ρ c main_arg13 = m ((c.tc : Thread nD τ).loc main_arg13) :=
  (W5_keeps_arg13 m ρ c).trans (W4_arg13 m ρ c)
/-- The output bias, as a row. -/
theorem read5_b (c : Dev nD) : Gen.V5 m ρ c main_v124 = asRow40 (m ((c.tc : Thread nD τ).loc main_arg14)) :=
  (W5_v124 m ρ c).trans (by rw [W4_arg14 m ρ c])

/-! ## No assumption beyond the three standard axioms -/

/-- info: 'Cert.KernelIdeal.RunValue.read1_x' depends on axioms: [propext, Classical.choice, Quot.sound] -/
#guard_msgs in #print axioms read1_x
/-- info: 'Cert.KernelIdeal.RunValue.read1_s' depends on axioms: [propext, Classical.choice, Quot.sound] -/
#guard_msgs in #print axioms read1_s
/-- info: 'Cert.KernelIdeal.RunValue.read1_t' depends on axioms: [propext, Classical.choice, Quot.sound] -/
#guard_msgs in #print axioms read1_t
/-- info: 'Cert.KernelIdeal.RunValue.read1_W' depends on axioms: [propext, Classical.choice, Quot.sound] -/
#guard_msgs in #print axioms read1_W
/-- info: 'Cert.KernelIdeal.RunValue.read3_x' depends on axioms: [propext, Classical.choice, Quot.sound] -/
#guard_msgs in #print axioms read3_x
/-- info: 'Cert.KernelIdeal.RunValue.read3_s' depends on axioms: [propext, Classical.choice, Quot.sound] -/
#guard_msgs in #print axioms read3_s
/-- info: 'Cert.KernelIdeal.RunValue.read3_t' depends on axioms: [propext, Classical.choice, Quot.sound] -/
#guard_msgs in #print axioms read3_t
/-- info: 'Cert.KernelIdeal.RunValue.read3_W' depends on axioms: [propext, Classical.choice, Quot.sound] -/
#guard_msgs in #print axioms read3_W
/-- info: 'Cert.KernelIdeal.RunValue.read3_z' depends on axioms: [propext, Classical.choice, Quot.sound] -/
#guard_msgs in #print axioms read3_z
/-- info: 'Cert.KernelIdeal.RunValue.read5_x' depends on axioms: [propext, Classical.choice, Quot.sound] -/
#guard_msgs in #print axioms read5_x
/-- info: 'Cert.KernelIdeal.RunValue.read5_s' depends on axioms: [propext, Classical.choice, Quot.sound] -/
#guard_msgs in #print axioms read5_s
/-- info: 'Cert.KernelIdeal.RunValue.read5_t' depends on axioms: [propext, Classical.choice, Quot.sound] -/
#guard_msgs in #print axioms read5_t
/-- info: 'Cert.KernelIdeal.RunValue.read5_W' depends on axioms: [propext, Classical.choice, Quot.sound] -/
#guard_msgs in #print axioms read5_W
/-- info: 'Cert.KernelIdeal.RunValue.read5_b' depends on axioms: [propext, Classical.choice, Quot.sound] -/
#guard_msgs in #print axioms read5_b

end Cert.KernelIdeal.RunValue

end
-- ==== Proof.RegionSpec.lean ====
/-
  What each of the three fused blocks computes, entry by entry, on the extended reals.

  A block takes a matrix `x` of node features, a row `s` of per-column scales, a row `t` of per-column shifts and a
  weight matrix `W`; entry `(p, q)` of its result is the inner product of row `p` of the affinely transformed features
  `x · s + t` with column `q` of `W`. The second and third blocks clamp the transformed features below at zero first and
  add a bias row afterwards.
-/
import Idealize.ShloMosaic.Lib.ValueIdx
import Idealize.ShloMosaic.PureOps.Ideal

noncomputable section

open scoped BigOperators

namespace Cert.GcnSpec

open Idealize.ShloMosaic Idealize.ShloMosaic.ValueIdx

/-- An `a × b` array of extended reals. -/
abbrev Mat (a b : Nat) : Type := (⟨2, ![a, b]⟩ : Shape).Idx → EReal

/-- Entry `(p, q)` of `(x · s + t) W`. -/
def affineMatmul {N D C : Nat} (x : Mat N D) (s t : Mat 1 D) (W : Mat D C) (p : Fin N) (q : Fin C) : EReal :=
  ∑ k : Fin D, (x (ix2 p k) * s (ix2 (0 : Fin 1) k) + t (ix2 (0 : Fin 1) k)) * W (ix2 k q)

/-- Entry `(p, q)` of `max (x · s + t) 0 · W + b`. -/
def affineReluMatmul {N D C : Nat} (x : Mat N D) (s t : Mat 1 D) (W : Mat D C) (b : Mat 1 C) (p : Fin N) (q : Fin C) : EReal :=
  (∑ k : Fin D, max (x (ix2 p k) * s (ix2 (0 : Fin 1) k) + t (ix2 (0 : Fin 1) k)) 0 * W (ix2 k q)) + b (ix2 (0 : Fin 1) q)

end Cert.GcnSpec

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.RegionCommon.lean ====
/-
  Pointwise facts shared by the three fused blocks.

  Each block first forms, from a tile `x` of node features and two rows `s`, `t`, the affinely transformed tile whose
  entry `(p, k)` is `x (p, k) * s (0, k) + t (0, k)` (the rows are stretched along the first axis), the second and
  third blocks then clamp it below at zero; the tile is multiplied into a weight matrix with a zero accumulator, and the
  second and third blocks add a bias row stretched the same way.  Read at an entry, all of it is a finite sum over the
  contraction index.
-/
import proofs.«145119_j4501125726314_1_alg».proof.Proof.LibPlainDot
import proofs.«145119_j4501125726314_1_alg».proof.Proof.LibRank2Layout
import Idealize.ShloMosaic.Lib.Pipeline.Value
import Idealize.ShloMosaic.Lib.ValueIdx

noncomputable section

open scoped BigOperators

namespace Cert.KernelIdeal.RegionValue

open Idealize.ShloMosaic Idealize.ShloMosaic.ValueIdx

/-- The zero offsets of a rank-2 rectangle, however spelt. -/
theorem zero_offsets : (![0, 0] : Fin 2 → Nat) = fun _ => 0 := funext fun a => by fin_cases a <;> rfl

/-- Entry `(p, k)` of `x * s + t`, the rows `s` and `t` stretched along the first axis. -/
theorem affine_apply {a b : Nat} (x : FVec Ideal ⟨2, ![a, b]⟩ .f32) (s t : FVec Ideal ⟨2, ![1, b]⟩ .f32)
    (hc : (⟨2, ![1, b]⟩ : Shape).ShapeCasts ⟨2, ![1, b]⟩) (hb : (⟨2, ![1, b]⟩ : Shape).Broadcasts ⟨2, ![a, b]⟩)
    (p : Fin a) (k : Fin b) :
    addf (mulf x (broadcastTo ⟨2, ![a, b]⟩ (shapeCast ⟨2, ![1, b]⟩ s hc) hb))
        (broadcastTo ⟨2, ![a, b]⟩ (shapeCast ⟨2, ![1, b]⟩ t hc) hb) (ix2 p k)
      = x (ix2 p k) * s (ix2 (0 : Fin 1) k) + t (ix2 (0 : Fin 1) k) := by
  rw [shapeCast_self, shapeCast_self]
  show x (ix2 p k) * broadcastTo ⟨2, ![a, b]⟩ s hb (ix2 p k) + broadcastTo ⟨2, ![a, b]⟩ t hb (ix2 p k) = _
  rw [Rank2.bcastRow_apply, Rank2.bcastRow_apply]

/-- Entry `(p, k)` of `max (x * s + t) 0`: the clamp is against the splat of the zero word. -/
theorem affine_relu_apply {a b : Nat} (x : FVec Ideal ⟨2, ![a, b]⟩ .f32) (s t : FVec Ideal ⟨2, ![1, b]⟩ .f32)
    (hc : (⟨2, ![1, b]⟩ : Shape).ShapeCasts ⟨2, ![1, b]⟩) (hb : (⟨2, ![1, b]⟩ : Shape).Broadcasts ⟨2, ![a, b]⟩)
    (p : Fin a) (k : Fin b) :
    maximumf (addf (mulf x (broadcastTo ⟨2, ![a, b]⟩ (shapeCast ⟨2, ![1, b]⟩ s hc) hb))
        (broadcastTo ⟨2, ![a, b]⟩ (shapeCast ⟨2, ![1, b]⟩ t hc) hb))
        (broadcast ⟨2, ![a, b]⟩ (Scalar.ofBits (F := Ideal) .f32 0x00000000#32)) (ix2 p k)
      = max (x (ix2 p k) * s (ix2 (0 : Fin 1) k) + t (ix2 (0 : Fin 1) k)) 0 := by
  rw [maximumf_apply, affine_apply, broadcast_apply]
  exact congrArg (max _) Ideal.ofBits_zero_f32

/-- Entry `(p, q)` of a bias row stretched along the first axis. -/
theorem bias_apply {a b : Nat} (v : FVec Ideal ⟨2, ![1, b]⟩ .f32)
    (hc : (⟨2, ![1, b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix2 (0 : Fin 1) q) := by
  rw [shapeCast_self, Rank2.bcastRow_apply]

end Cert.KernelIdeal.RegionValue

end
-- ==== Proof.Region0.lean ====
/-
  What the first fused block leaves in its output array, entry by entry, on the extended reals.

  The grid has ten points; point `t` works on rows `5000 t … 5000 t + 4999` of the node features and of the output, and
  on the whole scale row, shift row and weight matrix.  Its tile of the output is the affinely transformed tile of the
  features multiplied into the weight matrix, so row `5000 t + r` of the output is the inner products of row
  `5000 t + r` of the transformed features with the columns of the weight matrix: the tile is the restriction of ONE
  function of the whole arrays to the point's rows.  The ten tiles cover the output (row `p` lies in the tile of point
  `p / 5000`), so the output array ends holding that function.
-/
import proofs.«145119_j4501125726314_1_alg».proof.Proof.Gen.KernelIdeal.Frame
import proofs.«145119_j4501125726314_1_alg».proof.Proof.RegionSpec
import proofs.«145119_j4501125726314_1_alg».proof.Proof.RegionCommon

noncomputable section

open scoped BigOperators

namespace Cert.KernelIdeal.RegionValue

open Cert.KernelIdeal Cert.KernelIdeal.Gen Idealize.ShloMosaic Idealize.ShloMosaic.ValueIdx Idealize.ShloMosaic.TcCoe
open Idealize.ShloMosaic.Pipeline (Dat)

/-! ## The tile's arithmetic at an entry -/

/-- Entry `(r, q)` of the tile the body stores: the inner product of row `r` of the transformed feature tile with
    column `q` of the weight matrix (the change of float format is the identity on extended reals, the product into
    the zero accumulator is the plain contraction sum). -/
theorem tile0_apply (x0 : Vec Ideal S5000x128 .f32) (x1 x2 : Vec Ideal S1x128 .f32) (x3 : Vec Ideal S128x128 .f32)
    (r : Fin 5000) (q : Fin 128) :
    k0_pay1 (F := Ideal) x0 x1 x2 x3 (ix2 r q)
      = ∑ k : Fin 128, (x0 (ix2 r k) * x1 (ix2 (0 : Fin 1) k) + x2 (ix2 (0 : Fin 1) k)) * x3 (ix2 k q) := by
  unfold k0_pay1
  refine (Cert.Bridge.matmul_zero_plain dot_S5000x128_S128x128_S5000x128_1_0_0_1_n_n rfl rfl rfl rfl rfl rfl none _ _ r q).trans ?_
  refine Finset.sum_congr rfl fun k _ => ?_
  exact congrArg (· * x3 (ix2 k q)) (affine_apply x0 x1 x2 shapeCasts_S1x128_S1x128 broadcasts_S1x128_S5000x128 r k)

/-- The same with every factor named by what it is known to be: a tile whose entries are rows `T * 5000 + r` of a
    feature array `X`, rows that are the rows `s`, `b`, and a matrix that is `W`. -/
theorem tile0_eq_spec (X : Cert.GcnSpec.Mat 50000 128) (s b : Cert.GcnSpec.Mat 1 128) (W : Cert.GcnSpec.Mat 128 128)
    (x0 : Vec Ideal S5000x128 .f32) (x1 x2 : Vec Ideal S1x128 .f32) (x3 : Vec Ideal S128x128 .f32)
    (P : Fin 50000) (r : Fin 5000) (q : Fin 128)
    (h0 : ∀ k : Fin 128, x0 (ix2 r k) = X (ix2 P k))
    (h1 : ∀ k : Fin 128, x1 (ix2 (0 : Fin 1) k) = s (ix2 (0 : Fin 1) k))
    (h2 : ∀ k : Fin 128, x2 (ix2 (0 : Fin 1) k) = b (ix2 (0 : Fin 1) k))
    (h3 : ∀ k : Fin 128, x3 (ix2 k q) = W (ix2 k q)) :
    k0_pay1 (F := Ideal) x0 x1 x2 x3 (ix2 r q) = Cert.GcnSpec.affineMatmul X s b W P q := by
  refine (tile0_apply x0 x1 x2 x3 r q).trans ?_
  unfold Cert.GcnSpec.affineMatmul
  exact Finset.sum_congr rfl fun k _ => by rw [h0 k, h1 k, h2 k, h3 k]

/-! ## The windows' blocks, read off the arrays -/

/-- The printed index maps, decided over the grid: the feature window and the output window are at block `t` of the
    rows at point `t`; the other three windows stay at block zero. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

section
variable (V : (c : Dev nD) → (b : Ref sig .tc) → Buf (Elt Ideal) ((c : Thread nD τ).loc b))

/-- The feature window's block at point `t` is rows `5000 t …` of the feature array. -/
theorem block0_0_apply (c : Dev nD) (t : Fin cfg0.N) (r : Fin 5000) (k : Fin 128) (P : Fin 50000)
    (hP : P.val = t.val * 5000 + r.val) :
    (iblk0 (F := Ideal) V c 0 t : Vec Ideal S5000x128 .f32) (ix2 r k)
      = (V c main_arg0 : S50000x128.Idx → EReal) (ix2 P k) := by
  obtain ⟨e0, e1, -⟩ := index_facts0 t
  show (V c main_arg0 : S50000x128.Idx → EReal) (((cfg0.win 0).blk t).view.emb (ix2 r k)) = _
  refine congrArg (V c main_arg0 : S50000x128.Idx → EReal) (funext fun a => Fin.ext ?_)
  match a with
  | ⟨0, _⟩ => show win0_0.index t (0 : Fin 2) * 5000 + 1 * r.val = P.val; omega
  | ⟨1, _⟩ => show win0_0.index t (1 : Fin 2) * 128 + 1 * k.val = k.val; omega

/-- The scale row's block at every point is the scale row. -/
theorem block0_1_apply (c : Dev nD) (t : Fin cfg0.N) (k : Fin 128) :
    (iblk0 (F := Ideal) V c 1 t : Vec Ideal S1x128 .f32) (ix2 (0 : Fin 1) k)
      = (V c main_v42 : S1x128.Idx → EReal) (ix2 (0 : Fin 1) k) := by
  obtain ⟨-, -, e0, e1, -⟩ := index_facts0 t
  show (V c main_v42 : S1x128.Idx → EReal) (((cfg0.win 1).blk t).view.emb (ix2 (0 : Fin 1) k)) = _
  refine congrArg (V c main_v42 : S1x128.Idx → EReal) (funext fun a => Fin.ext ?_)
  match a with
  | ⟨0, _⟩ => show win0_1.index t (0 : Fin 2) * 1 + 1 * 0 = 0; omega
  | ⟨1, _⟩ => show win0_1.index t (1 : Fin 2) * 128 + 1 * k.val = k.val; omega

/-- The shift row's block at every point is the shift row. -/
theorem block0_2_apply (c : Dev nD) (t : Fin cfg0.N) (k : Fin 128) :
    (iblk0 (F := Ideal) V c 2 t : Vec Ideal S1x128 .f32) (ix2 (0 : Fin 1) k)
      = (V c main_v43 : S1x128.Idx → EReal) (ix2 (0 : Fin 1) k) := by
  obtain ⟨-, -, -, -, e0, e1, -⟩ := index_facts0 t
  show (V c main_v43 : S1x128.Idx → EReal) (((cfg0.win 2).blk t).view.emb (ix2 (0 : Fin 1) k)) = _
  refine congrArg (V c main_v43 : S1x128.Idx → EReal) (funext fun a => Fin.ext ?_)
  match a with
  | ⟨0, _⟩ => show win0_2.index t (0 : Fin 2) * 1 + 1 * 0 = 0; omega
  | ⟨1, _⟩ => show win0_2.index t (1 : Fin 2) * 128 + 1 * k.val = k.val; omega

/-- The weight window's block at every point is the weight matrix. -/
theorem block0_3_apply (c : Dev nD) (t : Fin cfg0.N) (k : Fin 128) (q : Fin 128) :
    (iblk0 (F := Ideal) V c 3 t : Vec Ideal S128x128 .f32) (ix2 k q)
      = (V c main_arg5 : S128x128.Idx → EReal) (ix2 k q) := by
  obtain ⟨-, -, -, -, -, -, e0, e1, -⟩ := index_facts0 t
  show (V c main_arg5 : S128x128.Idx → EReal) (((cfg0.win 3).blk t).view.emb (ix2 k q)) = _
  refine congrArg (V c main_arg5 : S128x128.Idx → EReal) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-! ## The output array -/

/-- The whole output as one function of the region's operand arrays. -/
def whole0 (c : Dev nD) : S50000x128.Idx → EReal := fun i =>
  Cert.GcnSpec.affineMatmul (N := 50000) (D := 128) (C := 128)
    (V c main_arg0) (V c main_v42) (V c main_v43) (V c main_arg5) (i 0) (i 1)

/-- Where an entry of the output window's block at point `t` sits in the output array. -/
theorem out_emb0 (t : Fin cfg0.N) (r : Fin 5000) (q : Fin 128) (P : Fin 50000) (hP : P.val = t.val * 5000 + r.val) :
    (((cfg0.win 4).blk t).view.emb (ix2 r q) : S50000x128.Idx) = ix2 P q := by
  obtain ⟨-, -, -, -, -, -, -, -, e0, e1⟩ := index_facts0 t
  refine funext fun a => Fin.ext ?_
  match a with
  | ⟨0, _⟩ => show win0_4.index t (0 : Fin 2) * 5000 + 1 * r.val = P.val; omega
  | ⟨1, _⟩ => show win0_4.index t (1 : Fin 2) * 128 + 1 * q.val = q.val; omega

/-- What point `t` writes back is block `t` of `whole0`. -/
theorem flushed0_eq (c : Dev nD) (t : Fin cfg0.N) :
    (dat0 (F := Ideal) V c).flushed 4 t = ((cfg0.win 4).blk t).view.read (Elt Ideal) (whole0 V c) := by
  show (cfg0.win 4).cut (grid0.coords t) ((dat0 (F := Ideal) V c).after 4 t) = _
  rw [after0_4]
  unfold out0_4
  rw [View.canon_unit_zero zero_offsets]
  simp only [View.ld_unit_zero (S := S5000x128) zero_offsets, View.ld_unit_zero (S := S1x128) zero_offsets,
    View.ld_unit_zero (S := S128x128) zero_offsets]
  funext j
  obtain ⟨r, q, rfl⟩ : ∃ (r : Fin 5000) (q : Fin 128), j = ix2 r q := ⟨j 0, j 1, eq_ix2 j⟩
  have hN : cfg0.N = 10 := N_0
  have ht : t.val < 10 := hN ▸ t.isLt
  have hr : r.val < 5000 := r.isLt
  show k0_pay1 (F := Ideal) (iblk0 V c 0 t) (iblk0 V c 1 t) (iblk0 V c 2 t) (iblk0 V c 3 t) (ix2 r q)
    = whole0 V c (((cfg0.win 4).blk t).view.emb (ix2 r q))
  rw [out_emb0 t r q ⟨t.val * 5000 + r.val, by omega⟩ rfl]
  exact tile0_eq_spec (V c main_arg0) (V c main_v42) (V c main_v43) (V c main_arg5)
    (iblk0 V c 0 t) (iblk0 V c 1 t) (iblk0 V c 2 t) (iblk0 V c 3 t) ⟨t.val * 5000 + r.val, by omega⟩ r q
    (fun k => block0_0_apply V c t r k _ rfl) (fun k => block0_1_apply V c t k) (fun k => block0_2_apply V c t k)
    (fun k => block0_3_apply V c t k q)

/-- An index of the output array is in point `t`'s block iff each coordinate is in the block's range on its axis. -/
theorem mem_block0 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v44).slice (win0_4.rect t)).set ↔ _
  rw [View.set_slice_whole, Rect.mem_set_unit]
  exact Iff.rfl

/-- Every entry of the output array is written back by some point: row `p` by point `p / 5000`. -/
theorem covered0 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, e0, e1⟩ := index_facts0 t
  refine ⟨t, flush0_4 t, ?_⟩
  rw [mem_block0]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- The output array after the region is `whole0` of the operand arrays as the region found them. -/
theorem region0_array (c : Dev nD) : (dat0 (F := Ideal) V c).arrAt 4 cfg0.N = whole0 V c :=
  (dat0 (F := Ideal) V c).arrAt_eq_of_cover 4 (whole0 V c) (fun t _ => flushed0_eq V c t) (covered0)

/-- ENTRY `(p, q)` of the first block's output array: the inner product of row `p` of the affinely transformed features
    with column `q` of the weight matrix. -/
theorem region0_entry (c : Dev nD) (p : Fin 50000) (q : Fin 128) :
    (dat0 (F := Ideal) V c).arrAt 4 cfg0.N (ix2 p q)
      = Cert.GcnSpec.affineMatmul (V c main_arg0) (V c main_v42) (V c main_v43) (V c main_arg5) p q :=
  congrFun (region0_array V c) (ix2 p q)

end

end Cert.KernelIdeal.RegionValue

end
-- ==== Proof.Region1.lean ====
/-
  What the second fused block leaves in its output array, entry by entry, on the extended reals.

  The grid has ten points; point `t` works on rows `5000 t … 5000 t + 4999` of the node features and of the output, and
  on the whole scale row, shift row, weight matrix and bias row.  Its tile of the output is the affinely transformed
  tile of the features, clamped below at zero, multiplied into the weight matrix, plus the bias row: so row
  `5000 t + r` of the output depends on row `5000 t + r` of the features only, and the tile is the restriction of ONE
  function of the whole arrays to the point's rows.  The ten tiles cover the output (row `p` lies in the tile of point
  `p / 5000`), so the output array ends holding that function.
-/
import proofs.«145119_j4501125726314_1_alg».proof.Proof.Gen.KernelIdeal.Frame
import proofs.«145119_j4501125726314_1_alg».proof.Proof.RegionSpec
import proofs.«145119_j4501125726314_1_alg».proof.Proof.RegionCommon

noncomputable section

open scoped BigOperators

namespace Cert.KernelIdeal.RegionValue

open Cert.KernelIdeal Cert.KernelIdeal.Gen Idealize.ShloMosaic Idealize.ShloMosaic.ValueIdx Idealize.ShloMosaic.TcCoe
open Idealize.ShloMosaic.Pipeline (Dat)

/-! ## The tile's arithmetic at an entry -/

/-- Entry `(r, q)` of the tile the body stores: the inner product of row `r` of the clamped transformed feature tile
    with column `q` of the weight matrix, plus entry `q` of the bias row (the change of float format is the identity on
    extended reals, the product into the zero accumulator is the plain contraction sum, a shape cast to the same shape
    changes nothing). -/
theorem tile1_apply (x0 : Vec Ideal S5000x128 .f32) (x1 x2 : Vec Ideal S1x128 .f32) (x3 : Vec Ideal S128x128 .f32)
    (x4 : Vec Ideal S1x128 .f32) (r : Fin 5000) (q : Fin 128) :
    k1_pay1 (F := Ideal) x0 x1 x2 x3 x4 (ix2 r q)
      = (∑ k : Fin 128, max (x0 (ix2 r k) * x1 (ix2 (0 : Fin 1) k) + x2 (ix2 (0 : Fin 1) k)) 0 * x3 (ix2 k q))
        + x4 (ix2 (0 : Fin 1) q) := by
  unfold k1_pay1
  refine (addf_apply _ _ (ix2 r q)).trans ?_
  refine (congrArg₂ (· + ·)
    (Cert.Bridge.matmul_zero_plain dot_S5000x128_S128x128_S5000x128_1_0_0_1_n_n rfl rfl rfl rfl rfl rfl none _ _ r q)
    (bias_apply x4 shapeCasts_S1x128_S1x128 broadcasts_S1x128_S5000x128 r q)).trans ?_
  refine congrArg (· + x4 (ix2 (0 : Fin 1) q)) (Finset.sum_congr rfl fun k _ => ?_)
  refine congrArg (· * x3 (ix2 k q)) ?_
  refine (affine_relu_apply (shapeCast S5000x128 x0 shapeCasts_S5000x128_S5000x128) x1 x2 shapeCasts_S1x128_S1x128
    broadcasts_S1x128_S5000x128 r k).trans ?_
  rw [shapeCast_self]

/-- The same with every factor named by what it is known to be: a tile whose row `r` is row `P` of a feature array
    `X`, rows that are the rows `s`, `b`, `d`, and a matrix that is `W`. -/
theorem tile1_eq_spec (X : Cert.GcnSpec.Mat 50000 128) (s b : Cert.GcnSpec.Mat 1 128) (W : Cert.GcnSpec.Mat 128 128)
    (d : Cert.GcnSpec.Mat 1 128)
    (x0 : Vec Ideal S5000x128 .f32) (x1 x2 : Vec Ideal S1x128 .f32) (x3 : Vec Ideal S128x128 .f32) (x4 : Vec Ideal S1x128 .f32)
    (P : Fin 50000) (r : Fin 5000) (q : Fin 128)
    (h0 : ∀ k : Fin 128, x0 (ix2 r k) = X (ix2 P k))
    (h1 : ∀ k : Fin 128, x1 (ix2 (0 : Fin 1) k) = s (ix2 (0 : Fin 1) k))
    (h2 : ∀ k : Fin 128, x2 (ix2 (0 : Fin 1) k) = b (ix2 (0 : Fin 1) k))
    (h3 : ∀ k : Fin 128, x3 (ix2 k q) = W (ix2 k q))
    (h4 : x4 (ix2 (0 : Fin 1) q) = d (ix2 (0 : Fin 1) q)) :
    k1_pay1 (F := Ideal) x0 x1 x2 x3 x4 (ix2 r q) = Cert.GcnSpec.affineReluMatmul X s b W d P q := by
  refine (tile1_apply x0 x1 x2 x3 x4 r q).trans ?_
  unfold Cert.GcnSpec.affineReluMatmul
  rw [h4]
  exact congrArg (· + d (ix2 (0 : Fin 1) q)) (Finset.sum_congr rfl fun k _ => by rw [h0 k, h1 k, h2 k, h3 k])

/-! ## The windows' blocks, read off the arrays -/

/-- The printed index maps, decided over the grid: the feature window and the output window are at block `t` of the
    rows at point `t`; the other four windows stay at block zero. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))

/-- The feature window's block at point `t` is rows `5000 t …` of the feature array. -/
theorem block1_0_apply (c : Dev nD) (t : Fin cfg1.N) (r : Fin 5000) (k : Fin 128) (P : Fin 50000)
    (hP : P.val = t.val * 5000 + r.val) :
    (iblk1 (F := Ideal) V c 0 t : Vec Ideal S5000x128 .f32) (ix2 r k)
      = (V c main_v64 : S50000x128.Idx → EReal) (ix2 P k) := by
  obtain ⟨e0, e1, -⟩ := index_facts1 t
  show (V c main_v64 : S50000x128.Idx → EReal) (((cfg1.win 0).blk t).view.emb (ix2 r k)) = _
  refine congrArg (V c main_v64 : S50000x128.Idx → EReal) (funext fun a => Fin.ext ?_)
  match a with
  | ⟨0, _⟩ => show win1_0.index t (0 : Fin 2) * 5000 + 1 * r.val = P.val; omega
  | ⟨1, _⟩ => show win1_0.index t (1 : Fin 2) * 128 + 1 * k.val = k.val; omega

/-- The scale row's block at every point is the scale row. -/
theorem block1_1_apply (c : Dev nD) (t : Fin cfg1.N) (k : Fin 128) :
    (iblk1 (F := Ideal) V c 1 t : Vec Ideal S1x128 .f32) (ix2 (0 : Fin 1) k)
      = (V c main_v82 : S1x128.Idx → EReal) (ix2 (0 : Fin 1) k) := by
  obtain ⟨-, -, e0, e1, -⟩ := index_facts1 t
  show (V c main_v82 : S1x128.Idx → EReal) (((cfg1.win 1).blk t).view.emb (ix2 (0 : Fin 1) k)) = _
  refine congrArg (V c main_v82 : S1x128.Idx → EReal) (funext fun a => Fin.ext ?_)
  match a with
  | ⟨0, _⟩ => show win1_1.index t (0 : Fin 2) * 1 + 1 * 0 = 0; omega
  | ⟨1, _⟩ => show win1_1.index t (1 : Fin 2) * 128 + 1 * k.val = k.val; omega

/-- The shift row's block at every point is the shift row. -/
theorem block1_2_apply (c : Dev nD) (t : Fin cfg1.N) (k : Fin 128) :
    (iblk1 (F := Ideal) V c 2 t : Vec Ideal S1x128 .f32) (ix2 (0 : Fin 1) k)
      = (V c main_v83 : S1x128.Idx → EReal) (ix2 (0 : Fin 1) k) := by
  obtain ⟨-, -, -, -, e0, e1, -⟩ := index_facts1 t
  show (V c main_v83 : S1x128.Idx → EReal) (((cfg1.win 2).blk t).view.emb (ix2 (0 : Fin 1) k)) = _
  refine congrArg (V c main_v83 : S1x128.Idx → EReal) (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

/-- The weight window's block at every point is the weight matrix. -/
theorem block1_3_apply (c : Dev nD) (t : Fin cfg1.N) (k : Fin 128) (q : Fin 128) :
    (iblk1 (F := Ideal) V c 3 t : Vec Ideal S128x128 .f32) (ix2 k q)
      = (V c main_arg9 : S128x128.Idx → EReal) (ix2 k q) := by
  obtain ⟨-, -, -, -, -, -, e0, e1, -⟩ := index_facts1 t
  show (V c main_arg9 : S128x128.Idx → EReal) (((cfg1.win 3).blk t).view.emb (ix2 k q)) = _
  refine congrArg (V c main_arg9 : S128x128.Idx → EReal) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias row's block at every point is the bias row. -/
theorem block1_4_apply (c : Dev nD) (t : Fin cfg1.N) (q : Fin 128) :
    (iblk1 (F := Ideal) V c 4 t : Vec Ideal S1x128 .f32) (ix2 (0 : Fin 1) q)
      = (V c main_v84 : S1x128.Idx → EReal) (ix2 (0 : Fin 1) q) := by
  obtain ⟨-, -, -, -, -, -, -, -, e0, e1, -⟩ := index_facts1 t
  show (V c main_v84 : S1x128.Idx → EReal) (((cfg1.win 4).blk t).view.emb (ix2 (0 : Fin 1) q)) = _
  refine congrArg (V c main_v84 : S1x128.Idx → EReal) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-! ## The output array -/

/-- The whole output as one function of the region's operand arrays. -/
def whole1 (c : Dev nD) : S50000x128.Idx → EReal := fun i =>
  Cert.GcnSpec.affineReluMatmul (N := 50000) (D := 128) (C := 128)
    (V c main_v64) (V c main_v82) (V c main_v83) (V c main_arg9) (V c main_v84) (i 0) (i 1)

/-- Where an entry of the output window's block at point `t` sits in the output array. -/
theorem out_emb1 (t : Fin cfg1.N) (r : Fin 5000) (q : Fin 128) (P : Fin 50000) (hP : P.val = t.val * 5000 + r.val) :
    (((cfg1.win 5).blk t).view.emb (ix2 r q) : S50000x128.Idx) = ix2 P q := by
  obtain ⟨-, -, -, -, -, -, -, -, -, -, e0, e1⟩ := index_facts1 t
  refine funext fun a => Fin.ext ?_
  match a with
  | ⟨0, _⟩ => show win1_5.index t (0 : Fin 2) * 5000 + 1 * r.val = P.val; omega
  | ⟨1, _⟩ => show win1_5.index t (1 : Fin 2) * 128 + 1 * q.val = q.val; omega

/-- What point `t` writes back is block `t` of `whole1`. -/
theorem flushed1_eq (c : Dev nD) (t : Fin cfg1.N) :
    (dat1 (F := Ideal) V c).flushed 5 t = ((cfg1.win 5).blk t).view.read (Elt Ideal) (whole1 V c) := by
  show (cfg1.win 5).cut (grid1.coords t) ((dat1 (F := Ideal) V c).after 5 t) = _
  rw [after1_5]
  unfold out1_5
  rw [View.canon_unit_zero zero_offsets]
  simp only [View.ld_unit_zero (S := S5000x128) zero_offsets, View.ld_unit_zero (S := S1x128) zero_offsets, View.ld_unit_zero (S := S128x128) zero_offsets]
  funext j
  obtain ⟨r, q, rfl⟩ : ∃ (r : Fin 5000) (q : Fin 128), j = ix2 r q := ⟨j 0, j 1, eq_ix2 j⟩
  have hN : cfg1.N = 10 := N_1
  have ht : t.val < 10 := hN ▸ t.isLt
  have hr : r.val < 5000 := r.isLt
  show k1_pay1 (F := Ideal) (iblk1 V c 0 t) (iblk1 V c 1 t) (iblk1 V c 2 t) (iblk1 V c 3 t) (iblk1 V c 4 t) (ix2 r q)
    = whole1 V c (((cfg1.win 5).blk t).view.emb (ix2 r q))
  rw [out_emb1 t r q ⟨t.val * 5000 + r.val, by omega⟩ rfl]
  exact tile1_eq_spec (V c main_v64) (V c main_v82) (V c main_v83) (V c main_arg9) (V c main_v84)
    (iblk1 V c 0 t) (iblk1 V c 1 t) (iblk1 V c 2 t) (iblk1 V c 3 t) (iblk1 V c 4 t)
    ⟨t.val * 5000 + r.val, by omega⟩ r q
    (fun k => block1_0_apply V c t r k _ rfl) (fun k => block1_1_apply V c t k) (fun k => block1_2_apply V c t k)
    (fun k => block1_3_apply V c t k q) (block1_4_apply V c t q)

/-- An index of the output array is in point `t`'s block iff each coordinate is in the block's range on its axis. -/
theorem mem_block1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v85).slice (win1_5.rect t)).set ↔ _
  rw [View.set_slice_whole, Rect.mem_set_unit]
  exact Iff.rfl

/-- Every entry of the output array is written back by some point: row `p` by point `p / 5000`. -/
theorem covered1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := index_facts1 t
  refine ⟨t, flush1_5 t, ?_⟩
  rw [mem_block1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The output array after the region is `whole1` of the operand arrays as the region found them. -/
theorem region1_array (c : Dev nD) : (dat1 (F := Ideal) V c).arrAt 5 cfg1.N = whole1 V c :=
  (dat1 (F := Ideal) V c).arrAt_eq_of_cover 5 (whole1 V c) (fun t _ => flushed1_eq V c t) (covered1)

/-- ENTRY `(p, q)` of the second block's output array: the inner product of row `p` of the clamped affinely transformed
    features with column `q` of the weight matrix, plus entry `q` of the bias row. -/
theorem region1_entry (c : Dev nD) (p : Fin 50000) (q : Fin 128) :
    (dat1 (F := Ideal) V c).arrAt 5 cfg1.N (ix2 p q)
      = Cert.GcnSpec.affineReluMatmul (V c main_v64) (V c main_v82) (V c main_v83) (V c main_arg9) (V c main_v84) p q :=
  congrFun (region1_array V c) (ix2 p q)

end

end Cert.KernelIdeal.RegionValue

end
-- ==== Proof.Region2.lean ====
/-
  What the third fused block leaves in its output array, entry by entry, on the extended reals.

  The grid has ten points; point `t` works on rows `5000 t … 5000 t + 4999` of the node features and of the output, and
  on the whole scale row, shift row, weight matrix and bias row.  Its tile of the output is the affinely transformed
  tile of the features, clamped below at zero, multiplied into the weight matrix, plus the bias row: so row
  `5000 t + r` of the output depends on row `5000 t + r` of the features only, and the tile is the restriction of ONE
  function of the whole arrays to the point's rows.  The ten tiles cover the output (row `p` lies in the tile of point
  `p / 5000`), so the output array ends holding that function.
-/
import proofs.«145119_j4501125726314_1_alg».proof.Proof.Gen.KernelIdeal.Frame
import proofs.«145119_j4501125726314_1_alg».proof.Proof.RegionSpec
import proofs.«145119_j4501125726314_1_alg».proof.Proof.RegionCommon

noncomputable section

open scoped BigOperators

namespace Cert.KernelIdeal.RegionValue

open Cert.KernelIdeal Cert.KernelIdeal.Gen Idealize.ShloMosaic Idealize.ShloMosaic.ValueIdx Idealize.ShloMosaic.TcCoe
open Idealize.ShloMosaic.Pipeline (Dat)

/-! ## The tile's arithmetic at an entry -/

/-- Entry `(r, q)` of the tile the body stores: the inner product of row `r` of the clamped transformed feature tile
    with column `q` of the weight matrix, plus entry `q` of the bias row (the change of float format is the identity on
    extended reals, the product into the zero accumulator is the plain contraction sum, a shape cast to the same shape
    changes nothing). -/
theorem tile2_apply (x0 : Vec Ideal S5000x128 .f32) (x1 x2 : Vec Ideal S1x128 .f32) (x3 : Vec Ideal S128x40 .f32)
    (x4 : Vec Ideal S1x40 .f32) (r : Fin 5000) (q : Fin 40) :
    k2_pay1 (F := Ideal) x0 x1 x2 x3 x4 (ix2 r q)
      = (∑ k : Fin 128, max (x0 (ix2 r k) * x1 (ix2 (0 : Fin 1) k) + x2 (ix2 (0 : Fin 1) k)) 0 * x3 (ix2 k q))
        + x4 (ix2 (0 : Fin 1) q) := by
  unfold k2_pay1
  refine (addf_apply _ _ (ix2 r q)).trans ?_
  refine (congrArg₂ (· + ·)
    (Cert.Bridge.matmul_zero_plain dot_S5000x128_S128x40_S5000x40_1_0_0_1_n_n rfl rfl rfl rfl rfl rfl none _ _ r q)
    (bias_apply x4 shapeCasts_S1x40_S1x40 broadcasts_S1x40_S5000x40 r q)).trans ?_
  refine congrArg (· + x4 (ix2 (0 : Fin 1) q)) (Finset.sum_congr rfl fun k _ => ?_)
  refine congrArg (· * x3 (ix2 k q)) ?_
  refine (affine_relu_apply (shapeCast S5000x128 x0 shapeCasts_S5000x128_S5000x128) x1 x2 shapeCasts_S1x128_S1x128
    broadcasts_S1x128_S5000x128 r k).trans ?_
  rw [shapeCast_self]

/-- The same with every factor named by what it is known to be: a tile whose row `r` is row `P` of a feature array
    `X`, rows that are the rows `s`, `b`, `d`, and a matrix that is `W`. -/
theorem tile2_eq_spec (X : Cert.GcnSpec.Mat 50000 128) (s b : Cert.GcnSpec.Mat 1 128) (W : Cert.GcnSpec.Mat 128 40)
    (d : Cert.GcnSpec.Mat 1 40)
    (x0 : Vec Ideal S5000x128 .f32) (x1 x2 : Vec Ideal S1x128 .f32) (x3 : Vec Ideal S128x40 .f32) (x4 : Vec Ideal S1x40 .f32)
    (P : Fin 50000) (r : Fin 5000) (q : Fin 40)
    (h0 : ∀ k : Fin 128, x0 (ix2 r k) = X (ix2 P k))
    (h1 : ∀ k : Fin 128, x1 (ix2 (0 : Fin 1) k) = s (ix2 (0 : Fin 1) k))
    (h2 : ∀ k : Fin 128, x2 (ix2 (0 : Fin 1) k) = b (ix2 (0 : Fin 1) k))
    (h3 : ∀ k : Fin 128, x3 (ix2 k q) = W (ix2 k q))
    (h4 : x4 (ix2 (0 : Fin 1) q) = d (ix2 (0 : Fin 1) q)) :
    k2_pay1 (F := Ideal) x0 x1 x2 x3 x4 (ix2 r q) = Cert.GcnSpec.affineReluMatmul X s b W d P q := by
  refine (tile2_apply x0 x1 x2 x3 x4 r q).trans ?_
  unfold Cert.GcnSpec.affineReluMatmul
  rw [h4]
  exact congrArg (· + d (ix2 (0 : Fin 1) q)) (Finset.sum_congr rfl fun k _ => by rw [h0 k, h1 k, h2 k, h3 k])

/-! ## The windows' blocks, read off the arrays -/

/-- The printed index maps, decided over the grid: the feature window and the output window are at block `t` of the
    rows at point `t`; the other four windows stay at block zero. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section
variable (V : (c : Dev nD) → (b : Ref sig .tc) → Buf (Elt Ideal) ((c : Thread nD τ).loc b))

/-- The feature window's block at point `t` is rows `5000 t …` of the feature array. -/
theorem block2_0_apply (c : Dev nD) (t : Fin cfg2.N) (r : Fin 5000) (k : Fin 128) (P : Fin 50000)
    (hP : P.val = t.val * 5000 + r.val) :
    (iblk2 (F := Ideal) V c 0 t : Vec Ideal S5000x128 .f32) (ix2 r k)
      = (V c main_v105 : S50000x128.Idx → EReal) (ix2 P k) := by
  obtain ⟨e0, e1, -⟩ := index_facts2 t
  show (V c main_v105 : S50000x128.Idx → EReal) (((cfg2.win 0).blk t).view.emb (ix2 r k)) = _
  refine congrArg (V c main_v105 : S50000x128.Idx → EReal) (funext fun a => Fin.ext ?_)
  match a with
  | ⟨0, _⟩ => show win2_0.index t (0 : Fin 2) * 5000 + 1 * r.val = P.val; omega
  | ⟨1, _⟩ => show win2_0.index t (1 : Fin 2) * 128 + 1 * k.val = k.val; omega

/-- The scale row's block at every point is the scale row. -/
theorem block2_1_apply (c : Dev nD) (t : Fin cfg2.N) (k : Fin 128) :
    (iblk2 (F := Ideal) V c 1 t : Vec Ideal S1x128 .f32) (ix2 (0 : Fin 1) k)
      = (V c main_v122 : S1x128.Idx → EReal) (ix2 (0 : Fin 1) k) := by
  obtain ⟨-, -, e0, e1, -⟩ := index_facts2 t
  show (V c main_v122 : S1x128.Idx → EReal) (((cfg2.win 1).blk t).view.emb (ix2 (0 : Fin 1) k)) = _
  refine congrArg (V c main_v122 : S1x128.Idx → EReal) (funext fun a => Fin.ext ?_)
  match a with
  | ⟨0, _⟩ => show win2_1.index t (0 : Fin 2) * 1 + 1 * 0 = 0; omega
  | ⟨1, _⟩ => show win2_1.index t (1 : Fin 2) * 128 + 1 * k.val = k.val; omega

/-- The shift row's block at every point is the shift row. -/
theorem block2_2_apply (c : Dev nD) (t : Fin cfg2.N) (k : Fin 128) :
    (iblk2 (F := Ideal) V c 2 t : Vec Ideal S1x128 .f32) (ix2 (0 : Fin 1) k)
      = (V c main_v123 : S1x128.Idx → EReal) (ix2 (0 : Fin 1) k) := by
  obtain ⟨-, -, -, -, e0, e1, -⟩ := index_facts2 t
  show (V c main_v123 : S1x128.Idx → EReal) (((cfg2.win 2).blk t).view.emb (ix2 (0 : Fin 1) k)) = _
  refine congrArg (V c main_v123 : S1x128.Idx → EReal) (funext fun a => Fin.ext ?_)
  match a with
  | ⟨0, _⟩ => show win2_2.index t (0 : Fin 2) * 1 + 1 * 0 = 0; omega
  | ⟨1, _⟩ => show win2_2.index t (1 : Fin 2) * 128 + 1 * k.val = k.val; omega

/-- The weight window's block at every point is the weight matrix. -/
theorem block2_3_apply (c : Dev nD) (t : Fin cfg2.N) (k : Fin 128) (q : Fin 40) :
    (iblk2 (F := Ideal) V c 3 t : Vec Ideal S128x40 .f32) (ix2 k q)
      = (V c main_arg13 : S128x40.Idx → EReal) (ix2 k q) := by
  obtain ⟨-, -, -, -, -, -, e0, e1, -⟩ := index_facts2 t
  show (V c main_arg13 : S128x40.Idx → EReal) (((cfg2.win 3).blk t).view.emb (ix2 k q)) = _
  refine congrArg (V c main_arg13 : S128x40.Idx → EReal) (funext fun a => Fin.ext ?_)
  match a with
  | ⟨0, _⟩ => show win2_3.index t (0 : Fin 2) * 128 + 1 * k.val = k.val; omega
  | ⟨1, _⟩ => show win2_3.index t (1 : Fin 2) * 40 + 1 * q.val = q.val; omega

/-- The bias row's block at every point is the bias row. -/
theorem block2_4_apply (c : Dev nD) (t : Fin cfg2.N) (q : Fin 40) :
    (iblk2 (F := Ideal) V c 4 t : Vec Ideal S1x40 .f32) (ix2 (0 : Fin 1) q)
      = (V c main_v124 : S1x40.Idx → EReal) (ix2 (0 : Fin 1) q) := by
  obtain ⟨-, -, -, -, -, -, -, -, e0, e1, -⟩ := index_facts2 t
  show (V c main_v124 : S1x40.Idx → EReal) (((cfg2.win 4).blk t).view.emb (ix2 (0 : Fin 1) q)) = _
  refine congrArg (V c main_v124 : S1x40.Idx → EReal) (funext fun a => Fin.ext ?_)
  match a with
  | ⟨0, _⟩ => show win2_4.index t (0 : Fin 2) * 1 + 1 * 0 = 0; omega
  | ⟨1, _⟩ => show win2_4.index t (1 : Fin 2) * 40 + 1 * q.val = q.val; omega

/-! ## The output array -/

/-- The whole output as one function of the region's operand arrays. -/
def whole2 (c : Dev nD) : S50000x40.Idx → EReal := fun i =>
  Cert.GcnSpec.affineReluMatmul (N := 50000) (D := 128) (C := 40)
    (V c main_v105) (V c main_v122) (V c main_v123) (V c main_arg13) (V c main_v124) (i 0) (i 1)

/-- Where an entry of the output window's block at point `t` sits in the output array. -/
theorem out_emb2 (t : Fin cfg2.N) (r : Fin 5000) (q : Fin 40) (P : Fin 50000) (hP : P.val = t.val * 5000 + r.val) :
    (((cfg2.win 5).blk t).view.emb (ix2 r q) : S50000x40.Idx) = ix2 P q := by
  obtain ⟨-, -, -, -, -, -, -, -, -, -, e0, e1⟩ := index_facts2 t
  refine funext fun a => Fin.ext ?_
  match a with
  | ⟨0, _⟩ => show win2_5.index t (0 : Fin 2) * 5000 + 1 * r.val = P.val; omega
  | ⟨1, _⟩ => show win2_5.index t (1 : Fin 2) * 40 + 1 * q.val = q.val; omega

/-- What point `t` writes back is block `t` of `whole2`. -/
theorem flushed2_eq (c : Dev nD) (t : Fin cfg2.N) :
    (dat2 (F := Ideal) V c).flushed 5 t = ((cfg2.win 5).blk t).view.read (Elt Ideal) (whole2 V c) := by
  show (cfg2.win 5).cut (grid2.coords t) ((dat2 (F := Ideal) V c).after 5 t) = _
  rw [after2_5]
  unfold out2_5
  rw [View.canon_unit_zero zero_offsets]
  simp only [View.ld_unit_zero (S := S5000x128) zero_offsets, View.ld_unit_zero (S := S1x128) zero_offsets, View.ld_unit_zero (S := S128x40) zero_offsets, View.ld_unit_zero (S := S1x40) zero_offsets, View.ld_unit_zero (S := S5000x40) zero_offsets]
  funext j
  obtain ⟨r, q, rfl⟩ : ∃ (r : Fin 5000) (q : Fin 40), j = ix2 r q := ⟨j 0, j 1, eq_ix2 j⟩
  have hN : cfg2.N = 10 := N_2
  have ht : t.val < 10 := hN ▸ t.isLt
  have hr : r.val < 5000 := r.isLt
  show k2_pay1 (F := Ideal) (iblk2 V c 0 t) (iblk2 V c 1 t) (iblk2 V c 2 t) (iblk2 V c 3 t) (iblk2 V c 4 t) (ix2 r q)
    = whole2 V c (((cfg2.win 5).blk t).view.emb (ix2 r q))
  rw [out_emb2 t r q ⟨t.val * 5000 + r.val, by omega⟩ rfl]
  exact tile2_eq_spec (V c main_v105) (V c main_v122) (V c main_v123) (V c main_arg13) (V c main_v124)
    (iblk2 V c 0 t) (iblk2 V c 1 t) (iblk2 V c 2 t) (iblk2 V c 3 t) (iblk2 V c 4 t)
    ⟨t.val * 5000 + r.val, by omega⟩ r q
    (fun k => block2_0_apply V c t r k _ rfl) (fun k => block2_1_apply V c t k) (fun k => block2_2_apply V c t k)
    (fun k => block2_3_apply V c t k q) (block2_4_apply V c t q)

/-- An index of the output array is in point `t`'s block iff each coordinate is in the block's range on its axis. -/
theorem mem_block2 (t : Fin cfg2.N) (i : S50000x40.Idx) :
    i ∈ ((cfg2.win 5).blk t).view.set ↔ ∀ a : Fin 2, win2_5.index t a * S5000x40.size a ≤ (i a).val
      ∧ (i a).val < win2_5.index t a * S5000x40.size a + S5000x40.size a := by
  show i ∈ ((View.whole main_v125).slice (win2_5.rect t)).set ↔ _
  rw [View.set_slice_whole, Rect.mem_set_unit]
  exact Iff.rfl

/-- Every entry of the output array is written back by some point: row `p` by point `p / 5000`. -/
theorem covered2 (i : S50000x40.Idx) :
    ∃ t : Fin cfg2.N, (cfg2.win 5).flush t = true ∧ i ∈ ((cfg2.win 5).blk t).view.set := by
  have hi0 : (i 0).val < 50000 := (i 0).isLt
  have hi1 : (i 1).val < 40 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, e0, e1⟩ := index_facts2 t
  refine ⟨t, flush2_5 t, ?_⟩
  rw [mem_block2]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 40 ≤ (i 1).val ∧ (i 1).val < win2_5.index t (1 : Fin 2) * 40 + 40
    omega

/-- The output array after the region is `whole2` of the operand arrays as the region found them. -/
theorem region2_array (c : Dev nD) : (dat2 (F := Ideal) V c).arrAt 5 cfg2.N = whole2 V c :=
  (dat2 (F := Ideal) V c).arrAt_eq_of_cover 5 (whole2 V c) (fun t _ => flushed2_eq V c t) (covered2)

/-- ENTRY `(p, q)` of the third block's output array: the inner product of row `p` of the clamped affinely transformed
    features with column `q` of the weight matrix, plus entry `q` of the bias row. -/
theorem region2_entry (c : Dev nD) (p : Fin 50000) (q : Fin 40) :
    (dat2 (F := Ideal) V c).arrAt 5 cfg2.N (ix2 p q)
      = Cert.GcnSpec.affineReluMatmul (V c main_v105) (V c main_v122) (V c main_v123) (V c main_arg13) (V c main_v124) p q :=
  congrFun (region2_array V c) (ix2 p q)

end

end Cert.KernelIdeal.RegionValue

end
-- ==== Proof.Reals.lean ====
/-
  An array of extended reals all of whose entries are real numbers, and the closure of that property under the
  pointwise operations.
-/
import Idealize.ShloMosaic.PureOps.Ideal

noncomputable section

namespace Cert.GcnSpec

/-- Every entry is a real number. -/
def IsReal {ι : Type} (v : ι → EReal) : Prop := ∀ i, ∃ r : ℝ, v i = (r : EReal)

theorem isReal_add {a b : EReal} (ha : ∃ r : ℝ, a = r) (hb : ∃ r : ℝ, b = r) : ∃ r : ℝ, a + b = r := by
  obtain ⟨x, rfl⟩ := ha; obtain ⟨y, rfl⟩ := hb; exact ⟨x + y, (EReal.coe_add x y).symm⟩

theorem isReal_sub {a b : EReal} (ha : ∃ r : ℝ, a = r) (hb : ∃ r : ℝ, b = r) : ∃ r : ℝ, a - b = r := by
  obtain ⟨x, rfl⟩ := ha; obtain ⟨y, rfl⟩ := hb; exact ⟨x - y, (EReal.coe_sub x y).symm⟩

theorem isReal_mul {a b : EReal} (ha : ∃ r : ℝ, a = r) (hb : ∃ r : ℝ, b = r) : ∃ r : ℝ, a * b = r := by
  obtain ⟨x, rfl⟩ := ha; obtain ⟨y, rfl⟩ := hb; exact ⟨x * y, (EReal.coe_mul x y).symm⟩

theorem isReal_max {a b : EReal} (ha : ∃ r : ℝ, a = r) (hb : ∃ r : ℝ, b = r) : ∃ r : ℝ, max a b = r := by
  rcases max_choice a b with h | h <;> rw [h] <;> assumption

theorem isReal_zero : ∃ r : ℝ, (0 : EReal) = r := ⟨0, EReal.coe_zero.symm⟩

end Cert.GcnSpec

end
-- ==== Proof.Consts.lean ====
/-
  The float constants the network spells, as the numbers their bit patterns denote: the node count 50000, the
  variance guard ε (a positive real near 1e-5), one and zero.
-/
import Idealize.ShloMosaic.PureOps.Ideal

noncomputable section

namespace Cert.GcnSpec.Consts

open Idealize.ShloMosaic

/-- The pattern of `50000.0` denotes the real 50000. -/
theorem ofBits_nodeCount : Ideal.ofBits .f32 0x47435000#32 = ((50000 : ℝ) : EReal) := by
  simp [Ideal.ofBits, Ideal.ieee, -EReal.coe_mul]; norm_num

/-- The pattern of the variance guard denotes a positive real. -/
theorem ofBits_eps : ∃ r : ℝ, 0 < r ∧ Ideal.ofBits .f32 0x3727C5AC#32 = (r : EReal) := by
  refine ⟨10995116 / 2 ^ 40, by norm_num, ?_⟩
  simp [Ideal.ofBits, Ideal.ieee, -EReal.coe_mul]; norm_num

/-- The pattern of `+0.0` denotes zero. -/
theorem ofBits_zero : Ideal.ofBits .f32 0x00000000#32 = 0 := by
  simp [Ideal.ofBits, Ideal.ieee]

end Cert.GcnSpec.Consts

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.LibAggregateLinear.lean ====
/-
  A linear map commutes with a weighted aggregation, on the extended reals.

  Aggregating rows first and applying a matrix afterwards,
      ∑ k, (∑ e ∈ hits, x e k · a e) · w k ,
  is applying the matrix to every row first and aggregating afterwards,
      ∑ e ∈ hits, (∑ k, x e k · w k) · a e ,
  when every `x e k`, `w k` and `a e` is a real number: over ℝ this is distributivity and an exchange of the two finite sums.
  (With an infinite entry the two sides can differ: distributivity fails at `⊤ + ⊥`.)  The selection of the rows that hit is an
  `if` inside the sum, as a scatter-add read at an index leaves it.

  Also here: the coercion ℝ → EReal commutes with finite sums, and the reciprocal square root of a positive extended real is
  a real number (`⊤ ↦ 0`), so that `if 0 < y then rsqrt (max y ε) else 0` is real for every `y` and `ε`.
-/
import Idealize.ShloMosaic.PureOps.Ideal

noncomputable section

open scoped BigOperators

namespace Idealize.ShloMosaic.AggregateLinear

/-- The coercion of a finite real sum is the sum of the coercions. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem sum_isReal {ι : Type*} (s : Finset ι) (f : ι → EReal) (hf : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := ih fun i hi => hf i (Finset.mem_insert_of_mem hi)
    obtain ⟨q, hq⟩ := hf a (Finset.mem_insert_self a s)
    exact ⟨q + r, by rw [Finset.sum_insert ha, hr, hq, EReal.coe_add]⟩

/-- AGGREGATE THEN MAP = MAP THEN AGGREGATE, when every entry is real. -/
theorem aggregate_map_comm {ι κ : Type*} [Fintype ι] [Fintype κ] (x : ι → κ → EReal) (w : κ → EReal) (a : ι → EReal)
    (p : ι → Prop) [DecidablePred p]
    (hx : ∀ e k, ∃ r : ℝ, x e k = r) (hw : ∀ k, ∃ r : ℝ, w k = r) (ha : ∀ e, ∃ r : ℝ, a e = r) :
    ∑ k, (∑ e, if p e then x e k * a e else 0) * w k = ∑ e, if p e then (∑ k, x e k * w k) * a e else 0 := by
  choose X hX using hx
  choose W hW using hw
  choose A hA using ha
  have hl : ∀ k, (∑ e, if p e then x e k * a e else 0) * w k
      = (((∑ e, if p e then X e k * A e else 0) * W k : ℝ) : EReal) := by
    intro k
    rw [EReal.coe_mul, coe_finset_sum, hW]
    refine congrArg (· * (W k : EReal)) (Finset.sum_congr rfl fun e _ => ?_)
    by_cases h : p e
    · rw [if_pos h, if_pos h, hX, hA, EReal.coe_mul]
    · rw [if_neg h, if_neg h, EReal.coe_zero]
  have hr : ∀ e, (if p e then (∑ k, x e k * w k) * a e else 0)
      = (((if p e then (∑ k, X e k * W k) * A e else 0 : ℝ)) : EReal) := by
    intro e
    by_cases h : p e
    · rw [if_pos h, if_pos h, EReal.coe_mul, coe_finset_sum, hA]
      refine congrArg (· * (A e : EReal)) (Finset.sum_congr rfl fun k _ => ?_)
      rw [hX, hW, EReal.coe_mul]
    · rw [if_neg h, if_neg h, EReal.coe_zero]
  simp only [hl, hr, ← coe_finset_sum]
  refine congrArg (fun r : ℝ => (r : EReal)) ?_
  simp only [Finset.sum_mul]
  rw [Finset.sum_comm]
  refine Finset.sum_congr rfl fun e _ => ?_
  by_cases h : p e
  · simp only [if_pos h]
    refine Finset.sum_congr rfl fun k _ => ?_
    ring
  · simp only [if_neg h, zero_mul, Finset.sum_const_zero]

/-- The reciprocal square root of a positive extended real is a real number (`⊤ ↦ 0`). -/
theorem rsqrt_isReal_of_pos (y : EReal) (h : 0 < y) : ∃ r : ℝ, Ideal.rsqrt y = r := by
  induction y using EReal.rec with
  | bot => exact absurd h (not_lt.mpr bot_le)
  | top => exact ⟨0, by rw [Ideal.rsqrt_top, EReal.coe_zero]⟩
  | coe r =>
    have hr : 0 < r := EReal.coe_pos.mp h
    refine ⟨(Real.sqrt r)⁻¹, ?_⟩
    rw [Ideal.rsqrt_coe, if_neg (not_lt.mpr hr.le), if_neg hr.ne']

end Idealize.ShloMosaic.AggregateLinear

end
-- ==== Proof.BnMath.lean ====
/-
  The batch normalisation read entry by entry on the extended reals, and why folding it into a scale and a shift
  changes nothing when every number involved is real.

  For a feature matrix `x` with real entries the column mean `μ` is real, the column variance is a non-negative real, so
  `var + ε` is a positive real and `ρ = (var + ε)^(-1/2)` is real. With real `g` and `b`,
      x · (g · ρ) + (b − μ · (g · ρ)) = g · (x − μ) · ρ + b
  is an identity of real numbers (distributivity). On the extended reals it can fail at an infinite entry, which is
  where the finiteness of the inputs is used.
-/
import proofs.«145119_j4501125726314_1_alg».proof.Proof.HostSpec
import proofs.«145119_j4501125726314_1_alg».proof.Proof.Reals
import proofs.«145119_j4501125726314_1_alg».proof.Proof.Consts
import proofs.«145119_j4501125726314_1_alg».proof.Proof.LibBroadcastInDim2
import proofs.«145119_j4501125726314_1_alg».proof.Proof.LibAggregateLinear
import Idealize.ShloMosaic.PureOps.Ideal.Laws
import Idealize.ShloMosaic.Lib.ValueIdx
import Idealize.ShloMosaic.Lib.Pipeline.Value

noncomputable section

open scoped BigOperators

namespace Cert.GcnSpec

open Cert.ReferenceIdeal Cert.ReferenceIdeal.Gen Idealize.ShloMosaic Idealize.ShloMosaic.TcCoe Idealize.ShloMosaic.ValueIdx
open Idealize.ShloMosaic.BroadcastInDim2 Idealize.ShloMosaic.AggregateLinear

/-- A row of 128 numbers repeated down the rows, read at `(p, k)`: the row's entry `k`. -/
theorem asRows_apply (v : FVec Ideal S128 .f32) (p : Fin 50000) (k : Fin 128) :
    asRows (F := Ideal) v (ix2 p k) = v (ix1 k) := by
  unfold asRows
  exact (rowToMat_apply _ bcast_S1x128_S50000x128_0_1 p k).trans (vecToRow_apply v bcast_S128_S1x128_1 0 k)

/-- The column sum at column `k`: the sum over the rows. -/
theorem colSum_apply (x : FVec Ideal S50000x128 .f32) (k : Fin 128) :
    colSum (F := Ideal) x (ix1 k) = ∑ r : Fin 50000, x (ix2 r k) := by
  unfold colSum
  simp only [Host.reduceAdd, Ideal.hostReduceAdd_def]
  rw [Ideal.hostReduceAdd_single reducesTo_S50000x128_S128_d0 (by decide)]
  show Ideal.ofBits .f32 0x00000000#32 + _ = _
  rw [Consts.ofBits_zero, zero_add]
  refine Finset.sum_congr rfl fun r _ => ?_
  exact congrArg x (funext fun a => Fin.ext (by match a with | ⟨0, _⟩ => rfl | ⟨1, _⟩ => rfl))

/-- The node count is the real 50000 at every column. -/
theorem nodeCount_apply (i : S128.Idx) : nodeCount (F := Ideal) i = ((50000 : ℝ) : EReal) := by
  unfold nodeCount
  exact (broadcastInDim_apply _ bcast_S_S128 _ i (fun a => a.elim0) (fun a => a.elim0)).trans Consts.ofBits_nodeCount

/-- A quotient by the node count is a product with the real 1/50000. -/
theorem div_nodeCount (a : EReal) : Ideal.div a ((50000 : ℝ) : EReal) = a * (((1 / 50000 : ℝ)) : EReal) :=
  Ideal.div_coe (by norm_num) a

/-- The column mean at column `k`. -/
theorem colMean_apply (x : FVec Ideal S50000x128 .f32) (k : Fin 128) :
    colMean (F := Ideal) x (ix1 k) = (∑ r : Fin 50000, x (ix2 r k)) * (((1 / 50000 : ℝ)) : EReal) := by
  unfold colMean
  show Ideal.div (colSum (F := Ideal) x (ix1 k)) (nodeCount (F := Ideal) (ix1 k)) = _
  rw [colSum_apply, nodeCount_apply, div_nodeCount]

/-- The mean of a column of reals is real. -/
theorem colMean_real (x : FVec Ideal S50000x128 .f32) (hx : IsReal x) (k : Fin 128) :
    ∃ μ : ℝ, colMean (F := Ideal) x (ix1 k) = (μ : EReal) := by
  rw [colMean_apply]
  exact isReal_mul (sum_isReal _ _ fun r _ => hx _) ⟨_, rfl⟩

/-- The centred features at `(p, k)`. -/
theorem centred_apply (x : FVec Ideal S50000x128 .f32) (p : Fin 50000) (k : Fin 128) :
    centred (F := Ideal) x (ix2 p k) = x (ix2 p k) - colMean (F := Ideal) x (ix1 k) := by
  unfold centred
  show x (ix2 p k) - asRows (F := Ideal) (colMean (F := Ideal) x) (ix2 p k) = _
  rw [asRows_apply]

/-- The column variance at column `k`. -/
theorem colVar_apply (x : FVec Ideal S50000x128 .f32) (k : Fin 128) :
    colVar (F := Ideal) x (ix1 k)
      = (∑ r : Fin 50000, centred (F := Ideal) x (ix2 r k) * centred (F := Ideal) x (ix2 r k)) * (((1 / 50000 : ℝ)) : EReal) := by
  unfold colVar
  show Ideal.div (colSum (F := Ideal) _ (ix1 k)) (nodeCount (F := Ideal) (ix1 k)) = _
  rw [colSum_apply, nodeCount_apply, div_nodeCount]
  rfl

/-- The variance of a column of reals is a non-negative real. -/
theorem colVar_real (x : FVec Ideal S50000x128 .f32) (hx : IsReal x) (k : Fin 128) :
    ∃ v : ℝ, 0 ≤ v ∧ colVar (F := Ideal) x (ix1 k) = (v : EReal) := by
  obtain ⟨μ, hμ⟩ := colMean_real x hx k
  choose X hX using hx
  refine ⟨(∑ r : Fin 50000, (X (ix2 r k) - μ) * (X (ix2 r k) - μ)) * (1 / 50000), ?_, ?_⟩
  · exact mul_nonneg (Finset.sum_nonneg fun r _ => mul_self_nonneg _) (by norm_num)
  · have hs : (∑ r : Fin 50000, centred (F := Ideal) x (ix2 r k) * centred (F := Ideal) x (ix2 r k))
        = ((∑ r : Fin 50000, (X (ix2 r k) - μ) * (X (ix2 r k) - μ) : ℝ) : EReal) := by
      rw [coe_finset_sum]
      refine Finset.sum_congr rfl fun r _ => ?_
      rw [centred_apply, hμ, hX, ← EReal.coe_sub, ← EReal.coe_mul]
    rw [colVar_apply, hs, ← EReal.coe_mul]

/-- `(var + ε)^(-1/2)` at column `k`. -/
theorem invStd_apply (x : FVec Ideal S50000x128 .f32) (k : Fin 128) :
    invStd (F := Ideal) x (ix1 k) = Ideal.rsqrt (colVar (F := Ideal) x (ix1 k) + Ideal.ofBits .f32 0x3727C5AC#32) := by
  unfold invStd
  show Ideal.rsqrt (colVar (F := Ideal) x (ix1 k)
    + broadcastInDim S128 ![] bcast_S_S128 (constant (F := Ideal) S_ .f32 0x3727C5AC#32) (ix1 k)) = _
  rw [broadcastInDim_apply _ bcast_S_S128 _ (ix1 k) (fun a => a.elim0) (fun a => a.elim0)]
  rfl

/-- For a column of reals `(var + ε)^(-1/2)` is real: the variance is non-negative and `ε` positive. -/
theorem invStd_real (x : FVec Ideal S50000x128 .f32) (hx : IsReal x) (k : Fin 128) :
    ∃ ρ : ℝ, invStd (F := Ideal) x (ix1 k) = (ρ : EReal) := by
  obtain ⟨v, hv0, hv⟩ := colVar_real x hx k
  obtain ⟨e, he0, he⟩ := Consts.ofBits_eps
  rw [invStd_apply, hv, he, ← EReal.coe_add]
  exact rsqrt_isReal_of_pos _ (EReal.coe_pos.mpr (by linarith))

/-- The reference's normalisation at `(p, k)`. -/
theorem batchNorm_apply (x : FVec Ideal S50000x128 .f32) (g b : FVec Ideal S128 .f32) (p : Fin 50000) (k : Fin 128) :
    batchNorm (F := Ideal) x g b (ix2 p k)
      = g (ix1 k) * (x (ix2 p k) - colMean (F := Ideal) x (ix1 k)) * invStd (F := Ideal) x (ix1 k) + b (ix1 k) := by
  unfold batchNorm
  show asRows (F := Ideal) g (ix2 p k) * centred (F := Ideal) x (ix2 p k) * asRows (F := Ideal) (invStd (F := Ideal) x) (ix2 p k)
    + asRows (F := Ideal) b (ix2 p k) = _
  rw [asRows_apply, asRows_apply, asRows_apply, centred_apply]

/-- The folded scale at column `k`. -/
theorem bnScale_apply (x : FVec Ideal S50000x128 .f32) (g : FVec Ideal S128 .f32) (k : Fin 128) :
    bnScale (F := Ideal) x g (ix1 k) = g (ix1 k) * invStd (F := Ideal) x (ix1 k) := rfl

/-- The folded shift at column `k`. -/
theorem bnShift_apply (x : FVec Ideal S50000x128 .f32) (g b : FVec Ideal S128 .f32) (k : Fin 128) :
    bnShift (F := Ideal) x g b (ix1 k)
      = b (ix1 k) - colMean (F := Ideal) x (ix1 k) * (g (ix1 k) * invStd (F := Ideal) x (ix1 k)) := rfl

/-- THE FOLD: with real features, scale parameter and shift parameter, the affine form `x · scale + shift` is the
    normalisation `g · (x − μ) · ρ + b`, entry by entry, and it is a real number. -/
theorem bn_fold (x : FVec Ideal S50000x128 .f32) (g b : FVec Ideal S128 .f32) (hx : IsReal x) (hg : IsReal g) (hb : IsReal b)
    (p : Fin 50000) (k : Fin 128) :
    x (ix2 p k) * bnScale (F := Ideal) x g (ix1 k) + bnShift (F := Ideal) x g b (ix1 k) = batchNorm (F := Ideal) x g b (ix2 p k)
      ∧ ∃ r : ℝ, batchNorm (F := Ideal) x g b (ix2 p k) = (r : EReal) := by
  obtain ⟨μ, hμ⟩ := colMean_real x hx k
  obtain ⟨ρ, hρ⟩ := invStd_real x hx k
  obtain ⟨X, hX⟩ := hx (ix2 p k)
  obtain ⟨G, hG⟩ := hg (ix1 k)
  obtain ⟨B, hB⟩ := hb (ix1 k)
  rw [batchNorm_apply, bnScale_apply, bnShift_apply, hμ, hρ, hX, hG, hB]
  simp only [← EReal.coe_mul, ← EReal.coe_sub, ← EReal.coe_add]
  exact ⟨congrArg _ (by ring), _, rfl⟩

/-- Clamping below at zero, at `(p, k)`. -/
theorem relu_apply (a : FVec Ideal S50000x128 .f32) (p : Fin 50000) (k : Fin 128) :
    relu (F := Ideal) a (ix2 p k) = max (a (ix2 p k)) 0 := by
  unfold relu
  show max (a (ix2 p k)) (broadcastInDim S50000x128 ![] bcast_S_S50000x128 (constant (F := Ideal) S_ .f32 0x00000000#32) (ix2 p k)) = _
  rw [broadcastInDim_apply _ bcast_S_S50000x128 _ (ix2 p k) (fun a => a.elim0) (fun a => a.elim0)]
  exact congrArg (max _) Consts.ofBits_zero

end Cert.GcnSpec

end
-- ==== Proof.MatMath.lean ====
/-
  The two matrix products of the network read at an index, on the extended reals: entry (p, q) of the product with a
  128 × 128 weight is the sum over k of a (p, k) · W (k, q); entry (p, q) of the output projection is that sum with the
  128 × 40 weight plus the bias at q.  A product of arrays all of whose entries are real numbers has only real entries
  (a finite sum of products of reals).
-/
import proofs.«145119_j4501125726314_1_alg».proof.Proof.HostSpec
import proofs.«145119_j4501125726314_1_alg».proof.Proof.Reals
import proofs.«145119_j4501125726314_1_alg».proof.Proof.LibPlainDot
import proofs.«145119_j4501125726314_1_alg».proof.Proof.LibBroadcastInDim2
import proofs.«145119_j4501125726314_1_alg».proof.Proof.LibAggregateLinear

noncomputable section

open scoped BigOperators

namespace Cert.GcnSpec

open Cert.ReferenceIdeal Cert.ReferenceIdeal.Gen Idealize.ShloMosaic Idealize.ShloMosaic.ValueIdx

/-- Entry (p, q) of the product with a 128 × 128 weight. -/
theorem matmul128_apply (a : FVec Ideal S50000x128 .f32) (W : FVec Ideal S128x128 .f32) (p : Fin 50000) (q : Fin 128) :
    matmul128 (F := Ideal) a W (ix2 p q) = ∑ k : Fin 128, a (ix2 p k) * W (ix2 k q) := by
  unfold matmul128
  simp only [Host.dotGeneral]
  exact Cert.Bridge.dotGeneral_plain _ rfl rfl rfl rfl rfl rfl _ _ a W p q

/-- Entry (p, q) of the output projection: the product with the 128 × 40 weight plus the bias at q. -/
theorem project40_apply (a : FVec Ideal S50000x128 .f32) (W : FVec Ideal S128x40 .f32) (bf : FVec Ideal S40 .f32)
    (p : Fin 50000) (q : Fin 40) :
    project40 (F := Ideal) a W bf (ix2 p q) = (∑ k : Fin 128, a (ix2 p k) * W (ix2 k q)) + bf (ix1 q) := by
  unfold project40
  simp only [Host.dotGeneral]
  refine congrArg₂ (fun x y : EReal => x + y) ?_ ?_
  · exact Cert.Bridge.dotGeneral_plain _ rfl rfl rfl rfl rfl rfl _ _ a W p q
  · exact (BroadcastInDim2.rowToMat_apply _ _ p q).trans (BroadcastInDim2.vecToRow_apply bf _ (0 : Fin 1) q)

/-- The product of two arrays of real numbers has only real entries. -/
theorem matmul128_real (a : FVec Ideal S50000x128 .f32) (W : FVec Ideal S128x128 .f32) (ha : IsReal a) (hW : IsReal W) :
    IsReal (matmul128 (F := Ideal) a W) := by
  intro j
  obtain ⟨p, q, rfl⟩ : ∃ (p : Fin 50000) (q : Fin 128), j = ix2 p q := ⟨j 0, j 1, eq_ix2 j⟩
  rw [matmul128_apply]
  exact AggregateLinear.sum_isReal _ _ fun k _ => isReal_mul (ha _) (hW _)

end Cert.GcnSpec

end
-- ==== Proof.LibVecGatherScatter.lean ====
/-
  Gather from a vector and scatter-add into a vector, read at an index.

  `v[idx]` of a vector `v : [N]` at `E` positions lowers to `stablehlo.gather` with no offset axis, collapsed_slice_dims [0],
  start_index_map [0], index_vector_dim 1 and slice sizes [1] over the positions as an `[E, 1]` array: result element `e`
  is `v` at position `idx[e, 0]`, read signed and clamped into `[0, N − 1]` (`gather_vec_apply`).

  `segment_sum(u, idx)` of updates `u : [E]` into `[N]` lowers to `stablehlo.scatter` with an `add` body, no update window
  axis, inserted_window_dims [0], scatter_dims_to_operand_dims [0], index_vector_dim 1: at the extended reals element `n` of
  the result is the operand's plus the sum, over the updates `e` whose position `idx[e, 0]`, read signed and NOT clamped,
  is `n`, of `u e` (`scatterAdd_vec_apply`). A position outside `[0, N)` lands nowhere.

  Both for any sizes `N`, `E` and any index width. Also: a sum over the indices of a rank-1 shape is the sum over its
  coordinate (`sum_idx1`).
-/
import Idealize.ShloMosaic.Lib.ValueIdx
import Idealize.ShloMosaic.PureOps.Ideal.Laws

noncomputable section

open scoped BigOperators

namespace Idealize.ShloMosaic.VecIndexing

open Idealize.ShloMosaic Idealize.ShloMosaic.ValueIdx

/-- A rank-1 index set is its coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The entry `[e, 0]` of an `[E, 1]` array of positions. -/
abbrev posAt {E : Nat} (e : Fin E) : (⟨2, ![E, 1]⟩ : Shape).Idx := ix2 e (⟨0, Nat.one_pos⟩ : Fin 1)

/-! ## The gather of single entries -/

section Gather
variable {α : Type}

/-- The dimension numbers of a gather of single entries of an `[N]` operand at `[E, 1]` positions. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at position `idx[e, 0]`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (posAt e)).toInt.toNat (N - 1), by omega⟩ : Fin N)) := by
  unfold Host.gather
  refine congrArg x ?_
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = posAt e := by
      funext b; refine Fin.ext ?_
      match b with
      | ⟨0, _⟩ => rfl
      | ⟨1, _⟩ => rfl
    rw [hsi]
    rfl

end Gather

/-! ## The scatter-add of single entries -/

section Scatter

/-- The dimension numbers of a scatter of `[E]` updates into an `[N]` operand at `[E, 1]` positions. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The window of update `e` starts at the position `idx[e, 0]`, read signed. -/
theorem vecScatter_start0 : (vecScatterDims N E wf).start (ix1 e) idx 0 = (idx (posAt e)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = posAt e := by
    funext b; refine Fin.ext ?_
    match b with
    | ⟨0, _⟩ => rfl
    | ⟨1, _⟩ => rfl
  rw [hsi]

/-- The one axis is inserted: the window coordinate there is `0`. -/
theorem vecScatter_window0 : (vecScatterDims N E wf).window (ix1 e) 0 = 0 := by
  unfold ScatterDims.window
  rw [dif_neg]
  intro h
  have : (0 : Fin 1) ∈ (List.finRange 1).filter (fun a => a ∉ [(0 : Fin 1)]) := h
  simp at this

/-- Update `e` lands at `n` exactly when its position, read signed, is `n`. -/
theorem vecScatter_resultIdx_eq_some_iff (n : Fin N) :
    (vecScatterDims N E wf).resultIdx? (ix1 e) idx = some (ix1 n) ↔ (idx (posAt e)).toInt = (n.val : Int) := by
  have hs0 := vecScatter_start0 wf idx e
  have hw0 := vecScatter_window0 wf e
  have hn : n.val < N := n.isLt
  unfold ScatterDims.resultIdx?
  split
  · rename_i h
    rw [Option.some.injEq]
    constructor
    · intro heq
      have e0 := congrArg Fin.val (congrFun heq 0)
      have h0 := (h 0).1
      simp only [hs0, hw0] at e0 h0
      have e0' : ((idx (posAt e)).toInt + ((0 : Nat) : Int)).toNat = n.val := e0
      omega
    · intro h0
      funext a
      refine Fin.ext ?_
      match a with
      | ⟨0, _⟩ =>
        show ((vecScatterDims N E wf).start (ix1 e) idx 0 + ((vecScatterDims N E wf).window (ix1 e) 0 : Nat)).toNat = n.val
        rw [hs0, hw0, h0]; omega
  · rename_i h
    constructor
    · intro heq; exact absurd heq (by simp)
    · intro h0
      exfalso
      apply h
      intro a
      match a with
      | ⟨0, _⟩ =>
        show 0 ≤ (vecScatterDims N E wf).start (ix1 e) idx 0 + ((vecScatterDims N E wf).window (ix1 e) 0 : Nat)
          ∧ (vecScatterDims N E wf).start (ix1 e) idx 0 + ((vecScatterDims N E wf).window (ix1 e) 0 : Nat) < (N : Int)
        rw [hs0, hw0, h0]; omega

/-- THE VECTOR SCATTER-ADD READ AT `n`, on the extended reals: the operand there plus the sum over the updates whose position,
    read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e : Fin E, if (idx (posAt e)).toInt = (n.val : Int) then upd (ix1 e) else 0 := by
  show x (ix1 n) + ∑ j ∈ Finset.univ.filter (fun j => (vecScatterDims N E wf).resultIdx? j idx = some (ix1 n)), upd j = _
  refine congrArg (x (ix1 n) + ·) ?_
  rw [Finset.sum_filter, sum_idx1]
  refine Finset.sum_congr rfl fun e _ => ?_
  simp only [vecScatter_resultIdx_eq_some_iff]

end Scatter

end Idealize.ShloMosaic.VecIndexing

end
-- ==== Proof.AggRealVec.lean ====
/-
  The degree part of the graph aggregation is real-valued, on the extended reals.

  The degree of a node is one plus the number of edges whose wrapped target is that node: a scatter-add of ones into ones.
  Read at a node it is `1 + ∑ e, if (the position of e is the node) then 1 else 0`, a positive extended real, so its
  reciprocal square root is a real number.  A gather of single entries reads one entry of its operand, so it keeps
  real-valuedness; so do the pointwise products.  Hence the self-loop weights and the edge weights are real.
-/
import proofs.«145119_j4501125726314_1_alg».proof.Proof.HostSpec
import proofs.«145119_j4501125726314_1_alg».proof.Proof.Reals
import proofs.«145119_j4501125726314_1_alg».proof.Proof.LibVecGatherScatter
import proofs.«145119_j4501125726314_1_alg».proof.Proof.LibAggregateLinear

noncomputable section

open scoped BigOperators

namespace Cert.GcnSpec

open Cert.ReferenceIdeal Cert.ReferenceIdeal.Gen Idealize.ShloMosaic Idealize.ShloMosaic.TcCoe
open Idealize.ShloMosaic.ValueIdx Idealize.ShloMosaic.VecIndexing Idealize.ShloMosaic.AggregateLinear

/-- The f32 pattern `0x3F800000` is the real number one. -/
theorem ofBits_one_f32 : Ideal.ofBits .f32 0x3F800000#32 = 1 := by
  simp [Ideal.ofBits, Ideal.ieee, -EReal.coe_mul]; norm_num

/-- A positive number plus a sum of selected non-negative numbers is positive. -/
theorem pos_add_sum_ite_pos {ι : Type} [Fintype ι] (a : EReal) (u : ι → EReal) (p : ι → Prop) [DecidablePred p]
    (ha : 0 < a) (hu : ∀ e, 0 ≤ u e) : 0 < a + ∑ e, if p e then u e else 0 := by
  refine add_pos_of_pos_of_nonneg ha (Finset.sum_nonneg fun e _ => ?_)
  by_cases h : p e
  · rw [if_pos h]; exact hu e
  · rw [if_neg h]

/-- A scatter-add of non-negative updates into a positive vector is positive everywhere. -/
theorem scatterAdd_vec_pos {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ)
    (hx : ∀ n : Fin N, 0 < x (ix1 n)) (hu : ∀ e : Fin E, 0 ≤ upd (ix1 e)) (n : Fin N) :
    0 < Host.scatterAdd (vecScatterDims N E wf) x idx upd (ix1 n) := by
  rw [scatterAdd_vec_apply wf idx x upd n]
  exact pos_add_sum_ite_pos _ _ _ (hx n) hu

/-- The printed record of the degree's scatter is the vector scatter's. -/
theorem scatterVec_eq : scatter_S50000_S600000x1_S600000_n_0_0_1
    = vecScatterDims 50000 600000 scatter_S50000_S600000x1_S600000_n_0_0_1_wf := rfl

/-- The printed record of the node gather is the vector gather's. -/
theorem gatherVec_eq : gather_S50000_S600000x1_S600000_n_0_n_n_0_1_1
    = vecGatherDims 50000 600000 gather_S50000_S600000x1_S600000_n_0_n_n_0_1_1_wf := rfl

/-- The degree, one plus the number of edges into the node, is positive. -/
theorem degree_pos (dst : IVec S600000 32) (n : Fin 50000) :
    0 < Host.scatterAdd scatter_S50000_S600000x1_S600000_n_0_0_1
      (broadcastInDim S50000 ![] bcast_S_S50000 (constant (F := Ideal) S_ .f32 0x3F800000#32))
      (broadcastInDim S600000x1 ![0] bcast_S600000_S600000x1_0 (wrapIndex dst))
      (broadcastInDim S600000 ![] bcast_S_S600000 (constant (F := Ideal) S_ .f32 0x3F800000#32)) (ix1 n) := by
  rw [scatterVec_eq]
  refine scatterAdd_vec_pos scatter_S50000_S600000x1_S600000_n_0_0_1_wf _ _ _ (fun m => ?_) (fun e => ?_) n
  · show (0 : EReal) < Ideal.ofBits .f32 0x3F800000#32
    rw [ofBits_one_f32]; exact zero_lt_one
  · show (0 : EReal) ≤ Ideal.ofBits .f32 0x3F800000#32
    rw [ofBits_one_f32]; exact zero_le_one

/-- The host's reciprocal square root of an array is real wherever the array is positive. -/
theorem hostRsqrt_real_of_pos {s : Shape} {φ : FTy} (x : FVec Ideal s φ) (i : s.Idx) (h : 0 < x i) :
    ∃ r : ℝ, Host.rsqrt x i = r :=
  rsqrt_isReal_of_pos _ h

/-- `deg^(-1/2)` is real: the reciprocal square root of a positive extended real. -/
theorem invSqrtDeg_real (dst : IVec S600000 32) : IsReal (invSqrtDeg (F := Ideal) dst) := by
  intro i
  obtain ⟨n, rfl⟩ : ∃ n : Fin 50000, i = ix1 n := ⟨i 0, eq_ix1 i⟩
  exact hostRsqrt_real_of_pos _ _ (degree_pos dst n)

/-- A real node vector read at each edge's node number is real: each entry is one entry of the node vector. -/
theorem atNodes_real (v : FVec Ideal S50000 .f32) (idx : IVec S600000 32) (hv : IsReal v) : IsReal (atNodes v idx) := by
  intro i
  obtain ⟨e, rfl⟩ : ∃ e : Fin 600000, i = ix1 e := ⟨i 0, eq_ix1 i⟩
  unfold atNodes
  rw [gatherVec_eq, gather_vec_apply (by norm_num) _ v _ e]
  exact hv _

/-- The self-loop weights are real. -/
theorem selfNorm_real (dst : IVec S600000 32) : IsReal (selfNorm (F := Ideal) dst) := by
  intro i
  unfold selfNorm
  rw [mulf_apply]
  exact isReal_mul (invSqrtDeg_real dst i) (invSqrtDeg_real dst i)

/-- The edge weights are real. -/
theorem edgeNorm_real (src dst : IVec S600000 32) : IsReal (edgeNorm (F := Ideal) src dst) := by
  intro i
  unfold edgeNorm
  rw [mulf_apply]
  exact isReal_mul (atNodes_real _ src (invSqrtDeg_real dst) i) (atNodes_real _ dst (invSqrtDeg_real dst) i)

end Cert.GcnSpec

end
-- ==== Proof.LibRowGatherScatter.lean ====
/-
  Row gather and row scatter-add, read at an index.

  `x[idx]` of a matrix `x : [N, C]` at a vector of `E` row numbers lowers to `stablehlo.gather` with offset_dims [1],
  collapsed_slice_dims [0], start_index_map [0], index_vector_dim 1 and slice sizes [1, C] over the row numbers as an
  `[E, 1]` array: result element `(e, k)` is `x` at row `idx[e, 0]` — read signed and clamped into `[0, N − 1]` — and
  column `k` (`gather_rows_apply`).

  `segment_sum(u, idx)` of updates `u : [E, C]` into `[N, C]` lowers to `stablehlo.scatter` with an `add` body,
  update_window_dims [1], inserted_window_dims [0], scatter_dims_to_operand_dims [0], index_vector_dim 1: at the extended
  reals element `(n, c)` of the result is the operand's plus the sum, over the rows `e` whose row number `idx[e, 0]`, read
  signed and NOT clamped, is `n`, of `u (e, c)` (`scatterAdd_rows_apply`). A row number outside `[0, N)` lands nowhere.

  Both for any sizes `N`, `E`, `C` and any index width.
-/
import Idealize.ShloMosaic.Lib.ValueIdx
import Idealize.ShloMosaic.PureOps.Ideal.Laws

noncomputable section

open scoped BigOperators

namespace Idealize.ShloMosaic.RowIndexing

open Idealize.ShloMosaic Idealize.ShloMosaic.ValueIdx

/-- The entry `[e, 0]` of an `[E, 1]` array of row numbers. -/
abbrev rowAt {E : Nat} (e : Fin E) : (⟨2, ![E, 1]⟩ : Shape).Idx := ix2 e (⟨0, Nat.one_pos⟩ : Fin 1)

/-! ## The gather of whole rows -/

section Gather
variable {α : Type}

/-- The dimension numbers of a gather of whole rows of an `[N, C]` operand at `[E, 1]` row numbers. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]`, read signed and clamped into `[0, N − 1]`, column `k`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (rowAt e)).toInt.toNat (N - 1), by omega⟩ : Fin N) k) := by
  unfold Host.gather
  refine congrArg x ?_
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = rowAt e := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = _
    rw [GatherDims.batchCoord_eq_zero _ _ _ List.not_mem_nil]
    have hs : (rowGatherDims N E C wf).start (ix2 e k) idx 1 = 0 := by
      unfold GatherDims.start
      rw [dif_neg (show ¬ (1 : Fin 2) ∈ (rowGatherDims N E C wf).startIndexMap from
        fun h => absurd (List.mem_singleton.mp h) (show ¬ ((1 : Fin 2) = 0) by decide))]
    have ho : (rowGatherDims N E C wf).offCoord (ix2 e k) 1 = k.val := by
      unfold GatherDims.offCoord
      rw [dif_pos (show (1 : Fin 2) ∈ (rowGatherDims N E C wf).sKept from (GatherDims.mem_sKept _ _).mpr
        ⟨fun h => absurd (List.mem_singleton.mp h) (show ¬ ((1 : Fin 2) = 0) by decide), List.not_mem_nil⟩)]
      rfl
    rw [hs, ho, Nat.add_zero, Nat.zero_add]

end Gather

/-! ## The scatter-add of whole rows -/

section Scatter

/-- The dimension numbers of a scatter of `[E, C]` update rows into an `[N, C]` operand at `[E, 1]` row numbers. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the window of update `(e, k)` starts at the row number `idx[e, 0]`, read signed. -/
theorem rowScatter_start0 : (rowScatterDims N E C wf).start (ix2 e k) idx 0 = (idx (rowAt e)).toInt := by
  unfold ScatterDims.start
  rw [dif_pos (show (0 : Fin 2) ∈ (rowScatterDims N E C wf).scatterDimsToOperandDims from List.mem_singleton.mpr rfl)]
  have hsi : (rowScatterDims N E C wf).siIdx (ix2 e k) ⟨List.idxOf (0 : Fin 2) (rowScatterDims N E C wf).scatterDimsToOperandDims,
      List.idxOf_lt_length_iff.2 (List.mem_singleton.mpr rfl)⟩ = rowAt e := by
    funext b; refine Fin.ext ?_
    match b with
    | ⟨0, _⟩ => rfl
    | ⟨1, _⟩ => rfl
  rw [hsi]

/-- On the column axis it starts at `0`. -/
theorem rowScatter_start1 : (rowScatterDims N E C wf).start (ix2 e k) idx 1 = 0 := by
  unfold ScatterDims.start
  rw [dif_neg (show ¬ (1 : Fin 2) ∈ (rowScatterDims N E C wf).scatterDimsToOperandDims from
    fun h => absurd (List.mem_singleton.mp h) (show ¬ ((1 : Fin 2) = 0) by decide))]

/-- The row axis is inserted: the window coordinate there is `0`. -/
theorem rowScatter_window0 : (rowScatterDims N E C wf).window (ix2 e k) 0 = 0 := by
  unfold ScatterDims.window
  rw [dif_neg]
  intro h
  have : (0 : Fin 2) ∈ (List.finRange 2).filter (fun a => a ∉ [(0 : Fin 2)]) := h
  simp at this

/-- On the column axis the window coordinate is the update's column. -/
theorem rowScatter_window1 : (rowScatterDims N E C wf).window (ix2 e k) 1 = k.val := by
  unfold ScatterDims.window
  rw [dif_pos]
  · rfl
  · show (1 : Fin 2) ∈ (List.finRange 2).filter (fun a => a ∉ [(0 : Fin 2)])
    simp

/-- Update `(e, k)` lands at `(n, c)` exactly when its row number, read signed, is `n` and `k = c`. -/
theorem rowScatter_resultIdx_eq_some_iff (n : Fin N) (c : Fin C) :
    (rowScatterDims N E C wf).resultIdx? (ix2 e k) idx = some (ix2 n c)
      ↔ (idx (rowAt e)).toInt = (n.val : Int) ∧ k = c := by
  have hs0 := rowScatter_start0 wf idx e k
  have hs1 := rowScatter_start1 wf idx e k
  have hw0 := rowScatter_window0 wf e k
  have hw1 := rowScatter_window1 wf e k
  have hn : n.val < N := n.isLt
  have hk : k.val < C := k.isLt
  unfold ScatterDims.resultIdx?
  split
  · rename_i h
    rw [Option.some.injEq]
    constructor
    · intro heq
      have e0 := congrArg Fin.val (congrFun heq 0)
      have e1 := congrArg Fin.val (congrFun heq 1)
      have h0 := (h 0).1
      simp only [hs0, hw0, hs1, hw1] at e0 e1 h0
      have e0' : ((idx (rowAt e)).toInt + ((0 : Nat) : Int)).toNat = n.val := e0
      have e1' : ((0 : Int) + (k.val : Int)).toNat = c.val := e1
      refine ⟨by omega, Fin.ext (by omega)⟩
    · rintro ⟨h0, rfl⟩
      funext a
      refine Fin.ext ?_
      match a with
      | ⟨0, _⟩ =>
        show ((rowScatterDims N E C wf).start (ix2 e k) idx 0 + ((rowScatterDims N E C wf).window (ix2 e k) 0 : Nat)).toNat = n.val
        rw [hs0, hw0, h0]; omega
      | ⟨1, _⟩ =>
        show ((rowScatterDims N E C wf).start (ix2 e k) idx 1 + ((rowScatterDims N E C wf).window (ix2 e k) 1 : Nat)).toNat = k.val
        rw [hs1, hw1]; omega
  · rename_i h
    constructor
    · intro heq; exact absurd heq (by simp)
    · rintro ⟨h0, rfl⟩
      exfalso
      apply h
      intro a
      match a with
      | ⟨0, _⟩ =>
        show 0 ≤ (rowScatterDims N E C wf).start (ix2 e k) idx 0 + ((rowScatterDims N E C wf).window (ix2 e k) 0 : Nat)
          ∧ (rowScatterDims N E C wf).start (ix2 e k) idx 0 + ((rowScatterDims N E C wf).window (ix2 e k) 0 : Nat) < (N : Int)
        rw [hs0, hw0, h0]; omega
      | ⟨1, _⟩ =>
        show 0 ≤ (rowScatterDims N E C wf).start (ix2 e k) idx 1 + ((rowScatterDims N E C wf).window (ix2 e k) 1 : Nat)
          ∧ (rowScatterDims N E C wf).start (ix2 e k) idx 1 + ((rowScatterDims N E C wf).window (ix2 e k) 1 : Nat) < (C : Int)
        rw [hs1, hw1]; omega

/-- THE ROW SCATTER-ADD READ AT `(n, c)`, on the extended reals: the operand there plus the sum over the update rows whose row
    number, read signed, is `n`, of the update at column `c`. -/
theorem scatterAdd_rows_apply {φ : FTy} (x : FVec Ideal ⟨2, ![N, C]⟩ φ) (upd : FVec Ideal ⟨2, ![E, C]⟩ φ) (n : Fin N) (c : Fin C) :
    Host.scatterAdd (rowScatterDims N E C wf) x idx upd (ix2 n c)
      = x (ix2 n c) + ∑ e : Fin E, if (idx (rowAt e)).toInt = (n.val : Int) then upd (ix2 e c) else 0 := by
  show x (ix2 n c) + ∑ j ∈ Finset.univ.filter (fun j => (rowScatterDims N E C wf).resultIdx? j idx = some (ix2 n c)), upd j = _
  refine congrArg (x (ix2 n c) + ·) ?_
  rw [Finset.sum_filter, sum_idx2]
  refine Finset.sum_congr rfl fun e _ => ?_
  simp only [rowScatter_resultIdx_eq_some_iff]
  by_cases h : (idx (rowAt e)).toInt = (n.val : Int)
  · simp only [h, true_and, if_true]
    rw [Finset.sum_ite_eq' Finset.univ c (fun k => upd (ix2 e k))]
    simp
  · simp [h]

end Scatter

end Idealize.ShloMosaic.RowIndexing

end
-- ==== Proof.AggRealRows.lean ====
/-
  The graph aggregation of real-valued operands is real-valued, on the extended reals.

  Read at `(n, c)`, the aggregate is
      (0 + ∑ e, if (the row number of e is n) then h[row of e, c] · nrm e else 0) + h[n, c] · sn n + bias c :
  the scatter-add of the messages into zeros is a finite sum of products of reals, a row gather reads one entry of its
  operand, and each broadcast reads one entry of its operand.  Sums and products of reals are real.
-/
import proofs.«145119_j4501125726314_1_alg».proof.Proof.HostSpec
import proofs.«145119_j4501125726314_1_alg».proof.Proof.Reals
import proofs.«145119_j4501125726314_1_alg».proof.Proof.LibRowGatherScatter
import proofs.«145119_j4501125726314_1_alg».proof.Proof.LibBroadcastInDim2
import proofs.«145119_j4501125726314_1_alg».proof.Proof.LibAggregateLinear

noncomputable section

open scoped BigOperators

namespace Cert.GcnSpec

open Cert.ReferenceIdeal Cert.ReferenceIdeal.Gen Idealize.ShloMosaic Idealize.ShloMosaic.TcCoe
open Idealize.ShloMosaic.ValueIdx Idealize.ShloMosaic.RowIndexing Idealize.ShloMosaic.BroadcastInDim2
open Idealize.ShloMosaic.AggregateLinear

/-! ## Each broadcast reads one entry of its operand -/

theorem vecToCol_real {a : Nat} (v : (⟨1, ![a]⟩ : Shape).Idx → EReal)
    (h : (⟨1, ![a]⟩ : Shape).BroadcastsInDim ⟨2, ![a, 1]⟩ (![0] : Fin 1 → Fin 2)) (hv : IsReal v) :
    IsReal (broadcastInDim (⟨2, ![a, 1]⟩ : Shape) (![0] : Fin 1 → Fin 2) h v) := by
  intro i
  obtain ⟨p, z, rfl⟩ : ∃ (p : Fin a) (z : Fin 1), i = ix2 p z := ⟨i 0, i 1, eq_ix2 i⟩
  rw [vecToCol_apply]; exact hv _

theorem vecToRow_real {b : Nat} (v : (⟨1, ![b]⟩ : Shape).Idx → EReal)
    (h : (⟨1, ![b]⟩ : Shape).BroadcastsInDim ⟨2, ![1, b]⟩ (![1] : Fin 1 → Fin 2)) (hv : IsReal v) :
    IsReal (broadcastInDim (⟨2, ![1, b]⟩ : Shape) (![1] : Fin 1 → Fin 2) h v) := by
  intro i
  obtain ⟨z, q, rfl⟩ : ∃ (z : Fin 1) (q : Fin b), i = ix2 z q := ⟨i 0, i 1, eq_ix2 i⟩
  rw [vecToRow_apply]; exact hv _

theorem colToMat_real {a b : Nat} (v : (⟨2, ![a, 1]⟩ : Shape).Idx → EReal)
    (h : (⟨2, ![a, 1]⟩ : Shape).BroadcastsInDim ⟨2, ![a, b]⟩ (![0, 1] : Fin 2 → Fin 2)) (hv : IsReal v) :
    IsReal (broadcastInDim (⟨2, ![a, b]⟩ : Shape) (![0, 1] : Fin 2 → Fin 2) h v) := by
  intro i
  obtain ⟨p, q, rfl⟩ : ∃ (p : Fin a) (q : Fin b), i = ix2 p q := ⟨i 0, i 1, eq_ix2 i⟩
  rw [colToMat_apply]; exact hv _

theorem rowToMat_real {a b : Nat} (v : (⟨2, ![1, b]⟩ : Shape).Idx → EReal)
    (h : (⟨2, ![1, b]⟩ : Shape).BroadcastsInDim ⟨2, ![a, b]⟩ (![0, 1] : Fin 2 → Fin 2)) (hv : IsReal v) :
    IsReal (broadcastInDim (⟨2, ![a, b]⟩ : Shape) (![0, 1] : Fin 2 → Fin 2) h v) := by
  intro i
  obtain ⟨p, q, rfl⟩ : ∃ (p : Fin a) (q : Fin b), i = ix2 p q := ⟨i 0, i 1, eq_ix2 i⟩
  rw [rowToMat_apply]; exact hv _

/-- A row of reals repeated down the rows is real. -/
theorem asRows_real (v : FVec Ideal S128 .f32) (hv : IsReal v) : IsReal (asRows v) :=
  rowToMat_real _ _ (vecToRow_real _ _ hv)

/-! ## The pointwise operations -/

theorem mulf_real {s : Shape} {φ : FTy} (a b : FVec Ideal s φ) (ha : IsReal a) (hb : IsReal b) : IsReal (mulf a b) :=
  fun i => isReal_mul (ha i) (hb i)

theorem addf_real {s : Shape} {φ : FTy} (a b : FVec Ideal s φ) (ha : IsReal a) (hb : IsReal b) : IsReal (addf a b) :=
  fun i => isReal_add (ha i) (hb i)

/-! ## The row gather and the row scatter-add -/

/-- A row gather of a real matrix is real: each entry is one entry of the matrix. -/
theorem gather_rows_real {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → EReal) (idx : IVec ⟨2, ![E, 1]⟩ w) (hx : IsReal x) :
    IsReal (Host.gather (rowGatherDims N E C wf) x idx) := by
  intro i
  obtain ⟨e, k, rfl⟩ : ∃ (e : Fin E) (k : Fin C), i = ix2 e k := ⟨i 0, i 1, eq_ix2 i⟩
  rw [gather_rows_apply hN wf x idx e k]; exact hx _

/-- A row scatter-add of real updates into a real matrix is real: each entry is the operand's plus a finite sum of updates. -/
theorem scatterAdd_rows_real {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (hx : IsReal x) (hu : IsReal upd) : IsReal (Host.scatterAdd (rowScatterDims N E C wf) x idx upd) := by
  intro i
  obtain ⟨n, c, rfl⟩ : ∃ (n : Fin N) (c : Fin C), i = ix2 n c := ⟨i 0, i 1, eq_ix2 i⟩
  rw [scatterAdd_rows_apply wf idx x upd n c]
  refine isReal_add (hx _) (sum_isReal _ _ fun e _ => ?_)
  by_cases h : (idx (rowAt e)).toInt = (n.val : Int)
  · rw [if_pos h]; exact hu _
  · rw [if_neg h]; exact isReal_zero

/-- The printed record of the message gather is the row gather's. -/
theorem gatherRows_eq : gather_S50000x128_S600000x1_S600000x128_1_0_n_n_0_1_1128
    = rowGatherDims 50000 600000 128 gather_S50000x128_S600000x1_S600000x128_1_0_n_n_0_1_1128_wf := rfl

/-- The printed record of the message scatter is the row scatter's. -/
theorem scatterRows_eq : scatter_S50000x128_S600000x1_S600000x128_1_0_0_1
    = rowScatterDims 50000 600000 128 scatter_S50000x128_S600000x1_S600000x128_1_0_0_1_wf := rfl

/-- The zero matrix is real. -/
theorem zeros_real : IsReal (broadcastInDim S50000x128 ![] bcast_S_S50000x128 (constant (F := Ideal) S_ .f32 0x00000000#32)) := by
  intro i
  show ∃ r : ℝ, Ideal.ofBits .f32 0x00000000#32 = r
  rw [Ideal.ofBits_zero_f32]; exact isReal_zero

/-- The aggregation of real operands is real. -/
theorem aggregate_real (h : FVec Ideal S50000x128 .f32) (nrm : FVec Ideal S600000 .f32) (sn : FVec Ideal S50000 .f32)
    (src dst : IVec S600000 32) (bias : FVec Ideal S128 .f32)
    (hh : IsReal h) (hn : IsReal nrm) (hs : IsReal sn) (hb : IsReal bias) :
    IsReal (aggregate (F := Ideal) h nrm sn src dst bias) := by
  unfold aggregate
  rw [gatherRows_eq, scatterRows_eq]
  refine addf_real _ _ (addf_real _ _ (scatterAdd_rows_real _ _ _ _ zeros_real (mulf_real _ _ ?_ ?_)) (mulf_real _ _ hh ?_))
    (asRows_real _ hb)
  · exact gather_rows_real (by norm_num) _ h _ hh
  · exact colToMat_real _ _ (vecToCol_real _ _ hn)
  · exact colToMat_real _ _ (vecToCol_real _ _ hs)

end Cert.GcnSpec

end
-- ==== Proof.AggReal.lean ====
/-
  Real-valuedness of the graph aggregation on the extended reals: the self-loop weights, the edge weights and the
  aggregate of real operands (`selfNorm_real`, `edgeNorm_real`, `aggregate_real`), collected from the degree part and
  the row part.
-/
import proofs.«145119_j4501125726314_1_alg».proof.Proof.AggRealVec
import proofs.«145119_j4501125726314_1_alg».proof.Proof.AggRealRows
-- ==== Proof.LibReshapeVec.lean ====
/-
  A vector reshaped to a one-column or a one-row matrix is the vector broadcast in dimension 0, respectively 1, for
  any length: `reshape [a] → [a, 1]` against `broadcast_in_dim dims = [0]`, and `reshape [b] → [1, b]` against
  `broadcast_in_dim dims = [1]`.  Entry (p, 0) of either column is entry p of the vector, entry (0, q) of either row
  is entry q: the reshape by the row-major position (p·1 + 0 = p, 0·b + q = q), the broadcast by its index map.
-/
import Idealize.ShloMosaic.Lib.ValueIdx
import Idealize.ShloMosaic.Lib.Pipeline.Value
import proofs.«145119_j4501125726314_1_alg».proof.Proof.LibBroadcastInDim2

namespace Idealize.ShloMosaic.ReshapeVec

open Idealize.ShloMosaic Idealize.ShloMosaic.ValueIdx

variable {α : Type}

/-- A vector reshaped to a column is the vector broadcast along dimension 0 of the column. -/
theorem reshapeCol_eq_broadcastInDim {a : Nat} (v : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast (⟨2, ![a, 1]⟩ : Shape) v h = broadcastInDim (⟨2, ![a, 1]⟩ : Shape) (![0] : Fin 1 → Fin 2) h' v := by
  funext i
  obtain ⟨p, z, rfl⟩ : ∃ (p : Fin a) (z : Fin 1), i = ix2 p z := ⟨i 0, i 1, eq_ix2 i⟩
  rw [BroadcastInDim2.vecToCol_apply]
  obtain rfl : z = 0 := Fin.ext (by have := z.isLt; omega)
  exact shapeCast_apply v h (ix2 p (0 : Fin 1)) (ix1 p) (by
    rw [Shape.rowMajor_val_two, Shape.rowMajor_val_one]; show p.val = p.val * 1 + 0; omega)

/-- A vector reshaped to a row is the vector broadcast along dimension 1 of the row. -/
theorem reshapeRow_eq_broadcastInDim {b : Nat} (v : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin 2)) :
    shapeCast (⟨2, ![1, b]⟩ : Shape) v h = broadcastInDim (⟨2, ![1, b]⟩ : Shape) (![1] : Fin 1 → Fin 2) h' v := by
  funext i
  obtain ⟨z, q, rfl⟩ : ∃ (z : Fin 1) (q : Fin b), i = ix2 z q := ⟨i 0, i 1, eq_ix2 i⟩
  rw [BroadcastInDim2.vecToRow_apply]
  obtain rfl : z = 0 := Fin.ext (by have := z.isLt; omega)
  exact shapeCast_apply v h (ix2 (0 : Fin 1) q) (ix1 q) (by
    rw [Shape.rowMajor_val_two, Shape.rowMajor_val_one]; show q.val = 0 * b + q.val; omega)

end Idealize.ShloMosaic.ReshapeVec
-- ==== Proof.LayerMath.lean ====
/-
  Each fused block against its stage of the reference, entry by entry.

  A fused block computes `(x · scale + shift) W` (the later two clamp at zero first and add a bias) with the folded scale
  `g · ρ` and shift `b − μ · g · ρ` of the block's own input; the reference computes `batchNorm x g b` first and multiplies
  by `W` afterwards. With real `x`, `g`, `b` the two left factors agree entry by entry (the fold), so the two inner
  products are the same sum. Real inputs give real outputs at every stage, which carries the argument to the next layer.
-/
import proofs.«145119_j4501125726314_1_alg».proof.Proof.BnMath
import proofs.«145119_j4501125726314_1_alg».proof.Proof.MatMath
import proofs.«145119_j4501125726314_1_alg».proof.Proof.AggReal
import proofs.«145119_j4501125726314_1_alg».proof.Proof.RegionSpec
import proofs.«145119_j4501125726314_1_alg».proof.Proof.LibReshapeVec

noncomputable section

open scoped BigOperators

namespace Cert.GcnSpec

open Cert.ReferenceIdeal Cert.ReferenceIdeal.Gen Idealize.ShloMosaic Idealize.ShloMosaic.TcCoe Idealize.ShloMosaic.ValueIdx
open Idealize.ShloMosaic.BroadcastInDim2

/-- A vector laid out as a row, read at `(0, k)`. -/
theorem asRow_apply (v : FVec Ideal S128 .f32) (k : Fin 128) : asRow (F := Ideal) v (ix2 (0 : Fin 1) k) = v (ix1 k) := by
  unfold asRow
  rw [ReshapeVec.reshapeRow_eq_broadcastInDim v _ bcast_S128_S1x128_1]
  exact vecToRow_apply v bcast_S128_S1x128_1 0 k

/-- A vector of 40 laid out as a row, read at `(0, q)`. -/
theorem asRow40_apply (v : FVec Ideal S40 .f32) (q : Fin 40) : asRow40 (F := Ideal) v (ix2 (0 : Fin 1) q) = v (ix1 q) := by
  unfold asRow40
  rw [ReshapeVec.reshapeRow_eq_broadcastInDim v _ bcast_S40_S1x40_1]
  exact vecToRow_apply v bcast_S40_S1x40_1 0 q

/-- The zero row is zero everywhere. -/
theorem zeroRow_apply (i : S128.Idx) : zeroRow (F := Ideal) i = 0 := by
  unfold zeroRow
  exact (broadcastInDim_apply _ bcast_S_S128 _ i (fun a => a.elim0) (fun a => a.elim0)).trans Consts.ofBits_zero

/-- The normalisation of real features with real parameters is real. -/
theorem batchNorm_real (x : FVec Ideal S50000x128 .f32) (g b : FVec Ideal S128 .f32) (hx : IsReal x) (hg : IsReal g) (hb : IsReal b) :
    IsReal (batchNorm (F := Ideal) x g b) := fun i => by
  obtain ⟨p, k, rfl⟩ : ∃ (p : Fin 50000) (k : Fin 128), i = ix2 p k := ⟨i 0, i 1, eq_ix2 i⟩
  exact (bn_fold x g b hx hg hb p k).2

/-- Clamping real numbers at zero leaves real numbers. -/
theorem relu_real (a : FVec Ideal S50000x128 .f32) (ha : IsReal a) : IsReal (relu (F := Ideal) a) := fun i => by
  obtain ⟨p, k, rfl⟩ : ∃ (p : Fin 50000) (k : Fin 128), i = ix2 p k := ⟨i 0, i 1, eq_ix2 i⟩
  rw [relu_apply]
  exact isReal_max (ha _) isReal_zero

/-- THE FIRST BLOCK: the affine form times `W` is the normalisation times `W`. -/
theorem fused_layer0 (x : FVec Ideal S50000x128 .f32) (g b : FVec Ideal S128 .f32) (W : FVec Ideal S128x128 .f32)
    (hx : IsReal x) (hg : IsReal g) (hb : IsReal b) (p : Fin 50000) (q : Fin 128) :
    affineMatmul x (asRow (F := Ideal) (bnScale (F := Ideal) x g)) (asRow (F := Ideal) (bnShift (F := Ideal) x g b)) W p q
      = matmul128 (F := Ideal) (batchNorm (F := Ideal) x g b) W (ix2 p q) := by
  rw [matmul128_apply]
  unfold affineMatmul
  refine Finset.sum_congr rfl fun k _ => ?_
  rw [asRow_apply, asRow_apply, (bn_fold x g b hx hg hb p k).1]

/-- THE SECOND BLOCK: clamped affine form times `W`, plus a zero bias, is the clamped normalisation times `W`. -/
theorem fused_layer1 (a : FVec Ideal S50000x128 .f32) (g b : FVec Ideal S128 .f32) (W : FVec Ideal S128x128 .f32)
    (ha : IsReal a) (hg : IsReal g) (hb : IsReal b) (p : Fin 50000) (q : Fin 128) :
    affineReluMatmul a (asRow (F := Ideal) (bnScale (F := Ideal) a g)) (asRow (F := Ideal) (bnShift (F := Ideal) a g b)) W
        (asRow (F := Ideal) (zeroRow (F := Ideal))) p q
      = matmul128 (F := Ideal) (relu (F := Ideal) (batchNorm (F := Ideal) a g b)) W (ix2 p q) := by
  rw [matmul128_apply]
  unfold affineReluMatmul
  rw [asRow_apply, zeroRow_apply, add_zero]
  refine Finset.sum_congr rfl fun k _ => ?_
  rw [asRow_apply, asRow_apply, (bn_fold a g b ha hg hb p k).1, relu_apply]

/-- THE THIRD BLOCK: clamped affine form times the output weight, plus the output bias, is the reference's output. -/
theorem fused_output (a : FVec Ideal S50000x128 .f32) (g b : FVec Ideal S128 .f32) (Wf : FVec Ideal S128x40 .f32)
    (bf : FVec Ideal S40 .f32) (ha : IsReal a) (hg : IsReal g) (hb : IsReal b) (p : Fin 50000) (q : Fin 40) :
    affineReluMatmul a (asRow (F := Ideal) (bnScale (F := Ideal) a g)) (asRow (F := Ideal) (bnShift (F := Ideal) a g b)) Wf
        (asRow40 (F := Ideal) bf) p q
      = refOutput (F := Ideal) a g b Wf bf (ix2 p q) := by
  unfold refOutput
  rw [project40_apply]
  unfold affineReluMatmul
  rw [asRow40_apply]
  refine congrArg (· + bf (ix1 q)) (Finset.sum_congr rfl fun k _ => ?_)
  rw [asRow_apply, asRow_apply, (bn_fold a g b ha hg hb p k).1, relu_apply]

/-- The first layer's aggregated features are real when the inputs are. -/
theorem refLayer1_real (x : FVec Ideal S50000x128 .f32) (src dst : IVec S600000 32) (g0 b0 : FVec Ideal S128 .f32)
    (W1 : FVec Ideal S128x128 .f32) (c1 : FVec Ideal S128 .f32)
    (hx : IsReal x) (hg : IsReal g0) (hb : IsReal b0) (hW : IsReal W1) (hc : IsReal c1) :
    IsReal (refLayer1 (F := Ideal) x src dst g0 b0 W1 c1) :=
  aggregate_real _ _ _ src dst c1 (matmul128_real _ W1 (batchNorm_real x g0 b0 hx hg hb) hW) (edgeNorm_real src dst)
    (selfNorm_real dst) hc

/-- The second layer's aggregated features are real when the first layer's and the parameters are. -/
theorem refLayer2_real (a1 : FVec Ideal S50000x128 .f32) (src dst : IVec S600000 32) (g1 b1 : FVec Ideal S128 .f32)
    (W2 : FVec Ideal S128x128 .f32) (c2 : FVec Ideal S128 .f32)
    (ha : IsReal a1) (hg : IsReal g1) (hb : IsReal b1) (hW : IsReal W2) (hc : IsReal c2) :
    IsReal (refLayer2 (F := Ideal) a1 src dst g1 b1 W2 c2) :=
  aggregate_real _ _ _ src dst c2 (matmul128_real _ W2 (relu_real _ (batchNorm_real a1 g1 b1 ha hg hb)) hW)
    (edgeNorm_real src dst) (selfNorm_real dst) hc

end Cert.GcnSpec

end
-- ==== Proof.KernelValue.lean ====
/-
  The fused network's result is the reference network's, when the float inputs are real.

  Layer by layer: the first block's output array is the reference's first product (the fold, on real inputs); the
  aggregation that follows is the same operation on both sides, so the first layer's features agree and are real; the
  same argument carries through the second block and the second aggregation, and the third block's output array is the
  reference's output.
-/
import proofs.«145119_j4501125726314_1_alg».proof.Proof.KernelHost
import proofs.«145119_j4501125726314_1_alg».proof.Proof.Region0
import proofs.«145119_j4501125726314_1_alg».proof.Proof.Region1
import proofs.«145119_j4501125726314_1_alg».proof.Proof.Region2
import proofs.«145119_j4501125726314_1_alg».proof.Proof.LayerMath

noncomputable section

namespace Cert.KernelIdeal.RunValue

open Cert.KernelIdeal Cert.KernelIdeal.Gen Cert.GcnSpec Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- The reference's first-layer features of the launch arguments. -/
def refL1 : FVec Ideal S50000x128 .f32 :=
  refLayer1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The reference's second-layer features of the launch arguments. -/
def refL2 : FVec Ideal S50000x128 .f32 :=
  refLayer2 (F := Ideal) (refL1 m c) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10))

/-- The reference's output of the launch arguments. -/
def refOut : FVec Ideal S50000x40 .f32 :=
  refOutput (F := Ideal) (refL2 m c) (m ((c.tc : Thread nD τ).loc main_arg11)) (m ((c.tc : Thread nD τ).loc main_arg12)) (m ((c.tc : Thread nD τ).loc main_arg13)) (m ((c.tc : Thread nD τ).loc main_arg14))

variable (h0 : IsReal ((m ((c.tc : Thread nD τ).loc main_arg0)) : FVec Ideal S50000x128 .f32)) (h3 : IsReal ((m ((c.tc : Thread nD τ).loc main_arg3)) : FVec Ideal S128 .f32))
  (h4 : IsReal ((m ((c.tc : Thread nD τ).loc main_arg4)) : FVec Ideal S128 .f32)) (h5 : IsReal ((m ((c.tc : Thread nD τ).loc main_arg5)) : FVec Ideal S128x128 .f32))
  (h6 : IsReal ((m ((c.tc : Thread nD τ).loc main_arg6)) : FVec Ideal S128 .f32)) (h7 : IsReal ((m ((c.tc : Thread nD τ).loc main_arg7)) : FVec Ideal S128 .f32))
  (h8 : IsReal ((m ((c.tc : Thread nD τ).loc main_arg8)) : FVec Ideal S128 .f32)) (h9 : IsReal ((m ((c.tc : Thread nD τ).loc main_arg9)) : FVec Ideal S128x128 .f32))
  (h10 : IsReal ((m ((c.tc : Thread nD τ).loc main_arg10)) : FVec Ideal S128 .f32)) (h11 : IsReal ((m ((c.tc : Thread nD τ).loc main_arg11)) : FVec Ideal S128 .f32))
  (h12 : IsReal ((m ((c.tc : Thread nD τ).loc main_arg12)) : FVec Ideal S128 .f32))

include h0 h3 h4 in
/-- The first block's output array is the reference's first product. -/
theorem block0_eq : ((dat0 (F := Ideal) (V1 m ρ) c).arrAt 4 cfg0.N : FVec Ideal S50000x128 .f32)
    = matmul128 (F := Ideal) (batchNorm (F := Ideal) (m ((c.tc : Thread nD τ).loc main_arg0)) (m ((c.tc : Thread nD τ).loc main_arg3)) (m ((c.tc : Thread nD τ).loc main_arg4))) (m ((c.tc : Thread nD τ).loc main_arg5)) := by
  funext i
  obtain ⟨p, q, rfl⟩ : ∃ (p : Fin 50000) (q : Fin 128), i = ix2 p q := ⟨i 0, i 1, eq_ix2 i⟩
  rw [RegionValue.region0_entry (V1 m ρ) c p q, read1_x m ρ c, read1_s m ρ c, read1_t m ρ c, read1_W m ρ c]
  exact fused_layer0 _ _ _ _ h0 h3 h4 p q

include h0 h3 h4 h5 h6 in
/-- The reference's first-layer features are real. -/
theorem refL1_real : IsReal (refL1 m c) := refLayer1_real _ _ _ _ _ _ _ h0 h3 h4 h5 h6

include h0 h3 h4 h5 h6 h7 h8 in
/-- The second block's output array is the reference's second product. -/
theorem block1_eq : ((dat1 (F := Ideal) (V3 m ρ) c).arrAt 5 cfg1.N : FVec Ideal S50000x128 .f32)
    = matmul128 (F := Ideal) (relu (F := Ideal) (batchNorm (F := Ideal) (refL1 m c) (m ((c.tc : Thread nD τ).loc main_arg7)) (m ((c.tc : Thread nD τ).loc main_arg8)))) (m ((c.tc : Thread nD τ).loc main_arg9)) := by
  funext i
  obtain ⟨p, q, rfl⟩ : ∃ (p : Fin 50000) (q : Fin 128), i = ix2 p q := ⟨i 0, i 1, eq_ix2 i⟩
  rw [RegionValue.region1_entry (V3 m ρ) c p q, read3_x m ρ c, read3_s m ρ c, read3_t m ρ c, read3_W m ρ c, read3_z m ρ c,
    block0_eq m ρ c h0 h3 h4]
  exact fused_layer1 (refL1 m c) _ _ _ (refL1_real m c h0 h3 h4 h5 h6) h7 h8 p q

include h0 h3 h4 h5 h6 h7 h8 h9 h10 in
/-- The reference's second-layer features are real. -/
theorem refL2_real : IsReal (refL2 m c) :=
  refLayer2_real _ _ _ _ _ _ _ (refL1_real m c h0 h3 h4 h5 h6) h7 h8 h9 h10

include h0 h3 h4 h5 h6 h7 h8 h9 h10 h11 h12 in
/-- THE RESULT: the third block's output array, which is the program's result buffer, is the reference's output. -/
theorem result_eq : (W6 m ρ c (Proc.devRef .tc main_v125) : FVec Ideal S50000x40 .f32) = refOut m c := by
  refine (W6_arr m ρ c 5).trans ?_
  funext i
  obtain ⟨p, q, rfl⟩ : ∃ (p : Fin 50000) (q : Fin 40), i = ix2 p q := ⟨i 0, i 1, eq_ix2 i⟩
  rw [RegionValue.region2_entry (V5 m ρ) c p q, read5_x m ρ c, read5_s m ρ c, read5_t m ρ c, read5_W m ρ c, read5_b m ρ c,
    block1_eq m ρ c h0 h3 h4 h5 h6 h7 h8]
  exact fused_output (refL2 m c) _ _ _ _ (refL2_real m c h0 h3 h4 h5 h6 h7 h8 h9 h10) h11 h12 p q

end Cert.KernelIdeal.RunValue

end
-- ==== Proof.RefRun.lean ====
/-
  The reference program's run. Its @main is a straight line of 182 host operations (listed below in program order;
  the two calls of the clamping function stand inlined at their call sites). Every weakly fair execution of it
  terminates, and the final state has the result buffer at the operations' composition applied to the launch contents
  of the arguments, the arguments themselves unchanged. The composition is stated as the specification's term: the
  output layer of the second aggregation layer of the first aggregation layer of the arguments.
-/
import proofs.«145119_j4501125726314_1_alg».proof.Proof.Gen.ReferenceIdeal
import Idealize.ShloMosaic.Lib.StableHlo.Run
import proofs.«145119_j4501125726314_1_alg».proof.Proof.HostSpec

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- @main's 182 operations, in order (a called function's operations stand in its call's place, spelt `TRef.…`). -/
abbrev ops : List (HloOp τ sig (Elt F)) :=
  [ nullary main_cst (constant S_ .f32 0x3F800000#32),
    unary main_cst main_v0 (broadcastInDim S50000 ![] bcast_S_S50000 : (⟨S_, .f32⟩ : BufTy).Contents (Elt F) → (⟨S50000, .f32⟩ : BufTy).Contents (Elt F)),
    nullary main_c (constantI S_ 32 0#32),
    unary main_c main_v1 (broadcastInDim S600000 ![] bcast_S_S600000 : (⟨S_, .i32⟩ : BufTy).Contents (Elt F) → (⟨S600000, .i32⟩ : BufTy).Contents (Elt F)),
    binary main_arg2 main_v1 main_v2 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v3 (broadcastInDim S600000 ![] bcast_S_S600000 : (⟨S_, .i32⟩ : BufTy).Contents (Elt F) → (⟨S600000, .i32⟩ : BufTy).Contents (Elt F)),
    binary main_arg2 main_v3 main_v4 (addi : (⟨S600000, .i32⟩ : BufTy).Contents (Elt F) → (⟨S600000, .i32⟩ : BufTy).Contents (Elt F) → (⟨S600000, .i32⟩ : BufTy).Contents (Elt F)),
    ternary main_v2 main_v4 main_arg2 main_v5 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v5 main_v6 (broadcastInDim S600000x1 ![0] bcast_S600000_S600000x1_0 : (⟨S600000, .i32⟩ : BufTy).Contents (Elt F) → (⟨S600000x1, .i32⟩ : BufTy).Contents (Elt F)),
    nullary main_cst_1 (constant S_ .f32 0x3F800000#32),
    unary main_cst_1 main_v7 (broadcastInDim S600000 ![] bcast_S_S600000 : (⟨S_, .f32⟩ : BufTy).Contents (Elt F) → (⟨S600000, .f32⟩ : BufTy).Contents (Elt F)),
    ternary main_v0 main_v6 main_v7 main_v8 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    unary main_v8 main_v9 (Host.rsqrt : (⟨S50000, .f32⟩ : BufTy).Contents (Elt F) → (⟨S50000, .f32⟩ : BufTy).Contents (Elt F)),
    nullary main_c_2 (constantI S_ 32 0#32),
    unary main_c_2 main_v10 (broadcastInDim S600000 ![] bcast_S_S600000 : (⟨S_, .i32⟩ : BufTy).Contents (Elt F) → (⟨S600000, .i32⟩ : BufTy).Contents (Elt F)),
    binary main_arg1 main_v10 main_v11 (cmpi .slt : (⟨S600000, .i32⟩ : BufTy).Contents (Elt F) → (⟨S600000, .i32⟩ : BufTy).Contents (Elt F) → (⟨S600000, .i1⟩ : BufTy).Contents (Elt F)),
    nullary main_c_3 (constantI S_ 32 50000#32),
    unary main_c_3 main_v12 (broadcastInDim S600000 ![] bcast_S_S600000 : (⟨S_, .i32⟩ : BufTy).Contents (Elt F) → (⟨S600000, .i32⟩ : BufTy).Contents (Elt F)),
    binary main_arg1 main_v12 main_v13 (addi : (⟨S600000, .i32⟩ : BufTy).Contents (Elt F) → (⟨S600000, .i32⟩ : BufTy).Contents (Elt F) → (⟨S600000, .i32⟩ : BufTy).Contents (Elt F)),
    ternary main_v11 main_v13 main_arg1 main_v14 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v14 main_v15 (broadcastInDim S600000x1 ![0] bcast_S600000_S600000x1_0 : (⟨S600000, .i32⟩ : BufTy).Contents (Elt F) → (⟨S600000x1, .i32⟩ : BufTy).Contents (Elt F)),
    binary main_v9 main_v15 main_v16 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_4 (constantI S_ 32 0#32),
    unary main_c_4 main_v17 (broadcastInDim S600000 ![] bcast_S_S600000 : (⟨S_, .i32⟩ : BufTy).Contents (Elt F) → (⟨S600000, .i32⟩ : BufTy).Contents (Elt F)),
    binary main_arg2 main_v17 main_v18 (cmpi .slt : (⟨S600000, .i32⟩ : BufTy).Contents (Elt F) → (⟨S600000, .i32⟩ : BufTy).Contents (Elt F) → (⟨S600000, .i1⟩ : BufTy).Contents (Elt F)),
    nullary main_c_5 (constantI S_ 32 50000#32),
    unary main_c_5 main_v19 (broadcastInDim S600000 ![] bcast_S_S600000 : (⟨S_, .i32⟩ : BufTy).Contents (Elt F) → (⟨S600000, .i32⟩ : BufTy).Contents (Elt F)),
    binary main_arg2 main_v19 main_v20 (addi : (⟨S600000, .i32⟩ : BufTy).Contents (Elt F) → (⟨S600000, .i32⟩ : BufTy).Contents (Elt F) → (⟨S600000, .i32⟩ : BufTy).Contents (Elt F)),
    ternary main_v18 main_v20 main_arg2 main_v21 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v21 main_v22 (broadcastInDim S600000x1 ![0] bcast_S600000_S600000x1_0 : (⟨S600000, .i32⟩ : BufTy).Contents (Elt F) → (⟨S600000x1, .i32⟩ : BufTy).Contents (Elt F)),
    binary main_v9 main_v22 main_v23 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v16 main_v23 main_v24 (mulf : (⟨S600000, .f32⟩ : BufTy).Contents (Elt F) → (⟨S600000, .f32⟩ : BufTy).Contents (Elt F) → (⟨S600000, .f32⟩ : BufTy).Contents (Elt F)),
    binary main_v9 main_v9 main_v25 (mulf : (⟨S50000, .f32⟩ : BufTy).Contents (Elt F) → (⟨S50000, .f32⟩ : BufTy).Contents (Elt F) → (⟨S50000, .f32⟩ : BufTy).Contents (Elt F)),
    nullary main_cst_6 (constant S_ .f32 0x00000000#32),
    binary main_arg0 main_cst_6 main_v26 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_7 (constant S_ .f32 0x47435000#32),
    unary main_cst_7 main_v27 (broadcastInDim S128 ![] bcast_S_S128 : (⟨S_, .f32⟩ : BufTy).Contents (Elt F) → (⟨S128, .f32⟩ : BufTy).Contents (Elt F)),
    binary main_v26 main_v27 main_v28 (Host.divf : (⟨S128, .f32⟩ : BufTy).Contents (Elt F) → (⟨S128, .f32⟩ : BufTy).Contents (Elt F) → (⟨S128, .f32⟩ : BufTy).Contents (Elt F)),
    unary main_v28 main_v29 (broadcastInDim S1x128 ![1] bcast_S128_S1x128_1 : (⟨S128, .f32⟩ : BufTy).Contents (Elt F) → (⟨S1x128, .f32⟩ : BufTy).Contents (Elt F)),
    unary main_v29 main_v30 (broadcastInDim S50000x128 ![0, 1] bcast_S1x128_S50000x128_0_1 : (⟨S1x128, .f32⟩ : BufTy).Contents (Elt F) → (⟨S50000x128, .f32⟩ : BufTy).Contents (Elt F)),
    binary main_arg0 main_v30 main_v31 (subf : (⟨S50000x128, .f32⟩ : BufTy).Contents (Elt F) → (⟨S50000x128, .f32⟩ : BufTy).Contents (Elt F) → (⟨S50000x128, .f32⟩ : BufTy).Contents (Elt F)),
    binary main_v31 main_v31 main_v32 (mulf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x00000000#32),
    binary main_v32 main_cst_8 main_v33 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_9 (constant S_ .f32 0x47435000#32),
    unary main_cst_9 main_v34 (broadcastInDim S128 ![] bcast_S_S128 : (⟨S_, .f32⟩ : BufTy).Contents (Elt F) → (⟨S128, .f32⟩ : BufTy).Contents (Elt F)),
    binary main_v33 main_v34 main_v35 (Host.divf : (⟨S128, .f32⟩ : BufTy).Contents (Elt F) → (⟨S128, .f32⟩ : BufTy).Contents (Elt F) → (⟨S128, .f32⟩ : BufTy).Contents (Elt F)),
    unary main_v28 main_v36 (broadcastInDim S1x128 ![1] bcast_S128_S1x128_1 : (⟨S128, .f32⟩ : BufTy).Contents (Elt F) → (⟨S1x128, .f32⟩ : BufTy).Contents (Elt F)),
    unary main_v36 main_v37 (broadcastInDim S50000x128 ![0, 1] bcast_S1x128_S50000x128_0_1 : (⟨S1x128, .f32⟩ : BufTy).Contents (Elt F) → (⟨S50000x128, .f32⟩ : BufTy).Contents (Elt F)),
    binary main_arg0 main_v37 main_v38 (subf : (⟨S50000x128, .f32⟩ : BufTy).Contents (Elt F) → (⟨S50000x128, .f32⟩ : BufTy).Contents (Elt F) → (⟨S50000x128, .f32⟩ : BufTy).Contents (Elt F)),
    unary main_arg3 main_v39 (broadcastInDim S1x128 ![1] bcast_S128_S1x128_1 : (⟨S128, .f32⟩ : BufTy).Contents (Elt F) → (⟨S1x128, .f32⟩ : BufTy).Contents (Elt F)),
    unary main_v39 main_v40 (broadcastInDim S50000x128 ![0, 1] bcast_S1x128_S50000x128_0_1 : (⟨S1x128, .f32⟩ : BufTy).Contents (Elt F) → (⟨S50000x128, .f32⟩ : BufTy).Contents (Elt F)),
    binary main_v40 main_v38 main_v41 (mulf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x3727C5AC#32),
    unary main_cst_10 main_v42 (broadcastInDim S128 ![] bcast_S_S128 : (⟨S_, .f32⟩ : BufTy).Contents (Elt F) → (⟨S128, .f32⟩ : BufTy).Contents (Elt F)),
    binary main_v35 main_v42 main_v43 (addf : (⟨S128, .f32⟩ : BufTy).Contents (Elt F) → (⟨S128, .f32⟩ : BufTy).Contents (Elt F) → (⟨S128, .f32⟩ : BufTy).Contents (Elt F)),
    unary main_v43 main_v44 (Host.rsqrt : (⟨S128, .f32⟩ : BufTy).Contents (Elt F) → (⟨S128, .f32⟩ : BufTy).Contents (Elt F)),
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v41 main_v46 main_v47 (mulf : (⟨S50000x128, .f32⟩ : BufTy).Contents (Elt F) → (⟨S50000x128, .f32⟩ : BufTy).Contents (Elt F) → (⟨S50000x128, .f32⟩ : BufTy).Contents (Elt F)),
    unary main_arg4 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v47 main_v49 main_v50 (addf : (⟨S50000x128, .f32⟩ : BufTy).Contents (Elt F) → (⟨S50000x128, .f32⟩ : BufTy).Contents (Elt F) → (⟨S50000x128, .f32⟩ : BufTy).Contents (Elt F)),
    binary main_v50 main_arg5 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_11 (constantI S_ 32 0#32),
    unary main_c_11 main_v52 (broadcastInDim S600000 ![] bcast_S_S600000 : (⟨S_, .i32⟩ : BufTy).Contents (Elt F) → (⟨S600000, .i32⟩ : BufTy).Contents (Elt F)),
    binary main_arg1 main_v52 main_v53 (cmpi .slt : (⟨S600000, .i32⟩ : BufTy).Contents (Elt F) → (⟨S600000, .i32⟩ : BufTy).Contents (Elt F) → (⟨S600000, .i1⟩ : BufTy).Contents (Elt F)),
    nullary main_c_12 (constantI S_ 32 50000#32),
    unary main_c_12 main_v54 (broadcastInDim S600000 ![] bcast_S_S600000 : (⟨S_, .i32⟩ : BufTy).Contents (Elt F) → (⟨S600000, .i32⟩ : BufTy).Contents (Elt F)),
    binary main_arg1 main_v54 main_v55 (addi : (⟨S600000, .i32⟩ : BufTy).Contents (Elt F) → (⟨S600000, .i32⟩ : BufTy).Contents (Elt F) → (⟨S600000, .i32⟩ : BufTy).Contents (Elt F)),
    ternary main_v53 main_v55 main_arg1 main_v56 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v56 main_v57 (broadcastInDim S600000x1 ![0] bcast_S600000_S600000x1_0 : (⟨S600000, .i32⟩ : BufTy).Contents (Elt F) → (⟨S600000x1, .i32⟩ : BufTy).Contents (Elt F)),
    binary main_v51 main_v57 main_v58 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v24 main_v59 (broadcastInDim S600000x1 ![0] bcast_S600000_S600000x1_0 : (⟨S600000, .f32⟩ : BufTy).Contents (Elt F) → (⟨S600000x1, .f32⟩ : BufTy).Contents (Elt F)),
    unary main_v59 main_v60 (broadcastInDim S600000x128 ![0, 1] bcast_S600000x1_S600000x128_0_1 : (⟨S600000x1, .f32⟩ : BufTy).Contents (Elt F) → (⟨S600000x128, .f32⟩ : BufTy).Contents (Elt F)),
    binary main_v58 main_v60 main_v61 (mulf : (⟨S600000x128, .f32⟩ : BufTy).Contents (Elt F) → (⟨S600000x128, .f32⟩ : BufTy).Contents (Elt F) → (⟨S600000x128, .f32⟩ : BufTy).Contents (Elt F)),
    nullary main_cst_13 (constant S_ .f32 0x00000000#32),
    unary main_cst_13 main_v62 (broadcastInDim S50000x128 ![] bcast_S_S50000x128 : (⟨S_, .f32⟩ : BufTy).Contents (Elt F) → (⟨S50000x128, .f32⟩ : BufTy).Contents (Elt F)),
    unary main_arg2 main_v63 (broadcastInDim S600000x1 ![0] bcast_S600000_S600000x1_0 : (⟨S600000, .i32⟩ : BufTy).Contents (Elt F) → (⟨S600000x1, .i32⟩ : BufTy).Contents (Elt F)),
    ternary main_v62 main_v63 main_v61 main_v64 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v25 main_v65 (broadcastInDim S50000x1 ![0] bcast_S50000_S50000x1_0 : (⟨S50000, .f32⟩ : BufTy).Contents (Elt F) → (⟨S50000x1, .f32⟩ : BufTy).Contents (Elt F)),
    unary main_v65 main_v66 (broadcastInDim S50000x128 ![0, 1] bcast_S50000x1_S50000x128_0_1 : (⟨S50000x1, .f32⟩ : BufTy).Contents (Elt F) → (⟨S50000x128, .f32⟩ : BufTy).Contents (Elt F)),
    binary main_v51 main_v66 main_v67 (mulf : (⟨S50000x128, .f32⟩ : BufTy).Contents (Elt F) → (⟨S50000x128, .f32⟩ : BufTy).Contents (Elt F) → (⟨S50000x128, .f32⟩ : BufTy).Contents (Elt F)),
    binary main_v64 main_v67 main_v68 (addf : (⟨S50000x128, .f32⟩ : BufTy).Contents (Elt F) → (⟨S50000x128, .f32⟩ : BufTy).Contents (Elt F) → (⟨S50000x128, .f32⟩ : BufTy).Contents (Elt F)),
    unary main_arg6 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v68 main_v70 main_v71 (addf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x00000000#32),
    binary main_v71 main_cst_14 main_v72 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_15 (constant S_ .f32 0x47435000#32),
    unary main_cst_15 main_v73 (broadcastInDim S128 ![] bcast_S_S128 : (⟨S_, .f32⟩ : BufTy).Contents (Elt F) → (⟨S128, .f32⟩ : BufTy).Contents (Elt F)),
    binary main_v72 main_v73 main_v74 (Host.divf : (⟨S128, .f32⟩ : BufTy).Contents (Elt F) → (⟨S128, .f32⟩ : BufTy).Contents (Elt F) → (⟨S128, .f32⟩ : BufTy).Contents (Elt F)),
    unary main_v74 main_v75 (broadcastInDim S1x128 ![1] bcast_S128_S1x128_1 : (⟨S128, .f32⟩ : BufTy).Contents (Elt F) → (⟨S1x128, .f32⟩ : BufTy).Contents (Elt F)),
    unary main_v75 main_v76 (broadcastInDim S50000x128 ![0, 1] bcast_S1x128_S50000x128_0_1 : (⟨S1x128, .f32⟩ : BufTy).Contents (Elt F) → (⟨S50000x128, .f32⟩ : BufTy).Contents (Elt F)),
    binary main_v71 main_v76 main_v77 (subf : (⟨S50000x128, .f32⟩ : BufTy).Contents (Elt F) → (⟨S50000x128, .f32⟩ : BufTy).Contents (Elt F) → (⟨S50000x128, .f32⟩ : BufTy).Contents (Elt F)),
    binary main_v77 main_v77 main_v78 (mulf : (⟨S50000x128, .f32⟩ : BufTy).Contents (Elt F) → (⟨S50000x128, .f32⟩ : BufTy).Contents (Elt F) → (⟨S50000x128, .f32⟩ : BufTy).Contents (Elt F)),
    nullary main_cst_16 (constant S_ .f32 0x00000000#32),
    binary main_v78 main_cst_16 main_v79 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_17 (constant S_ .f32 0x47435000#32),
    unary main_cst_17 main_v80 (broadcastInDim S128 ![] bcast_S_S128 : (⟨S_, .f32⟩ : BufTy).Contents (Elt F) → (⟨S128, .f32⟩ : BufTy).Contents (Elt F)),
    binary main_v79 main_v80 main_v81 (Host.divf : (⟨S128, .f32⟩ : BufTy).Contents (Elt F) → (⟨S128, .f32⟩ : BufTy).Contents (Elt F) → (⟨S128, .f32⟩ : BufTy).Contents (Elt F)),
    unary main_v74 main_v82 (broadcastInDim S1x128 ![1] bcast_S128_S1x128_1 : (⟨S128, .f32⟩ : BufTy).Contents (Elt F) → (⟨S1x128, .f32⟩ : BufTy).Contents (Elt F)),
    unary main_v82 main_v83 (broadcastInDim S50000x128 ![0, 1] bcast_S1x128_S50000x128_0_1 : (⟨S1x128, .f32⟩ : BufTy).Contents (Elt F) → (⟨S50000x128, .f32⟩ : BufTy).Contents (Elt F)),
    binary main_v71 main_v83 main_v84 (subf : (⟨S50000x128, .f32⟩ : BufTy).Contents (Elt F) → (⟨S50000x128, .f32⟩ : BufTy).Contents (Elt F) → (⟨S50000x128, .f32⟩ : BufTy).Contents (Elt F)),
    unary main_arg7 main_v85 (broadcastInDim S1x128 ![1] bcast_S128_S1x128_1 : (⟨S128, .f32⟩ : BufTy).Contents (Elt F) → (⟨S1x128, .f32⟩ : BufTy).Contents (Elt F)),
    unary main_v85 main_v86 (broadcastInDim S50000x128 ![0, 1] bcast_S1x128_S50000x128_0_1 : (⟨S1x128, .f32⟩ : BufTy).Contents (Elt F) → (⟨S50000x128, .f32⟩ : BufTy).Contents (Elt F)),
    binary main_v86 main_v84 main_v87 (mulf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x3727C5AC#32),
    unary main_cst_18 main_v88 (broadcastInDim S128 ![] bcast_S_S128 : (⟨S_, .f32⟩ : BufTy).Contents (Elt F) → (⟨S128, .f32⟩ : BufTy).Contents (Elt F)),
    binary main_v81 main_v88 main_v89 (addf : (⟨S128, .f32⟩ : BufTy).Contents (Elt F) → (⟨S128, .f32⟩ : BufTy).Contents (Elt F) → (⟨S128, .f32⟩ : BufTy).Contents (Elt F)),
    unary main_v89 main_v90 (Host.rsqrt : (⟨S128, .f32⟩ : BufTy).Contents (Elt F) → (⟨S128, .f32⟩ : BufTy).Contents (Elt F)),
    unary main_v90 main_v91 (broadcastInDim S1x128 ![1] bcast_S128_S1x128_1 : (⟨S128, .f32⟩ : BufTy).Contents (Elt F) → (⟨S1x128, .f32⟩ : BufTy).Contents (Elt F)),
    unary main_v91 main_v92 (broadcastInDim S50000x128 ![0, 1] bcast_S1x128_S50000x128_0_1 : (⟨S1x128, .f32⟩ : BufTy).Contents (Elt F) → (⟨S50000x128, .f32⟩ : BufTy).Contents (Elt F)),
    binary main_v87 main_v92 main_v93 (mulf : (⟨S50000x128, .f32⟩ : BufTy).Contents (Elt F) → (⟨S50000x128, .f32⟩ : BufTy).Contents (Elt F) → (⟨S50000x128, .f32⟩ : BufTy).Contents (Elt F)),
    unary main_arg8 main_v94 (broadcastInDim S1x128 ![1] bcast_S128_S1x128_1 : (⟨S128, .f32⟩ : BufTy).Contents (Elt F) → (⟨S1x128, .f32⟩ : BufTy).Contents (Elt F)),
    unary main_v94 main_v95 (broadcastInDim S50000x128 ![0, 1] bcast_S1x128_S50000x128_0_1 : (⟨S1x128, .f32⟩ : BufTy).Contents (Elt F) → (⟨S50000x128, .f32⟩ : BufTy).Contents (Elt F)),
    binary main_v93 main_v95 main_v96 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v96) (TRef.of (T := ⟨S50000x128, .f32⟩) main_call0_v0) (TRef.of (T := ⟨S50000x128, .f32⟩) main_v97) maximumf,
    binary main_v97 main_arg9 main_v98 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_19 (constantI S_ 32 0#32),
    unary main_c_19 main_v99 (broadcastInDim S600000 ![] bcast_S_S600000 : (⟨S_, .i32⟩ : BufTy).Contents (Elt F) → (⟨S600000, .i32⟩ : BufTy).Contents (Elt F)),
    binary main_arg1 main_v99 main_v100 (cmpi .slt : (⟨S600000, .i32⟩ : BufTy).Contents (Elt F) → (⟨S600000, .i32⟩ : BufTy).Contents (Elt F) → (⟨S600000, .i1⟩ : BufTy).Contents (Elt F)),
    nullary main_c_20 (constantI S_ 32 50000#32),
    unary main_c_20 main_v101 (broadcastInDim S600000 ![] bcast_S_S600000 : (⟨S_, .i32⟩ : BufTy).Contents (Elt F) → (⟨S600000, .i32⟩ : BufTy).Contents (Elt F)),
    binary main_arg1 main_v101 main_v102 (addi : (⟨S600000, .i32⟩ : BufTy).Contents (Elt F) → (⟨S600000, .i32⟩ : BufTy).Contents (Elt F) → (⟨S600000, .i32⟩ : BufTy).Contents (Elt F)),
    ternary main_v100 main_v102 main_arg1 main_v103 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v103 main_v104 (broadcastInDim S600000x1 ![0] bcast_S600000_S600000x1_0 : (⟨S600000, .i32⟩ : BufTy).Contents (Elt F) → (⟨S600000x1, .i32⟩ : BufTy).Contents (Elt F)),
    binary main_v98 main_v104 main_v105 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v24 main_v106 (broadcastInDim S600000x1 ![0] bcast_S600000_S600000x1_0 : (⟨S600000, .f32⟩ : BufTy).Contents (Elt F) → (⟨S600000x1, .f32⟩ : BufTy).Contents (Elt F)),
    unary main_v106 main_v107 (broadcastInDim S600000x128 ![0, 1] bcast_S600000x1_S600000x128_0_1 : (⟨S600000x1, .f32⟩ : BufTy).Contents (Elt F) → (⟨S600000x128, .f32⟩ : BufTy).Contents (Elt F)),
    binary main_v105 main_v107 main_v108 (mulf : (⟨S600000x128, .f32⟩ : BufTy).Contents (Elt F) → (⟨S600000x128, .f32⟩ : BufTy).Contents (Elt F) → (⟨S600000x128, .f32⟩ : BufTy).Contents (Elt F)),
    nullary main_cst_21 (constant S_ .f32 0x00000000#32),
    unary main_cst_21 main_v109 (broadcastInDim S50000x128 ![] bcast_S_S50000x128 : (⟨S_, .f32⟩ : BufTy).Contents (Elt F) → (⟨S50000x128, .f32⟩ : BufTy).Contents (Elt F)),
    unary main_arg2 main_v110 (broadcastInDim S600000x1 ![0] bcast_S600000_S600000x1_0 : (⟨S600000, .i32⟩ : BufTy).Contents (Elt F) → (⟨S600000x1, .i32⟩ : BufTy).Contents (Elt F)),
    ternary main_v109 main_v110 main_v108 main_v111 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v25 main_v112 (broadcastInDim S50000x1 ![0] bcast_S50000_S50000x1_0 : (⟨S50000, .f32⟩ : BufTy).Contents (Elt F) → (⟨S50000x1, .f32⟩ : BufTy).Contents (Elt F)),
    unary main_v112 main_v113 (broadcastInDim S50000x128 ![0, 1] bcast_S50000x1_S50000x128_0_1 : (⟨S50000x1, .f32⟩ : BufTy).Contents (Elt F) → (⟨S50000x128, .f32⟩ : BufTy).Contents (Elt F)),
    binary main_v98 main_v113 main_v114 (mulf : (⟨S50000x128, .f32⟩ : BufTy).Contents (Elt F) → (⟨S50000x128, .f32⟩ : BufTy).Contents (Elt F) → (⟨S50000x128, .f32⟩ : BufTy).Contents (Elt F)),
    binary main_v111 main_v114 main_v115 (addf : (⟨S50000x128, .f32⟩ : BufTy).Contents (Elt F) → (⟨S50000x128, .f32⟩ : BufTy).Contents (Elt F) → (⟨S50000x128, .f32⟩ : BufTy).Contents (Elt F)),
    unary main_arg10 main_v116 (broadcastInDim S1x128 ![1] bcast_S128_S1x128_1 : (⟨S128, .f32⟩ : BufTy).Contents (Elt F) → (⟨S1x128, .f32⟩ : BufTy).Contents (Elt F)),
    unary main_v116 main_v117 (broadcastInDim S50000x128 ![0, 1] bcast_S1x128_S50000x128_0_1 : (⟨S1x128, .f32⟩ : BufTy).Contents (Elt F) → (⟨S50000x128, .f32⟩ : BufTy).Contents (Elt F)),
    binary main_v115 main_v117 main_v118 (addf : (⟨S50000x128, .f32⟩ : BufTy).Contents (Elt F) → (⟨S50000x128, .f32⟩ : BufTy).Contents (Elt F) → (⟨S50000x128, .f32⟩ : BufTy).Contents (Elt F)),
    nullary main_cst_22 (constant S_ .f32 0x00000000#32),
    binary main_v118 main_cst_22 main_v119 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_23 (constant S_ .f32 0x47435000#32),
    unary main_cst_23 main_v120 (broadcastInDim S128 ![] bcast_S_S128 : (⟨S_, .f32⟩ : BufTy).Contents (Elt F) → (⟨S128, .f32⟩ : BufTy).Contents (Elt F)),
    binary main_v119 main_v120 main_v121 (Host.divf : (⟨S128, .f32⟩ : BufTy).Contents (Elt F) → (⟨S128, .f32⟩ : BufTy).Contents (Elt F) → (⟨S128, .f32⟩ : BufTy).Contents (Elt F)),
    unary main_v121 main_v122 (broadcastInDim S1x128 ![1] bcast_S128_S1x128_1 : (⟨S128, .f32⟩ : BufTy).Contents (Elt F) → (⟨S1x128, .f32⟩ : BufTy).Contents (Elt F)),
    unary main_v122 main_v123 (broadcastInDim S50000x128 ![0, 1] bcast_S1x128_S50000x128_0_1 : (⟨S1x128, .f32⟩ : BufTy).Contents (Elt F) → (⟨S50000x128, .f32⟩ : BufTy).Contents (Elt F)),
    binary main_v118 main_v123 main_v124 (subf : (⟨S50000x128, .f32⟩ : BufTy).Contents (Elt F) → (⟨S50000x128, .f32⟩ : BufTy).Contents (Elt F) → (⟨S50000x128, .f32⟩ : BufTy).Contents (Elt F)),
    binary main_v124 main_v124 main_v125 (mulf : (⟨S50000x128, .f32⟩ : BufTy).Contents (Elt F) → (⟨S50000x128, .f32⟩ : BufTy).Contents (Elt F) → (⟨S50000x128, .f32⟩ : BufTy).Contents (Elt F)),
    nullary main_cst_24 (constant S_ .f32 0x00000000#32),
    binary main_v125 main_cst_24 main_v126 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_25 (constant S_ .f32 0x47435000#32),
    unary main_cst_25 main_v127 (broadcastInDim S128 ![] bcast_S_S128 : (⟨S_, .f32⟩ : BufTy).Contents (Elt F) → (⟨S128, .f32⟩ : BufTy).Contents (Elt F)),
    binary main_v126 main_v127 main_v128 (Host.divf : (⟨S128, .f32⟩ : BufTy).Contents (Elt F) → (⟨S128, .f32⟩ : BufTy).Contents (Elt F) → (⟨S128, .f32⟩ : BufTy).Contents (Elt F)),
    unary main_v121 main_v129 (broadcastInDim S1x128 ![1] bcast_S128_S1x128_1 : (⟨S128, .f32⟩ : BufTy).Contents (Elt F) → (⟨S1x128, .f32⟩ : BufTy).Contents (Elt F)),
    unary main_v129 main_v130 (broadcastInDim S50000x128 ![0, 1] bcast_S1x128_S50000x128_0_1 : (⟨S1x128, .f32⟩ : BufTy).Contents (Elt F) → (⟨S50000x128, .f32⟩ : BufTy).Contents (Elt F)),
    binary main_v118 main_v130 main_v131 (subf : (⟨S50000x128, .f32⟩ : BufTy).Contents (Elt F) → (⟨S50000x128, .f32⟩ : BufTy).Contents (Elt F) → (⟨S50000x128, .f32⟩ : BufTy).Contents (Elt F)),
    unary main_arg11 main_v132 (broadcastInDim S1x128 ![1] bcast_S128_S1x128_1 : (⟨S128, .f32⟩ : BufTy).Contents (Elt F) → (⟨S1x128, .f32⟩ : BufTy).Contents (Elt F)),
    unary main_v132 main_v133 (broadcastInDim S50000x128 ![0, 1] bcast_S1x128_S50000x128_0_1 : (⟨S1x128, .f32⟩ : BufTy).Contents (Elt F) → (⟨S50000x128, .f32⟩ : BufTy).Contents (Elt F)),
    binary main_v133 main_v131 main_v134 (mulf : (⟨S50000x128, .f32⟩ : BufTy).Contents (Elt F) → (⟨S50000x128, .f32⟩ : BufTy).Contents (Elt F) → (⟨S50000x128, .f32⟩ : BufTy).Contents (Elt F)),
    nullary main_cst_26 (constant S_ .f32 0x3727C5AC#32),
    unary main_cst_26 main_v135 (broadcastInDim S128 ![] bcast_S_S128 : (⟨S_, .f32⟩ : BufTy).Contents (Elt F) → (⟨S128, .f32⟩ : BufTy).Contents (Elt F)),
    binary main_v128 main_v135 main_v136 (addf : (⟨S128, .f32⟩ : BufTy).Contents (Elt F) → (⟨S128, .f32⟩ : BufTy).Contents (Elt F) → (⟨S128, .f32⟩ : BufTy).Contents (Elt F)),
    unary main_v136 main_v137 (Host.rsqrt : (⟨S128, .f32⟩ : BufTy).Contents (Elt F) → (⟨S128, .f32⟩ : BufTy).Contents (Elt F)),
    unary main_v137 main_v138 (broadcastInDim S1x128 ![1] bcast_S128_S1x128_1 : (⟨S128, .f32⟩ : BufTy).Contents (Elt F) → (⟨S1x128, .f32⟩ : BufTy).Contents (Elt F)),
    unary main_v138 main_v139 (broadcastInDim S50000x128 ![0, 1] bcast_S1x128_S50000x128_0_1 : (⟨S1x128, .f32⟩ : BufTy).Contents (Elt F) → (⟨S50000x128, .f32⟩ : BufTy).Contents (Elt F)),
    binary main_v134 main_v139 main_v140 (mulf : (⟨S50000x128, .f32⟩ : BufTy).Contents (Elt F) → (⟨S50000x128, .f32⟩ : BufTy).Contents (Elt F) → (⟨S50000x128, .f32⟩ : BufTy).Contents (Elt F)),
    unary main_arg12 main_v141 (broadcastInDim S1x128 ![1] bcast_S128_S1x128_1 : (⟨S128, .f32⟩ : BufTy).Contents (Elt F) → (⟨S1x128, .f32⟩ : BufTy).Contents (Elt F)),
    unary main_v141 main_v142 (broadcastInDim S50000x128 ![0, 1] bcast_S1x128_S50000x128_0_1 : (⟨S1x128, .f32⟩ : BufTy).Contents (Elt F) → (⟨S50000x128, .f32⟩ : BufTy).Contents (Elt F)),
    binary main_v140 main_v142 main_v143 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v143) (TRef.of (T := ⟨S50000x128, .f32⟩) main_call1_v0) (TRef.of (T := ⟨S50000x128, .f32⟩) main_v144) maximumf,
    binary main_v144 main_arg13 main_v145 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg14 main_v146 (broadcastInDim S1x40 ![1] bcast_S40_S1x40_1 : (⟨S40, .f32⟩ : BufTy).Contents (Elt F) → (⟨S1x40, .f32⟩ : BufTy).Contents (Elt F)),
    unary main_v146 main_v147 (broadcastInDim S50000x40 ![0, 1] bcast_S1x40_S50000x40_0_1 : (⟨S1x40, .f32⟩ : BufTy).Contents (Elt F) → (⟨S50000x40, .f32⟩ : BufTy).Contents (Elt F)),
    binary main_v145 main_v147 main_v148 (addf : (⟨S50000x40, .f32⟩ : BufTy).Contents (Elt F) → (⟨S50000x40, .f32⟩ : BufTy).Contents (Elt F) → (⟨S50000x40, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

open Cert.GcnSpec

set_option maxRecDepth 8192 in
set_option maxHeartbeats 72800000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v148) = refOutput (refLayer2 (refLayer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
          (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)))
        (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v148).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl)⟩)
    (run_seq scopedRefs_eq scopedSems_eq defs main (fun _ => ops) main_eq (fun _ => ops_sub) m ρ)

end Cert.ReferenceIdeal.RunP

end
-- ==== Proof.PreReal.lean ====
/-
  The precondition decoded. The claim's precondition says that the printed predicate
  `finite_inputs` of the argument arrays is all ones: for each of the thirteen float arrays x, the
  conjunction over all indices of |x| < +∞ (an all-reduce by `and` of the pointwise comparison of
  |x| with the pattern of +∞), and-ed together. At the ideal instance a float is an extended real,
  |x| is max x (−x), and the pattern 0x7F800000 denotes ⊤; an extended real x with max x (−x) < ⊤
  is neither ⊤ nor ⊥, hence a real. So under the precondition every entry of every float argument
  is (the coercion of) a real number.
-/
import proofs.«145119_j4501125726314_1_alg».proof.Defs
import proofs.«145119_j4501125726314_1_alg».proof.Proof.Gen.Pre_finite_inputs
import Idealize.ShloMosaic.Lib.ReduceAll
import Idealize.ShloMosaic.Lib.ValueIdx

noncomputable section

namespace Cert.Proof.PreReal

open Idealize.ShloMosaic Idealize.SL.Sem
open Cert.Pre_finite_inputs

/-- The rank-0 shape has one index. -/
instance : Subsingleton S_.Idx := ⟨fun a b => funext fun d => d.elim0⟩

/-- An extended real whose absolute value compares below the pattern of +∞ is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- `jnp.all(|x| < +∞)` is 1 → every entry of x is a real; generic in the array's shape and in the
    axes the all-reduce runs over. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1)
    (i : s.Idx) : ∃ r : ℝ, x i = (r : EReal) :=
  real_of_abs_lt_inf (x i) (Host.reduce_andi_all _ _ hr hu _ e i)

/-- The pointwise `and` of two `i1` arrays is 1 at an index iff both are. -/
theorem andi_apply_eq_one {s : Shape} (x y : IVec s 1) (j : s.Idx) :
    andi x y j = 1#1 ↔ x j = 1#1 ∧ y j = 1#1 := IntOp.andi_eq_one

/-- Under the precondition every entry of every float argument is a real. -/
theorem inputs_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ r : ℝ, (m ((c.tc : Thread Cert.KernelIdeal.nD Cert.KernelIdeal.τ).loc Cert.KernelIdeal.main_arg0) : FVec Ideal S50000x128 .f32) i = (r : EReal))
      ∧ (∀ i, ∃ r : ℝ, (m ((c.tc : Thread Cert.KernelIdeal.nD Cert.KernelIdeal.τ).loc Cert.KernelIdeal.main_arg3) : FVec Ideal S128 .f32) i = (r : EReal))
      ∧ (∀ i, ∃ r : ℝ, (m ((c.tc : Thread Cert.KernelIdeal.nD Cert.KernelIdeal.τ).loc Cert.KernelIdeal.main_arg4) : FVec Ideal S128 .f32) i = (r : EReal))
      ∧ (∀ i, ∃ r : ℝ, (m ((c.tc : Thread Cert.KernelIdeal.nD Cert.KernelIdeal.τ).loc Cert.KernelIdeal.main_arg5) : FVec Ideal S128x128 .f32) i = (r : EReal))
      ∧ (∀ i, ∃ r : ℝ, (m ((c.tc : Thread Cert.KernelIdeal.nD Cert.KernelIdeal.τ).loc Cert.KernelIdeal.main_arg6) : FVec Ideal S128 .f32) i = (r : EReal))
      ∧ (∀ i, ∃ r : ℝ, (m ((c.tc : Thread Cert.KernelIdeal.nD Cert.KernelIdeal.τ).loc Cert.KernelIdeal.main_arg7) : FVec Ideal S128 .f32) i = (r : EReal))
      ∧ (∀ i, ∃ r : ℝ, (m ((c.tc : Thread Cert.KernelIdeal.nD Cert.KernelIdeal.τ).loc Cert.KernelIdeal.main_arg8) : FVec Ideal S128 .f32) i = (r : EReal))
      ∧ (∀ i, ∃ r : ℝ, (m ((c.tc : Thread Cert.KernelIdeal.nD Cert.KernelIdeal.τ).loc Cert.KernelIdeal.main_arg9) : FVec Ideal S128x128 .f32) i = (r : EReal))
      ∧ (∀ i, ∃ r : ℝ, (m ((c.tc : Thread Cert.KernelIdeal.nD Cert.KernelIdeal.τ).loc Cert.KernelIdeal.main_arg10) : FVec Ideal S128 .f32) i = (r : EReal))
      ∧ (∀ i, ∃ r : ℝ, (m ((c.tc : Thread Cert.KernelIdeal.nD Cert.KernelIdeal.τ).loc Cert.KernelIdeal.main_arg11) : FVec Ideal S128 .f32) i = (r : EReal))
      ∧ (∀ i, ∃ r : ℝ, (m ((c.tc : Thread Cert.KernelIdeal.nD Cert.KernelIdeal.τ).loc Cert.KernelIdeal.main_arg12) : FVec Ideal S128 .f32) i = (r : EReal))
      ∧ (∀ i, ∃ r : ℝ, (m ((c.tc : Thread Cert.KernelIdeal.nD Cert.KernelIdeal.τ).loc Cert.KernelIdeal.main_arg13) : FVec Ideal S128x40 .f32) i = (r : EReal))
      ∧ (∀ i, ∃ r : ℝ, (m ((c.tc : Thread Cert.KernelIdeal.nD Cert.KernelIdeal.τ).loc Cert.KernelIdeal.main_arg14) : FVec Ideal S40 .f32) i = (r : EReal)) := by
  have e := congrFun (h c) ValueIdx.ix0
  dsimp only [fn, fn_part1, fn_part2, fn_part3] at e
  simp only [andi_apply_eq_one] at e
  obtain ⟨⟨⟨⟨⟨⟨⟨⟨⟨⟨⟨⟨e0, e3⟩, e4⟩, e5⟩, e6⟩, e7⟩, e8⟩, e9⟩, e10⟩, e11⟩, e12⟩, e13⟩, e14⟩ := e
  exact ⟨all_real _ _ _ _ e0, all_real _ _ _ _ e3, all_real _ _ _ _ e4, all_real _ _ _ _ e5, all_real _ _ _ _ e6,
    all_real _ _ _ _ e7, all_real _ _ _ _ e8, all_real _ _ _ _ e9, all_real _ _ _ _ e10, all_real _ _ _ _ e11,
    all_real _ _ _ _ e12, all_real _ _ _ _ e13, all_real _ _ _ _ e14⟩

end Cert.Proof.PreReal

end
-- ==== Proof.lean ====
/-
  The fused graph-convolution network against its reference, on the extended reals.

  Both programs compute, from node features `x`, an edge list `(src, dst)` and the parameters of three linear layers,
      out = relu(bn₂(A₂)) · W_f + b_f,   A₂ = agg(relu(bn₁(A₁)) · W₂) + b₂,   A₁ = agg(bn₀(x) · W₁) + b₁,
  where `bn` normalises every column by its mean and variance over the nodes and `agg` sums, into each node, the rows of
  its in-neighbours weighted by `deg^(-1/2)(src) · deg^(-1/2)(dst)`, plus the node's own row weighted by `1/deg`.
  The reference normalises first, `g · (x − μ) · ρ + b` with `ρ = (var + ε)^(-1/2)`, and multiplies by the weight
  afterwards. The fused program folds the normalisation into a per-column scale `g · ρ` and shift `b − μ · g · ρ` and
  computes `(x · scale + shift) · W` in row blocks of 5000 nodes (rounding to a narrower float on the way into the
  product, which is the identity on the extended reals). The two agree because, for REAL `x`, `g`, `b`, the mean is real,
  the variance is a non-negative real, `ε > 0`, so `ρ` is real, and `x · (g·ρ) + (b − μ·(g·ρ)) = g · (x − μ) · ρ + b` by
  distributivity; the aggregation is literally the same operation in both programs and sends real arrays to real arrays
  (the degree is at least one), so the argument repeats at each layer. Finiteness of the float inputs is the claim's
  precondition. The idealised program differs from the word-level one by no recorded rewrite.
-/
import proofs.«145119_j4501125726314_1_alg».proof.Defs
import proofs.«145119_j4501125726314_1_alg».proof.Proof.Gen.Kernel
import proofs.«145119_j4501125726314_1_alg».proof.Proof.Gen.Kernel.Frame
import proofs.«145119_j4501125726314_1_alg».proof.Proof.Gen.KernelIdeal
import proofs.«145119_j4501125726314_1_alg».proof.Proof.Gen.KernelIdeal.Frame
import proofs.«145119_j4501125726314_1_alg».proof.Proof.Gen.ReferenceIdeal
import proofs.«145119_j4501125726314_1_alg».proof.Proof.Gen.Pre_finite_inputs
import proofs.«145119_j4501125726314_1_alg».proof.Proof.KernelRun
import proofs.«145119_j4501125726314_1_alg».proof.Proof.KernelValue
import proofs.«145119_j4501125726314_1_alg».proof.Proof.RefRun
import proofs.«145119_j4501125726314_1_alg».proof.Proof.PreReal
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_kernel : Cert.frame_Kernel := fun m ρ _ => Cert.Kernel.Gen.frame m ρ

/-- The idealised program runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealisation recorded no rewrite. -/
theorem preserves : Cert.preserves_Kernel_KernelIdeal := trivial

/-- On finite inputs the fused program's result is the reference's, entry by entry. -/
theorem algebraic : Cert.algebraic_KernelIdeal_ReferenceIdeal := by
  intro m ρ m' ρ' hpre hagree
  refine ⟨fun c => Cert.KernelIdeal.RunValue.refOut m c, ?_, ?_⟩
  · refine (θ_run Cert.KernelIdeal.defs _ _).mono (fun r h c => ⟨(h c).1.trans ?_, (h c).2⟩)
      (Cert.KernelIdeal.RunValue.run_result (F := Ideal) m ρ)
    obtain ⟨h0, h3, h4, h5, h6, h7, h8, h9, h10, h11, h12, -, -⟩ := Cert.Proof.PreReal.inputs_real m hpre c
    exact Cert.KernelIdeal.RunValue.result_eq m ρ c h0 h3 h4 h5 h6 h7 h8 h9 h10 h11 h12
  · refine (θ_run Cert.ReferenceIdeal.defs _ _).mono (fun r h c => ⟨(h c).1.trans ?_, (h c).2⟩)
      (Cert.ReferenceIdeal.RunP.run (F := Ideal) m' ρ')
    obtain ⟨e0, e1, e2, e3, e4, e5, e6, e7, e8, e9, e10, e11, e12, e13, e14⟩ := hagree c
    rw [e0, e1, e2, e3, e4, e5, e6, e7, e8, e9, e10, e11, e12, e13, e14]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
